-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1250000 : Shape := ⟨1, ![1250000]⟩
abbrev S625000 : Shape := ⟨1, ![625000]⟩
abbrev S100001 : Shape := ⟨1, ![100001]⟩
abbrev S100000 : Shape := ⟨1, ![100000]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel

variable [Facts]

def fn {F : FTy → Type} [FloatOps F] (main_arg0 : FVec F S1250000 .f32) (main_arg1 : IVec S625000 32) (main_arg2 : IVec S100001 32) (main_arg3 : IVec S100000 1) (main_arg4 : IVec S625000 32) : IVec S_ 1 :=
  let main_v0 : FVec F S1250000 .f32 := Host.absf main_arg0
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  main_v3
-- ==== Kernel.lean ====
abbrev S1250000 : Shape := ⟨1, ![1250000]⟩
abbrev S625000 : Shape := ⟨1, ![625000]⟩
abbrev S100001 : Shape := ⟨1, ![100001]⟩
abbrev S100000 : Shape := ⟨1, ![100000]⟩
abbrev S12 : Shape := ⟨1, ![12]⟩
abbrev S12x1 : Shape := ⟨2, ![12, 1]⟩
abbrev S1x100000 : Shape := ⟨2, ![1, 100000]⟩
abbrev S12x100000 : Shape := ⟨2, ![12, 100000]⟩
abbrev S_ : Shape := ⟨0, ![]⟩
abbrev S12x100000x1 : Shape := ⟨3, ![12, 100000, 1]⟩
abbrev S11x100000 : Shape := ⟨2, ![11, 100000]⟩
abbrev S11x102400 : Shape := ⟨2, ![11, 102400]⟩
abbrev S1x102400 : Shape := ⟨2, ![1, 102400]⟩
abbrev S2x8x128 : Shape := ⟨3, ![2, 8, 128]⟩
abbrev S11x5120 : Shape := ⟨2, ![11, 5120]⟩
abbrev S1x5120 : Shape := ⟨2, ![1, 5120]⟩
abbrev S1x8x128 : Shape := ⟨3, ![1, 8, 128]⟩
abbrev S8x128 : Shape := ⟨2, ![8, 128]⟩
abbrev S9x5120 : Shape := ⟨2, ![9, 5120]⟩
abbrev S5120 : Shape := ⟨1, ![5120]⟩
abbrev S8x5120 : Shape := ⟨2, ![8, 5120]⟩
abbrev S7x5120 : Shape := ⟨2, ![7, 5120]⟩
abbrev S6x5120 : Shape := ⟨2, ![6, 5120]⟩
abbrev S5x5120 : Shape := ⟨2, ![5, 5120]⟩
abbrev S4x5120 : Shape := ⟨2, ![4, 5120]⟩
abbrev S3x5120 : Shape := ⟨2, ![3, 5120]⟩
abbrev S2x5120 : Shape := ⟨2, ![2, 5120]⟩
abbrev S1 : Shape := ⟨1, ![1]⟩
abbrev S1x1 : Shape := ⟨2, ![1, 1]⟩

abbrev nBuf : Space → Nat
  | .hbm => 103
  | .vmem => 16
  | .smem => 0
  | _ => 0

abbrev bufTy : (tb : Table) → Fin (tcTables nBuf tb) → BufTy
  | .hbm, ⟨0, _⟩ => ⟨S1250000, .f32⟩
  | .hbm, ⟨1, _⟩ => ⟨S625000, .i32⟩
  | .hbm, ⟨2, _⟩ => ⟨S100001, .i32⟩
  | .hbm, ⟨3, _⟩ => ⟨S100000, .i1⟩
  | .hbm, ⟨4, _⟩ => ⟨S625000, .i32⟩
  | .hbm, ⟨5, _⟩ => ⟨S625000, .f32⟩
  | .hbm, ⟨6, _⟩ => ⟨S625000, .f32⟩
  | .hbm, ⟨7, _⟩ => ⟨S100000, .i32⟩
  | .hbm, ⟨8, _⟩ => ⟨S100000, .i32⟩
  | .hbm, ⟨9, _⟩ => ⟨S100000, .i32⟩
  | .hbm, ⟨10, _⟩ => ⟨S12, .i32⟩
  | .hbm, ⟨11, _⟩ => ⟨S12x1, .i32⟩
  | .hbm, ⟨12, _⟩ => ⟨S100000, .i32⟩
  | .hbm, ⟨13, _⟩ => ⟨S1x100000, .i32⟩
  | .hbm, ⟨14, _⟩ => ⟨S12x100000, .i32⟩
  | .hbm, ⟨15, _⟩ => ⟨S12x100000, .i32⟩
  | .hbm, ⟨16, _⟩ => ⟨S12x100000, .i32⟩
  | .hbm, ⟨17, _⟩ => ⟨S1x100000, .i32⟩
  | .hbm, ⟨18, _⟩ => ⟨S12x100000, .i32⟩
  | .hbm, ⟨19, _⟩ => ⟨S12x100000, .i32⟩
  | .hbm, ⟨20, _⟩ => ⟨S12x100000, .i1⟩
  | .hbm, ⟨21, _⟩ => ⟨S_, .i32⟩
  | .hbm, ⟨22, _⟩ => ⟨S_, .i32⟩
  | .hbm, ⟨23, _⟩ => ⟨S12x100000, .i32⟩
  | .hbm, ⟨24, _⟩ => ⟨S12x100000, .i32⟩
  | .hbm, ⟨25, _⟩ => ⟨S_, .i32⟩
  | .hbm, ⟨26, _⟩ => ⟨S12x100000, .i32⟩
  | .hbm, ⟨27, _⟩ => ⟨S12x100000, .i1⟩
  | .hbm, ⟨28, _⟩ => ⟨S_, .i32⟩
  | .hbm, ⟨29, _⟩ => ⟨S12x100000, .i32⟩
  | .hbm, ⟨30, _⟩ => ⟨S12x100000, .i32⟩
  | .hbm, ⟨31, _⟩ => ⟨S12x100000, .i32⟩
  | .hbm, ⟨32, _⟩ => ⟨S12x100000x1, .i32⟩
  | .hbm, ⟨33, _⟩ => ⟨S12x100000, .i32⟩
  | .hbm, ⟨34, _⟩ => ⟨S_, .i32⟩
  | .hbm, ⟨35, _⟩ => ⟨S12x100000, .i32⟩
  | .hbm, ⟨36, _⟩ => ⟨S12x100000, .i1⟩
  | .hbm, ⟨37, _⟩ => ⟨S_, .i32⟩
  | .hbm, ⟨38, _⟩ => ⟨S12x100000, .i32⟩
  | .hbm, ⟨39, _⟩ => ⟨S12x100000, .i32⟩
  | .hbm, ⟨40, _⟩ => ⟨S12x100000, .i32⟩
  | .hbm, ⟨41, _⟩ => ⟨S12x100000x1, .i32⟩
  | .hbm, ⟨42, _⟩ => ⟨S12x100000, .f32⟩
  | .hbm, ⟨43, _⟩ => ⟨S_, .i32⟩
  | .hbm, ⟨44, _⟩ => ⟨S12x100000, .i32⟩
  | .hbm, ⟨45, _⟩ => ⟨S12x100000, .i1⟩
  | .hbm, ⟨46, _⟩ => ⟨S_, .i32⟩
  | .hbm, ⟨47, _⟩ => ⟨S12x100000, .i32⟩
  | .hbm, ⟨48, _⟩ => ⟨S12x100000, .i32⟩
  | .hbm, ⟨49, _⟩ => ⟨S12x100000, .i32⟩
  | .hbm, ⟨50, _⟩ => ⟨S12x100000x1, .i32⟩
  | .hbm, ⟨51, _⟩ => ⟨S12x100000, .f32⟩
  | .hbm, ⟨52, _⟩ => ⟨S_, .i32⟩
  | .hbm, ⟨53, _⟩ => ⟨S12x100000, .i32⟩
  | .hbm, ⟨54, _⟩ => ⟨S12x100000, .i1⟩
  | .hbm, ⟨55, _⟩ => ⟨S_, .i32⟩
  | .hbm, ⟨56, _⟩ => ⟨S12x100000, .i32⟩
  | .hbm, ⟨57, _⟩ => ⟨S12x100000, .i32⟩
  | .hbm, ⟨58, _⟩ => ⟨S12x100000, .i32⟩
  | .hbm, ⟨59, _⟩ => ⟨S12x100000x1, .i32⟩
  | .hbm, ⟨60, _⟩ => ⟨S12x100000, .i32⟩
  | .hbm, ⟨61, _⟩ => ⟨S_, .i32⟩
  | .hbm, ⟨62, _⟩ => ⟨S12x100000, .i32⟩
  | .hbm, ⟨63, _⟩ => ⟨S12x100000, .i32⟩
  | .hbm, ⟨64, _⟩ => ⟨S_, .i32⟩
  | .hbm, ⟨65, _⟩ => ⟨S12x100000, .i32⟩
  | .hbm, ⟨66, _⟩ => ⟨S12x100000, .i32⟩
  | .hbm, ⟨67, _⟩ => ⟨S12x100000, .f32⟩
  | .hbm, ⟨68, _⟩ => ⟨S11x100000, .f32⟩
  | .hbm, ⟨69, _⟩ => ⟨S11x100000, .f32⟩
  | .hbm, ⟨70, _⟩ => ⟨S11x100000, .f32⟩
  | .hbm, ⟨71, _⟩ => ⟨S11x100000, .f32⟩
  | .hbm, ⟨72, _⟩ => ⟨S11x100000, .i1⟩
  | .hbm, ⟨73, _⟩ => ⟨S11x100000, .f32⟩
  | .hbm, ⟨74, _⟩ => ⟨S11x100000, .f32⟩
  | .hbm, ⟨75, _⟩ => ⟨S100000, .f32⟩
  | .hbm, ⟨76, _⟩ => ⟨S1x100000, .f32⟩
  | .hbm, ⟨77, _⟩ => ⟨S_, .i32⟩
  | .hbm, ⟨78, _⟩ => ⟨S_, .f32⟩
  | .hbm, ⟨79, _⟩ => ⟨S11x102400, .f32⟩
  | .hbm, ⟨80, _⟩ => ⟨S_, .i32⟩
  | .hbm, ⟨81, _⟩ => ⟨S_, .f32⟩
  | .hbm, ⟨82, _⟩ => ⟨S11x102400, .f32⟩
  | .hbm, ⟨83, _⟩ => ⟨S_, .i32⟩
  | .hbm, ⟨84, _⟩ => ⟨S_, .f32⟩
  | .hbm, ⟨85, _⟩ => ⟨S11x102400, .f32⟩
  | .hbm, ⟨86, _⟩ => ⟨S_, .i32⟩
  | .hbm, ⟨87, _⟩ => ⟨S_, .f32⟩
  | .hbm, ⟨88, _⟩ => ⟨S11x102400, .f32⟩
  | .hbm, ⟨89, _⟩ => ⟨S_, .i32⟩
  | .hbm, ⟨90, _⟩ => ⟨S_, .f32⟩
  | .hbm, ⟨91, _⟩ => ⟨S11x102400, .f32⟩
  | .hbm, ⟨92, _⟩ => ⟨S_, .i32⟩
  | .hbm, ⟨93, _⟩ => ⟨S_, .f32⟩
  | .hbm, ⟨94, _⟩ => ⟨S11x102400, .f32⟩
  | .hbm, ⟨95, _⟩ => ⟨S_, .i32⟩
  | .hbm, ⟨96, _⟩ => ⟨S_, .f32⟩
  | .hbm, ⟨97, _⟩ => ⟨S1x102400, .f32⟩
  | .hbm, ⟨98, _⟩ => ⟨S2x8x128, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .local _ .vmem, ⟨0, _⟩ => ⟨S11x5120, .f32⟩
  | .local _ .vmem, ⟨1, _⟩ => ⟨S11x5120, .f32⟩
  | .local _ .vmem, ⟨2, _⟩ => ⟨S11x5120, .f32⟩
  | .local _ .vmem, ⟨3, _⟩ => ⟨S11x5120, .f32⟩
  | .local _ .vmem, ⟨4, _⟩ => ⟨S11x5120, .f32⟩
  | .local _ .vmem, ⟨5, _⟩ => ⟨S11x5120, .f32⟩
  | .local _ .vmem, ⟨6, _⟩ => ⟨S11x5120, .f32⟩
  | .local _ .vmem, ⟨7, _⟩ => ⟨S11x5120, .f32⟩
  | .local _ .vmem, ⟨8, _⟩ => ⟨S11x5120, .f32⟩
  | .local _ .vmem, ⟨9, _⟩ => ⟨S11x5120, .f32⟩
  | .local _ .vmem, ⟨10, _⟩ => ⟨S11x5120, .f32⟩
  | .local _ .vmem, ⟨11, _⟩ => ⟨S11x5120, .f32⟩
  | .local _ .vmem, ⟨12, _⟩ => ⟨S1x5120, .f32⟩
  | .local _ .vmem, ⟨13, _⟩ => ⟨S1x5120, .f32⟩
  | .local _ .vmem, ⟨14, _⟩ => ⟨S1x8x128, .f32⟩
  | .local _ .vmem, ⟨15, _⟩ => ⟨S1x8x128, .f32⟩
  | _, _ => ⟨S1250000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_call1_v0 : Ref sig .tc := ⟨.hbm, 78, rfl⟩
abbrev main_v59 : Ref sig .tc := ⟨.hbm, 79, rfl⟩
abbrev main_c_11 : Ref sig .tc := ⟨.hbm, 80, rfl⟩
abbrev main_call2_v0 : Ref sig .tc := ⟨.hbm, 81, rfl⟩
abbrev main_v60 : Ref sig .tc := ⟨.hbm, 82, rfl⟩
abbrev main_c_12 : Ref sig .tc := ⟨.hbm, 83, rfl⟩
abbrev main_call3_v0 : Ref sig .tc := ⟨.hbm, 84, rfl⟩
abbrev main_v61 : Ref sig .tc := ⟨.hbm, 85, rfl⟩
abbrev main_c_13 : Ref sig .tc := ⟨.hbm, 86, rfl⟩
abbrev main_call4_v0 : Ref sig .tc := ⟨.hbm, 87, rfl⟩
abbrev main_v62 : Ref sig .tc := ⟨.hbm, 88, rfl⟩
abbrev main_c_14 : Ref sig .tc := ⟨.hbm, 89, rfl⟩
abbrev main_call5_v0 : Ref sig .tc := ⟨.hbm, 90, rfl⟩
abbrev main_v63 : Ref sig .tc := ⟨.hbm, 91, rfl⟩
abbrev main_c_15 : Ref sig .tc := ⟨.hbm, 92, rfl⟩
abbrev main_call6_v0 : Ref sig .tc := ⟨.hbm, 93, rfl⟩
abbrev main_v64 : Ref sig .tc := ⟨.hbm, 94, rfl⟩
abbrev main_c_16 : Ref sig .tc := ⟨.hbm, 95, rfl⟩
abbrev main_call7_v0 : Ref sig .tc := ⟨.hbm, 96, rfl⟩
abbrev main_v65 : Ref sig .tc := ⟨.hbm, 97, rfl⟩
abbrev main_v66 : Ref sig .tc := ⟨.hbm, 98, rfl⟩
abbrev main_cst : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S11x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S11x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S11x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S11x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S11x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S11x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S1250000_S625000_0 : S1250000.Slices ![0] S625000
  slices_S1250000_S625000_625000 : S1250000.Slices ![625000] S625000
  slices_S100001_S100000_1 : S100001.Slices ![1] S100000
  slices_S100001_S100000_0 : S100001.Slices ![0] S100000
  bcast_S12_S12x1_0 : S12.BroadcastsInDim S12x1 (![0] : Fin 1 → Fin S12x1.rank)
  bcast_S100000_S1x100000_1 : S100000.BroadcastsInDim S1x100000 (![1] : Fin 1 → Fin S1x100000.rank)
  bcast_S1x100000_S12x100000_0_1 : S1x100000.BroadcastsInDim S12x100000 (![0, 1] : Fin 2 → Fin S12x100000.rank)
  bcast_S12x1_S12x100000_0_1 : S12x1.BroadcastsInDim S12x100000 (![0, 1] : Fin 2 → Fin S12x100000.rank)
  bcast_S_S12x100000 : S_.BroadcastsInDim S12x100000 (![] : Fin 0 → Fin S12x100000.rank)
  bcast_S12x100000_S12x100000x1_0_1 : S12x100000.BroadcastsInDim S12x100000x1 (![0, 1] : Fin 2 → Fin S12x100000x1.rank)
  slices_S12x100000_S11x100000_0_0 : S12x100000.Slices ![0, 0] S11x100000
  slices_S12x100000_S11x100000_1_0 : S12x100000.Slices ![1, 0] S11x100000
  pads_S11x100000_S11x102400_000_024000 : S11x100000.Pads (![0, 0] : Fin 2 → Nat) ![0, 2400] ![0, 0] S11x102400
  h_S_ : 0 < S_.numel
  pads_S1x100000_S1x102400_000_024000 : S1x100000.Pads (![0, 0] : Fin 2 → Nat) ![0, 2400] ![0, 0] S1x102400
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S11x5120_S11x5120_0_0 : ∀ a, (![0, 0] : Fin 2 → Nat) a + S11x5120.size a ≤ S11x5120.size a
  h_S11x5120 : 0 < S11x5120.numel
  shapeCasts_S11x5120_S11x5120 : S11x5120.ShapeCasts S11x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  slices_S11x5120_o2_0_S9x5120 : S11x5120.Slices ![2, 0] S9x5120
  slices_S11x5120_o0_0_S1x5120 : S11x5120.Slices ![0, 0] S1x5120
  broadcasts_S1x5120_S9x5120 : S1x5120.Broadcasts S9x5120
  reduces_S9x5120_S5120 : S9x5120.Reduces [0] S5120
  shapeCasts_S5120_S1x5120 : S5120.ShapeCasts S1x5120
  slices_S11x5120_o3_0_S8x5120 : S11x5120.Slices ![3, 0] S8x5120
  slices_S11x5120_o1_0_S1x5120 : S11x5120.Slices ![1, 0] S1x5120
  broadcasts_S1x5120_S8x5120 : S1x5120.Broadcasts S8x5120
  reduces_S8x5120_S5120 : S8x5120.Reduces [0] S5120
  slices_S11x5120_o4_0_S7x5120 : S11x5120.Slices ![4, 0] S7x5120
  slices_S11x5120_o2_0_S1x5120 : S11x5120.Slices ![2, 0] S1x5120
  broadcasts_S1x5120_S7x5120 : S1x5120.Broadcasts S7x5120
  reduces_S7x5120_S5120 : S7x5120.Reduces [0] S5120
  slices_S11x5120_o5_0_S6x5120 : S11x5120.Slices ![5, 0] S6x5120
  slices_S11x5120_o3_0_S1x5120 : S11x5120.Slices ![3, 0] S1x5120
  broadcasts_S1x5120_S6x5120 : S1x5120.Broadcasts S6x5120
  reduces_S6x5120_S5120 : S6x5120.Reduces [0] S5120
  slices_S11x5120_o6_0_S5x5120 : S11x5120.Slices ![6, 0] S5x5120
  slices_S11x5120_o4_0_S1x5120 : S11x5120.Slices ![4, 0] S1x5120
  broadcasts_S1x5120_S5x5120 : S1x5120.Broadcasts S5x5120
  reduces_S5x5120_S5120 : S5x5120.Reduces [0] S5120
  slices_S11x5120_o7_0_S4x5120 : S11x5120.Slices ![7, 0] S4x5120
  slices_S11x5120_o5_0_S1x5120 : S11x5120.Slices ![5, 0] S1x5120
  broadcasts_S1x5120_S4x5120 : S1x5120.Broadcasts S4x5120
  reduces_S4x5120_S5120 : S4x5120.Reduces [0] S5120
  slices_S11x5120_o8_0_S3x5120 : S11x5120.Slices ![8, 0] S3x5120
  slices_S11x5120_o6_0_S1x5120 : S11x5120.Slices ![6, 0] S1x5120
  broadcasts_S1x5120_S3x5120 : S1x5120.Broadcasts S3x5120
  reduces_S3x5120_S5120 : S3x5120.Reduces [0] S5120
  slices_S11x5120_o9_0_S2x5120 : S11x5120.Slices ![9, 0] S2x5120
  slices_S11x5120_o7_0_S1x5120 : S11x5120.Slices ![7, 0] S1x5120
  broadcasts_S1x5120_S2x5120 : S1x5120.Broadcasts S2x5120
  reduces_S2x5120_S5120 : S2x5120.Reduces [0] S5120
  slices_S11x5120_o10_0_S1x5120 : S11x5120.Slices ![10, 0] S1x5120
  slices_S11x5120_o8_0_S1x5120 : S11x5120.Slices ![8, 0] S1x5120
  reduces_S1x5120_S5120 : S1x5120.Reduces [0] S5120
  reduces_S1x5120_S1 : S1x5120.Reduces [1] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  reducesTo_S2x8x128_S_d0_1_2 : S2x8x128.ReducesTo [0, 1, 2] S_
  gather_S625000_S12x100000x1_S12x100000_n_0_n_n_0_2_1_wf : GatherDims.WF S625000 S12x100000x1 S12x100000 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S11x5120.size a ≤ S11x102400.size a
  hwx0_0 : ∀ i : grid0.Coords, EltTy.bits .f32 = 32 ∨ (Rect.block (s := S11x102400) S11x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S11x5120.size a ≤ S11x102400.size a
  hwx0_1 : ∀ i : grid0.Coords, EltTy.bits .f32 = 32 ∨ (Rect.block (s := S11x102400) S11x5120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S11x5120.size a ≤ S11x102400.size a
  hwx0_2 : ∀ i : grid0.Coords, EltTy.bits .f32 = 32 ∨ (Rect.block (s := S11x102400) S11x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S11x5120.size a ≤ S11x102400.size a
  hwx0_3 : ∀ i : grid0.Coords, EltTy.bits .f32 = 32 ∨ (Rect.block (s := S11x102400) S11x5120.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S11x5120.size a ≤ S11x102400.size a
  hwx0_4 : ∀ i : grid0.Coords, EltTy.bits .f32 = 32 ∨ (Rect.block (s := S11x102400) S11x5120.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S11x5120.size a ≤ S11x102400.size a
  hwx0_5 : ∀ i : grid0.Coords, EltTy.bits .f32 = 32 ∨ (Rect.block (s := S11x102400) S11x5120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x5120.size a ≤ S1x102400.size a
  hwx0_6 : ∀ i : grid0.Coords, EltTy.bits .f32 = 32 ∨ (Rect.block (s := S1x102400) S1x5120.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

def gather_S625000_S12x100000x1_S12x100000_n_0_n_n_0_2_1 : GatherDims S625000 S12x100000x1 S12x100000 where
  offsetDims := []
  collapsedSliceDims := [0]
  operandBatchingDims := []
  startIndicesBatchingDims := []
  startIndexMap := [0]
  indexVectorDim := 2
  sliceSizes := ![1]
  wf := gather_S625000_S12x100000x1_S12x100000_n_0_n_n_0_2_1_wf

abbrev win0_0 : Pipeline.Window sig grid0 :=
  Pipeline.Window.ofSpec (Memref.whole main_v59) S11x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S11x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S11x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S11x5120.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63) S11x5120.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v64) S11x5120.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x5120.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v66) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1250000 : Shape := ⟨1, ![1250000]⟩
abbrev S625000 : Shape := ⟨1, ![625000]⟩
abbrev S100001 : Shape := ⟨1, ![100001]⟩
abbrev S100000 : Shape := ⟨1, ![100000]⟩
abbrev S12 : Shape := ⟨1, ![12]⟩
abbrev S100000x1 : Shape := ⟨2, ![100000, 1]⟩
abbrev S1x12 : Shape := ⟨2, ![1, 12]⟩
abbrev S100000x12 : Shape := ⟨2, ![100000, 12]⟩
abbrev S_ : Shape := ⟨0, ![]⟩
abbrev S100000x12x1 : Shape := ⟨3, ![100000, 12, 1]⟩
abbrev S100000x11 : Shape := ⟨2, ![100000, 11]⟩
abbrev S100000x11x1 : Shape := ⟨3, ![100000, 11, 1]⟩
abbrev S100000x1x11 : Shape := ⟨3, ![100000, 1, 11]⟩
abbrev S100000x11x11 : Shape := ⟨3, ![100000, 11, 11]⟩
abbrev S11 : Shape := ⟨1, ![11]⟩
abbrev S1x11 : Shape := ⟨2, ![1, 11]⟩
abbrev S11x1 : Shape := ⟨2, ![11, 1]⟩
abbrev S11x11 : Shape := ⟨2, ![11, 11]⟩
abbrev S1x11x11 : Shape := ⟨3, ![1, 11, 11]⟩
abbrev S100000x1x1 : Shape := ⟨3, ![100000, 1, 1]⟩

abbrev nBuf : Space → Nat
  | .hbm => 216
  | .vmem => 0
  | .smem => 0
  | _ => 0

abbrev hbmTy0_0 (i : Nat) : BufTy := match i % 128 with
  | 0 => ⟨S1250000, .f32⟩
  | 1 => ⟨S625000, .i32⟩
  | 2 => ⟨S100001, .i32⟩
  | 3 => ⟨S100000, .i1⟩
  | 4 => ⟨S625000, .i32⟩
  | 5 => ⟨S625000, .f32⟩
  | 6 => ⟨S625000, .f32⟩
  | 7 => ⟨S100000, .i32⟩
  | 8 => ⟨S100000, .i32⟩
  | 9 => ⟨S100000, .i32⟩
  | 10 => ⟨S12, .i32⟩
  | 11 => ⟨S100000, .i32⟩
  | 12 => ⟨S100000x1, .i32⟩
  | 13 => ⟨S1x12, .i32⟩
  | 14 => ⟨S100000x12, .i32⟩
  | 15 => ⟨S100000x12, .i32⟩
  | 16 => ⟨S100000x12, .i32⟩
  | 17 => ⟨S1x12, .i32⟩
  | 18 => ⟨S100000x1, .i32⟩
  | 19 => ⟨S100000x12, .i32⟩
  | 20 => ⟨S100000x12, .i32⟩
  | 21 => ⟨S100000x12, .i1⟩
  | 22 => ⟨S_, .i32⟩
  | 23 => ⟨S_, .i32⟩
  | 24 => ⟨S100000x12, .i32⟩
  | 25 => ⟨S100000x12, .i32⟩
  | 26 => ⟨S_, .i32⟩
  | 27 => ⟨S100000x12, .i32⟩
  | 28 => ⟨S100000x12, .i1⟩
  | 29 => ⟨S_, .i32⟩
  | 30 => ⟨S100000x12, .i32⟩
  | 31 => ⟨S100000x12, .i32⟩
  | 32 => ⟨S100000x12, .i32⟩
  | 33 => ⟨S100000x12x1, .i32⟩
  | 34 => ⟨S100000x12, .i32⟩
  | 35 => ⟨S_, .i32⟩
  | 36 => ⟨S100000x12, .i32⟩
  | 37 => ⟨S100000x12, .i1⟩
  | 38 => ⟨S_, .i32⟩
  | 39 => ⟨S100000x12, .i32⟩
  | 40 => ⟨S100000x12, .i32⟩
  | 41 => ⟨S100000x12, .i32⟩
  | 42 => ⟨S100000x12x1, .i32⟩
  | 43 => ⟨S100000x12, .f32⟩
  | 44 => ⟨S_, .i32⟩
  | 45 => ⟨S100000x12, .i32⟩
  | 46 => ⟨S100000x12, .i1⟩
  | 47 => ⟨S_, .i32⟩
  | 48 => ⟨S100000x12, .i32⟩
  | 49 => ⟨S100000x12, .i32⟩
  | 50 => ⟨S100000x12, .i32⟩
  | 51 => ⟨S100000x12x1, .i32⟩
  | 52 => ⟨S100000x12, .f32⟩
  | 53 => ⟨S_, .i32⟩
  | 54 => ⟨S100000x12, .i32⟩
  | 55 => ⟨S100000x12, .i1⟩
  | 56 => ⟨S_, .i32⟩
  | 57 => ⟨S100000x12, .i32⟩
  | 58 => ⟨S100000x12, .i32⟩
  | 59 => ⟨S100000x12, .i32⟩
  | 60 => ⟨S100000x12x1, .i32⟩
  | 61 => ⟨S100000x12, .i32⟩
  | 62 => ⟨S_, .i32⟩
  | 63 => ⟨S100000x12, .i32⟩
  | 64 => ⟨S100000x12, .i32⟩
  | 65 => ⟨S_, .i32⟩
  | 66 => ⟨S100000x12, .i32⟩
  | 67 => ⟨S100000x12, .i32⟩
  | 68 => ⟨S100000x12, .f32⟩
  | 69 => ⟨S100000x11, .f32⟩
  | 70 => ⟨S100000x11, .f32⟩
  | 71 => ⟨S100000x11, .f32⟩
  | 72 => ⟨S100000x11, .f32⟩
  | 73 => ⟨S100000x11, .i1⟩
  | 74 => ⟨S100000x11, .f32⟩
  | 75 => ⟨S100000x11, .f32⟩
  | 76 => ⟨S100000x11x1, .f32⟩
  | 77 => ⟨S100000x11, .f32⟩
  | 78 => ⟨S100000x11x1, .f32⟩
  | 79 => ⟨S100000x11, .f32⟩
  | 80 => ⟨S100000x1x11, .f32⟩
  | 81 => ⟨S100000x11, .f32⟩
  | 82 => ⟨S100000x1x11, .f32⟩
  | 83 => ⟨S100000x1x11, .f32⟩
  | 84 => ⟨S100000x11x1, .f32⟩
  | 85 => ⟨S100000x11x11, .f32⟩
  | 86 => ⟨S100000x11x11, .f32⟩
  | 87 => ⟨S100000x11x11, .f32⟩
  | 88 => ⟨S100000x1x11, .f32⟩
  | 89 => ⟨S100000x11x1, .f32⟩
  | 90 => ⟨S100000x11x11, .f32⟩
  | 91 => ⟨S100000x11x11, .f32⟩
  | 92 => ⟨S100000x11x11, .f32⟩
  | 93 => ⟨S100000x11x11, .f32⟩
  | 94 => ⟨S100000x11x11, .f32⟩
  | 95 => ⟨S100000x11x11, .f32⟩
  | 96 => ⟨S100000x11x11, .f32⟩
  | 97 => ⟨S100000x11x11, .f32⟩
  | 98 => ⟨S100000x1x11, .f32⟩
  | 99 => ⟨S100000x11x1, .f32⟩
  | 100 => ⟨S100000x11x11, .f32⟩
  | 101 => ⟨S100000x11x11, .f32⟩
  | 102 => ⟨S100000x11x11, .f32⟩
  | 103 => ⟨S100000x1x11, .f32⟩
  | 104 => ⟨S100000x11x1, .f32⟩
  | 105 => ⟨S100000x11x11, .f32⟩
  | 106 => ⟨S100000x11x11, .f32⟩
  | 107 => ⟨S100000x11x11, .f32⟩
  | 108 => ⟨S100000x11x11, .f32⟩
  | 109 => ⟨S100000x11x11, .f32⟩
  | 110 => ⟨S100000x11x11, .f32⟩
  | 111 => ⟨S100000x11x11, .f32⟩
  | 112 => ⟨S100000x11x11, .f32⟩
  | 113 => ⟨S100000x11x1, .f32⟩
  | 114 => ⟨S100000x1x11, .f32⟩
  | 115 => ⟨S100000x11x11, .f32⟩
  | 116 => ⟨S100000x11x11, .f32⟩
  | 117 => ⟨S100000x11x11, .f32⟩
  | 118 => ⟨S100000x11x1, .f32⟩
  | 119 => ⟨S100000x1x11, .f32⟩
  | 120 => ⟨S100000x11x11, .f32⟩
  | 121 => ⟨S100000x11x11, .f32⟩
  | 122 => ⟨S100000x11x11, .f32⟩
  | 123 => ⟨S100000x11x11, .f32⟩
  | 124 => ⟨S100000x11x11, .f32⟩
  | 125 => ⟨S100000x11x11, .f32⟩
  | 126 => ⟨S100000x11x11, .f32⟩
  | 127 => ⟨S100000x11x11, .f32⟩
  | _ => ⟨S1250000, .f32⟩

abbrev hbmTy0_1 (i : Nat) : BufTy := match i % 128 with
  | 0 => ⟨S100000x11x1, .f32⟩
  | 1 => ⟨S100000x1x11, .f32⟩
  | 2 => ⟨S100000x11x11, .f32⟩
  | 3 => ⟨S100000x11x11, .f32⟩
  | 4 => ⟨S100000x11x11, .f32⟩
  | 5 => ⟨S100000x11x1, .f32⟩
  | 6 => ⟨S100000x1x11, .f32⟩
  | 7 => ⟨S100000x11x11, .f32⟩
  | 8 => ⟨S100000x11x11, .f32⟩
  | 9 => ⟨S100000x11x11, .f32⟩
  | 10 => ⟨S100000x11x11, .f32⟩
  | 11 => ⟨S100000x11x11, .f32⟩
  | 12 => ⟨S100000x11x11, .f32⟩
  | 13 => ⟨S100000x11x11, .f32⟩
  | 14 => ⟨S100000x11x11, .f32⟩
  | 15 => ⟨S100000x11x11, .f32⟩
  | 16 => ⟨S_, .f32⟩
  | 17 => ⟨S100000x11x11, .f32⟩
  | 18 => ⟨S100000x11x11, .f32⟩
  | 19 => ⟨S100000x11x11, .f32⟩
  | 20 => ⟨S_, .f32⟩
  | 21 => ⟨S100000x11x11, .f32⟩
  | 22 => ⟨S100000x11x11, .f32⟩
  | 23 => ⟨S100000x11x11, .f32⟩
  | 24 => ⟨S100000x11x11, .f32⟩
  | 25 => ⟨S_, .f32⟩
  | 26 => ⟨S100000x11x11, .f32⟩
  | 27 => ⟨S100000x11x11, .f32⟩
  | 28 => ⟨S_, .f32⟩
  | 29 => ⟨S100000x11x11, .f32⟩
  | 30 => ⟨S100000x11x11, .f32⟩
  | 31 => ⟨S100000x11x11, .f32⟩
  | 32 => ⟨S_, .f32⟩
  | 33 => ⟨S100000x11x11, .f32⟩
  | 34 => ⟨S100000x11x11, .f32⟩
  | 35 => ⟨S100000x11x11, .f32⟩
  | 36 => ⟨S_, .f32⟩
  | 37 => ⟨S100000x11x11, .f32⟩
  | 38 => ⟨S100000x11x11, .f32⟩
  | 39 => ⟨S100000x11x11, .f32⟩
  | 40 => ⟨S100000x11x11, .f32⟩
  | 41 => ⟨S_, .f32⟩
  | 42 => ⟨S100000x11x11, .f32⟩
  | 43 => ⟨S100000x11x11, .f32⟩
  | 44 => ⟨S_, .f32⟩
  | 45 => ⟨S100000x11x11, .f32⟩
  | 46 => ⟨S100000x11x11, .f32⟩
  | 47 => ⟨S100000x11x11, .f32⟩
  | 48 => ⟨S100000x11x1, .f32⟩
  | 49 => ⟨S100000x1x11, .f32⟩
  | 50 => ⟨S100000x11x11, .f32⟩
  | 51 => ⟨S100000x11x11, .f32⟩
  | 52 => ⟨S100000x11x11, .f32⟩
  | 53 => ⟨S_, .f32⟩
  | 54 => ⟨S100000x11x11, .f32⟩
  | 55 => ⟨S100000x11x11, .f32⟩
  | 56 => ⟨S_, .f32⟩
  | 57 => ⟨S100000x11x11, .f32⟩
  | 58 => ⟨S100000x11x11, .f32⟩
  | 59 => ⟨S11, .i32⟩
  | 60 => ⟨S1x11, .i32⟩
  | 61 => ⟨S11x1, .i32⟩
  | 62 => ⟨S_, .i32⟩
  | 63 => ⟨S11x1, .i32⟩
  | 64 => ⟨S11x1, .i32⟩
  | 65 => ⟨S11x11, .i32⟩
  | 66 => ⟨S11x11, .i32⟩
  | 67 => ⟨S11x11, .i1⟩
  | 68 => ⟨S100000x11x1, .i1⟩
  | 69 => ⟨S100000x1x11, .i1⟩
  | 70 => ⟨S100000x11x11, .i1⟩
  | 71 => ⟨S100000x11x11, .i1⟩
  | 72 => ⟨S100000x11x11, .i1⟩
  | 73 => ⟨S1x11x11, .i1⟩
  | 74 => ⟨S100000x11x11, .i1⟩
  | 75 => ⟨S100000x11x11, .i1⟩
  | 76 => ⟨S100000x1x1, .i1⟩
  | 77 => ⟨S100000x11x11, .i1⟩
  | 78 => ⟨S100000x11x11, .i1⟩
  | 79 => ⟨S100000x11x11, .f32⟩
  | 80 => ⟨S_, .f32⟩
  | 81 => ⟨S_, .f32⟩
  | 82 => ⟨S100000x11x11, .f32⟩
  | 83 => ⟨S100000x11x11, .f32⟩
  | 84 => ⟨S_, .f32⟩
  | 85 => ⟨S_, .f32⟩
  | 86 => ⟨S_, .f32⟩
  | 87 => ⟨S_, .f32⟩
  | _ => ⟨S1250000, .f32⟩

abbrev hbmTy (i : Nat) : BufTy := match i / 128 with
  | 0 => hbmTy0_0 i
  | 1 => hbmTy0_1 i
  | _ => ⟨S1250000, .f32⟩

abbrev bufTy : (tb : Table) → Fin (tcTables nBuf tb) → BufTy
  | .hbm, ⟨i, _⟩ => hbmTy i
  | _, _ => ⟨S1250000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_cst : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_10 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_11 : Ref sig .tc := ⟨.hbm, 153, rfl⟩
abbrev main_v133 : Ref sig .tc := ⟨.hbm, 154, rfl⟩
abbrev main_v134 : Ref sig .tc := ⟨.hbm, 155, rfl⟩
abbrev main_cst_12 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_13 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_14 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_15 : Ref sig .tc := ⟨.hbm, 169, rfl⟩
abbrev main_v145 : Ref sig .tc := ⟨.hbm, 170, rfl⟩
abbrev main_v146 : Ref sig .tc := ⟨.hbm, 171, rfl⟩
abbrev main_cst_16 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_cst_17 : Ref sig .tc := ⟨.hbm, 181, rfl⟩
abbrev main_v155 : Ref sig .tc := ⟨.hbm, 182, rfl⟩
abbrev main_v156 : Ref sig .tc := ⟨.hbm, 183, rfl⟩
abbrev main_cst_18 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_c_19 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_cst_20 : Ref sig .tc := ⟨.hbm, 208, rfl⟩
abbrev main_call1_v0 : Ref sig .tc := ⟨.hbm, 209, rfl⟩
abbrev main_call1_v1 : Ref sig .tc := ⟨.hbm, 210, rfl⟩
abbrev main_v179 : Ref sig .tc := ⟨.hbm, 211, rfl⟩
abbrev main_cst_21 : Ref sig .tc := ⟨.hbm, 212, rfl⟩
abbrev main_v180 : Ref sig .tc := ⟨.hbm, 213, rfl⟩
abbrev main_cst_22 : Ref sig .tc := ⟨.hbm, 214, rfl⟩
abbrev main_v181 : Ref sig .tc := ⟨.hbm, 215, rfl⟩

abbrev nD : Nat := 1
abbrev τ : Topo := Topo.v7x

variable {F : FTy → Type} [FloatOps F]

class Facts₀ : Prop where
  slices_S1250000_S625000_0 : S1250000.Slices ![0] S625000
  slices_S1250000_S625000_625000 : S1250000.Slices ![625000] S625000
  slices_S100001_S100000_1 : S100001.Slices ![1] S100000
  slices_S100001_S100000_0 : S100001.Slices ![0] S100000
  bcast_S100000_S100000x1_0 : S100000.BroadcastsInDim S100000x1 (![0] : Fin 1 → Fin S100000x1.rank)
  bcast_S12_S1x12_1 : S12.BroadcastsInDim S1x12 (![1] : Fin 1 → Fin S1x12.rank)
  bcast_S100000x1_S100000x12_0_1 : S100000x1.BroadcastsInDim S100000x12 (![0, 1] : Fin 2 → Fin S100000x12.rank)
  bcast_S1x12_S100000x12_0_1 : S1x12.BroadcastsInDim S100000x12 (![0, 1] : Fin 2 → Fin S100000x12.rank)
  bcast_S_S100000x12 : S_.BroadcastsInDim S100000x12 (![] : Fin 0 → Fin S100000x12.rank)
  bcast_S100000x12_S100000x12x1_0_1 : S100000x12.BroadcastsInDim S100000x12x1 (![0, 1] : Fin 2 → Fin S100000x12x1.rank)
  slices_S100000x12_S100000x11_0_0 : S100000x12.Slices ![0, 0] S100000x11
  slices_S100000x12_S100000x11_0_1 : S100000x12.Slices ![0, 1] S100000x11
  bcast_S100000x11_S100000x11x1_0_1 : S100000x11.BroadcastsInDim S100000x11x1 (![0, 1] : Fin 2 → Fin S100000x11x1.rank)
  bcast_S100000x11_S100000x1x11_0_2 : S100000x11.BroadcastsInDim S100000x1x11 (![0, 2] : Fin 2 → Fin S100000x1x11.rank)
  bcast_S100000x1x11_S100000x11x11_0_1_2 : S100000x1x11.BroadcastsInDim S100000x11x11 (![0, 1, 2] : Fin 3 → Fin S100000x11x11.rank)
  bcast_S100000x11x1_S100000x11x11_0_1_2 : S100000x11x1.BroadcastsInDim S100000x11x11 (![0, 1, 2] : Fin 3 → Fin S100000x11x11.rank)
  bcast_S_S100000x11x11 : S_.BroadcastsInDim S100000x11x11 (![] : Fin 0 → Fin S100000x11x11.rank)
  bcast_S11_S1x11_1 : S11.BroadcastsInDim S1x11 (![1] : Fin 1 → Fin S1x11.rank)
  bcast_S11_S11x1_0 : S11.BroadcastsInDim S11x1 (![0] : Fin 1 → Fin S11x1.rank)
  bcast_S_S11x1 : S_.BroadcastsInDim S11x1 (![] : Fin 0 → Fin S11x1.rank)
  bcast_S1x11_S11x11_0_1 : S1x11.BroadcastsInDim S11x11 (![0, 1] : Fin 2 → Fin S11x11.rank)
  bcast_S11x1_S11x11_0_1 : S11x1.BroadcastsInDim S11x11 (![0, 1] : Fin 2 → Fin S11x11.rank)
  bcast_S11x11_S1x11x11_1_2 : S11x11.BroadcastsInDim S1x11x11 (![1, 2] : Fin 2 → Fin S1x11x11.rank)
  bcast_S1x11x11_S100000x11x11_0_1_2 : S1x11x11.BroadcastsInDim S100000x11x11 (![0, 1, 2] : Fin 3 → Fin S100000x11x11.rank)
  bcast_S100000_S100000x1x1_0 : S100000.BroadcastsInDim S100000x1x1 (![0] : Fin 1 → Fin S100000x1x1.rank)
  bcast_S100000x1x1_S100000x11x11_0_1_2 : S100000x1x1.BroadcastsInDim S100000x11x11 (![0, 1, 2] : Fin 3 → Fin S100000x11x11.rank)
  reducesTo_S100000x11x11_S_d0_1_2 : S100000x11x11.ReducesTo [0, 1, 2] S_
  h_S_ : 0 < S_.numel
  gather_S625000_S100000x12x1_S100000x12_n_0_n_n_0_2_1_wf : GatherDims.WF S625000 S100000x12x1 S100000x12 [] [0] [] [0] [] 2 ![1]

variable [Facts₀]

def gather_S625000_S100000x12x1_S100000x12_n_0_n_n_0_2_1 : GatherDims S625000 S100000x12x1 S100000x12 where
  offsetDims := []
  collapsedSliceDims := [0]
  operandBatchingDims := []
  startIndicesBatchingDims := []
  startIndexMap := [0]
  indexVectorDim := 2
  sliceSizes := ![1]
  wf := gather_S625000_S100000x12x1_S100000x12_n_0_n_n_0_2_1_wf

class Facts : Prop extends Facts₀ where

variable [Facts]
-- ==== Proof.Spec.lean ====
/-
  The mathematics of the net-crossing metric, with no program in sight.

  A netlist in CSR form: net `n` owns the pins `nps n … nps (n+1) - 1` of the flat list `fnp`; pin coordinates are the two
  halves of `pos`; `psd` gives each pin a side. Net `n` is laid out as a chain of twelve slots; slot `k` is VALID when
  `k < deg n`, holds pin `fnp[nps n + k]` (slot 0's pin when invalid), with jnp's index conventions: a negative index
  wraps once by the array length (`wrap`), and the gather clamps into the array (`clamp`).  Segment `k` of the chain joins
  slot `k` to slot `k+1`; it is valid when slot `k+1` is, and carries the side of slot `k`.

  For two segments `i`, `j` of a net the smoothed crossing indicator is the product of two logistic functions of the
  orientation tests `s1·s2` and `s3·s4`, weighted by `½(1 + sideᵢ·sideⱼ)`; the metric sums it over the strictly
  non-adjacent ordered pairs `j > i + 1` of valid segments of the masked nets.

  Two spellings of the indicator are kept apart: `crossR` (every orientation test as a cross product of differences) and
  `crossK` (the third test as the negative of a cross product with the differences reversed, negation as subtraction from
  zero, the logistic function by name).  They agree whenever the six coordinates that enter the third test are real
  numbers (`crossK_eq_crossR`); on the extended reals they need not.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace NetCross

/-- The four float literals of the metric, as the extended reals their f32 patterns denote. -/
abbrev ZERO : EReal := Ideal.ofBits .f32 0x00000000#32
abbrev ONE : EReal := Ideal.ofBits .f32 0x3F800000#32
abbrev HALF : EReal := Ideal.ofBits .f32 0x3F000000#32
abbrev MU : EReal := Ideal.ofBits .f32 0x3C23D70A#32

theorem ZERO_eq : ZERO = 0 := Ideal.ofBits_zero_f32
theorem ONE_eq : ONE = ((1 : ℝ) : EReal) := by
  rw [EReal.coe_one]
  exact IdealRules.sign_bit.ideal_onePat .f32

/-! ## The chain of a net -/

section Chain

variable (pos : (⟨1, ![1250000]⟩ : Shape).Idx → EReal) (fnp : (⟨1, ![625000]⟩ : Shape).Idx → BitVec 32)
  (nps : (⟨1, ![100001]⟩ : Shape).Idx → BitVec 32) (nmk : (⟨1, ![100000]⟩ : Shape).Idx → BitVec 1)
  (psd : (⟨1, ![625000]⟩ : Shape).Idx → BitVec 32)

/-- A negative index counts from the end of the pin list, once. -/
def wrap (v : BitVec 32) : BitVec 32 := Scalar.select (IntOp.cmpi .slt v 0#32) (IntOp.addi v 625000#32) v

/-- A start index read signed and clamped into the pin list. -/
def clamp (v : BitVec 32) : Fin 625000 := ⟨min v.toInt.toNat (625000 - 1), by omega⟩

/-- The number of pins of net `n`, as the 32-bit difference of its two CSR offsets. -/
def deg (n : Fin 100000) : BitVec 32 :=
  IntOp.subi (nps (ix1 ⟨n.val + 1, by have := n.isLt; omega⟩)) (nps (ix1 ⟨n.val, by have := n.isLt; omega⟩))

/-- Slot `k` of net `n` holds a pin of the net. -/
def valid (n : Fin 100000) (k : Fin 12) : BitVec 1 := IntOp.cmpi .slt (BitVec.ofNat 32 k.val) (deg nps n)

/-- The position in the flat pin list that slot `k` of net `n` reads: `nps n + k`, or `0` for an invalid slot. -/
def pid (n : Fin 100000) (k : Fin 12) : BitVec 32 :=
  Scalar.select (valid nps n k) (IntOp.addi (nps (ix1 ⟨n.val, by have := n.isLt; omega⟩)) (BitVec.ofNat 32 k.val)) 0#32

/-- The pin in slot `k` of net `n`. -/
def pin (n : Fin 100000) (k : Fin 12) : BitVec 32 := fnp (ix1 (clamp (wrap (pid nps n k))))

/-- That pin as a position in the coordinate and side arrays. -/
def pinIx (n : Fin 100000) (k : Fin 12) : Fin 625000 := clamp (wrap (pin fnp nps n k))

/-- The pin's x coordinate: the first half of `pos`. -/
def px (n : Fin 100000) (k : Fin 12) : EReal :=
  pos (ix1 ⟨(pinIx fnp nps n k).val, by have := (pinIx fnp nps n k).isLt; omega⟩)

/-- The pin's y coordinate: the second half of `pos`. -/
def py (n : Fin 100000) (k : Fin 12) : EReal :=
  pos (ix1 ⟨625000 + (pinIx fnp nps n k).val, by have := (pinIx fnp nps n k).isLt; omega⟩)

/-- The pin's side as ±1: `2·side − 1` in 32-bit integers, then exactly as a real. -/
def side (n : Fin 100000) (k : Fin 12) : EReal :=
  (((IntOp.subi (IntOp.muli 2#32 (psd (ix1 (pinIx fnp nps n k)))) 1#32).toInt : ℝ) : EReal)

end Chain

/-! ## One pair of segments -/

/-- The smoothing of an orientation product `x`: `1 / (1 + e^{-(-(x - μ)/1)})`, spelled with negations. -/
def sgR (x : EReal) : EReal := Ideal.div ONE (ONE + Ideal.exp (-(Ideal.div (-(x - MU)) ONE)))

/-- The same smoothing spelled with a subtraction from zero and the logistic function by name. -/
def sgK (x : EReal) : EReal := Ideal.logistic (Ideal.div (ZERO - (x - MU)) ONE)

/-- The smoothed crossing indicator of segments `i = (a_i, b_i)`, `j = (a_j, b_j)`: every orientation test a cross
    product of differences. -/
def crossR (axi ayi bxi byi axj ayj bxj byj : EReal) : EReal :=
  sgR (((bxi - axi) * (ayj - ayi) - (byi - ayi) * (axj - axi)) * ((bxi - axi) * (byj - ayi) - (byi - ayi) * (bxj - axi)))
  * sgR (((bxj - axj) * (ayi - ayj) - (byj - ayj) * (axi - axj)) * ((bxj - axj) * (byi - ayj) - (byj - ayj) * (bxi - axj)))

/-- The same indicator with the third test as zero minus the cross product with `a_j − a_i`. -/
def crossK (axi ayi bxi byi axj ayj bxj byj : EReal) : EReal :=
  sgK (((bxi - axi) * (ayj - ayi) - (byi - ayi) * (axj - axi)) * ((bxi - axi) * (byj - ayi) - (byi - ayi) * (bxj - axi)))
  * sgK ((ZERO - ((bxj - axj) * (ayj - ayi) - (byj - ayj) * (axj - axi))) * ((bxj - axj) * (byi - ayj) - (byj - ayj) * (bxi - axj)))

/-- The side weight: `½ (1 + sᵢ sⱼ)`, one for equal sides and zero for opposite ones. -/
def wgt (ssi ssj : EReal) : EReal := HALF * (ONE + ssi * ssj)

/-- The two smoothings are one function on every extended real: `0 - y = -y`, and the logistic function is
    `1 / (1 + e^{-y})` by definition. -/
theorem sgK_eq_sgR (x : EReal) : sgK x = sgR x := by
  unfold sgK sgR Ideal.logistic
  rw [ZERO_eq, zero_sub, ONE_eq]
  rfl

/-- With the six coordinates of the third test real, the reversed differences only change a sign twice. -/
theorem crossK_eq_crossR (axi ayi axj ayj bxj byj : ℝ) (bxi byi : EReal) :
    crossK axi ayi bxi byi axj ayj bxj byj = crossR axi ayi bxi byi axj ayj bxj byj := by
  unfold crossK crossR
  rw [sgK_eq_sgR, sgK_eq_sgR]
  have e : ZERO - (((bxj : EReal) - axj) * ((ayj : EReal) - ayi) - ((byj : EReal) - ayj) * ((axj : EReal) - axi))
      = ((bxj : EReal) - axj) * ((ayi : EReal) - ayj) - ((byj : EReal) - ayj) * ((axi : EReal) - axj) := by
    rw [ZERO_eq, zero_sub]
    simp only [← EReal.coe_sub, ← EReal.coe_mul, ← EReal.coe_neg]
    congr 1
    ring
  rw [e]

/-! ## The metric -/

section Metric

variable (pos : (⟨1, ![1250000]⟩ : Shape).Idx → EReal) (fnp : (⟨1, ![625000]⟩ : Shape).Idx → BitVec 32)
  (nps : (⟨1, ![100001]⟩ : Shape).Idx → BitVec 32) (nmk : (⟨1, ![100000]⟩ : Shape).Idx → BitVec 1)
  (psd : (⟨1, ![625000]⟩ : Shape).Idx → BitVec 32)

/-- Slot `k` and slot `k+1` of a segment `k < 11`. -/
abbrev lo (k : Fin 11) : Fin 12 := ⟨k.val, by have := k.isLt; omega⟩
abbrev hi (k : Fin 11) : Fin 12 := ⟨k.val + 1, by have := k.isLt; omega⟩

/-- Segment `j` comes strictly after segment `i`'s neighbour, compared as 32-bit signed integers. -/
def nonadj (i j : Fin 11) : BitVec 1 := IntOp.cmpi .sgt (BitVec.ofNat 32 j.val) (IntOp.addi (BitVec.ofNat 32 i.val) 1#32)

/-- The pair `(i, j)` of net `n` counts: both segments valid, non-adjacent in order, the net masked in. -/
def maskR (n : Fin 100000) (i j : Fin 11) : BitVec 1 :=
  IntOp.andi (IntOp.andi (IntOp.andi (valid nps n (hi i)) (valid nps n (hi j))) (nonadj i j)) (nmk (ix1 n))

/-- The contribution of the ordered pair `(i, j)` of net `n`: the weighted indicator where the pair counts, else zero. -/
def termR (n : Fin 100000) (i j : Fin 11) : EReal :=
  Scalar.select (maskR nps nmk n i j)
    (crossR (px pos fnp nps n (lo i)) (py pos fnp nps n (lo i)) (px pos fnp nps n (hi i)) (py pos fnp nps n (hi i))
            (px pos fnp nps n (lo j)) (py pos fnp nps n (lo j)) (px pos fnp nps n (hi j)) (py pos fnp nps n (hi j))
      * wgt (side fnp nps psd n (lo i)) (side fnp nps psd n (lo j)))
    ZERO

/-- THE METRIC: one times (zero plus the sum over nets and ordered segment pairs). -/
def G : EReal := ONE * (ZERO + ∑ n : Fin 100000, ∑ i : Fin 11, ∑ j : Fin 11, termR pos fnp nps nmk psd n i j)

/-! ### The same nets laid out with the net index last and padded to 102400 lanes -/

/-- The value padding writes: the integer zero as a float. -/
abbrev PAD : EReal := (((0#32 : BitVec 32).toInt : ℝ) : EReal)

/-- Segment start x of lane `n`: the net's, or padding past the last net. -/
def AX (k : Fin 11) (n : Fin 102400) : EReal := if h : n.val < 100000 then px pos fnp nps ⟨n.val, h⟩ (lo k) else PAD
def AY (k : Fin 11) (n : Fin 102400) : EReal := if h : n.val < 100000 then py pos fnp nps ⟨n.val, h⟩ (lo k) else PAD
def BX (k : Fin 11) (n : Fin 102400) : EReal := if h : n.val < 100000 then px pos fnp nps ⟨n.val, h⟩ (hi k) else PAD
def BY (k : Fin 11) (n : Fin 102400) : EReal := if h : n.val < 100000 then py pos fnp nps ⟨n.val, h⟩ (hi k) else PAD
/-- Segment validity of lane `n` as 0 or 1. -/
def SV (k : Fin 11) (n : Fin 102400) : EReal :=
  if h : n.val < 100000 then (((valid nps ⟨n.val, h⟩ (hi k)).toNat : ℝ) : EReal) else PAD
def SS (k : Fin 11) (n : Fin 102400) : EReal := if h : n.val < 100000 then side fnp nps psd ⟨n.val, h⟩ (lo k) else PAD
/-- The net mask of lane `n` as 0 or 1. -/
def NM (n : Fin 102400) : EReal := if h : n.val < 100000 then (((nmk (ix1 ⟨n.val, h⟩)).toNat : ℝ) : EReal) else PAD

/-- The contribution of the pair `(i, j)` in lane `n`, from seven lane-major arrays: the weighted indicator where the
    product of the two validities and the mask is positive, else zero. -/
def termK (ax ay bx by' sv ss : Fin 11 → Fin 102400 → EReal) (nm : Fin 102400 → EReal) (n : Fin 102400) (i j : Fin 11) : EReal :=
  Scalar.select (Ideal.cmp .ogt (sv i n * sv j n * nm n) ZERO)
    (crossK (ax i n) (ay i n) (bx i n) (by' i n) (ax j n) (ay j n) (bx j n) (by' j n) * wgt (ss i n) (ss j n))
    ZERO

/-- Lane `l` of the block that grid point `(p, t)` reads: blocks are 5120 lanes wide, ten per value of `p`. -/
def lane (p : Fin 2) (t : Fin 10) (l : Fin 5120) : Fin 102400 :=
  ⟨(p.val * 10 + t.val) * 5120 + l.val, by have := p.isLt; have := t.isLt; have := l.isLt; omega⟩

/-- One lane's total: the strictly non-adjacent ordered pairs `j > i + 1` of a lane-indexed family of pair terms. -/
def laneK (T : Fin 102400 → Fin 11 → Fin 11 → EReal) (n : Fin 102400) : EReal :=
  ∑ i : Fin 11, ∑ j : Fin 11, if i.val + 1 < j.val then T n i j else 0

/-- The lane totals summed block by block: one times (zero plus the sum over the 2 × 10 blocks and their 5120 lanes). -/
def Kform (T : Fin 102400 → Fin 11 → Fin 11 → EReal) : EReal :=
  ONE * (ZERO + ∑ p : Fin 2, ∑ t : Fin 10, ∑ l : Fin 5120, laneK T (lane p t l))

end Metric

end NetCross

end
-- ==== Proof.RefValue.lean ====
/-
  The reference computation, read index by index, is the net-crossing metric `NetCross.G`.

  The program lays each net out as a chain of twelve slots (offset plus column where the column is below the net's
  degree, else zero; a negative index wrapped once; every lookup clamped into its array), takes the pins' coordinates
  and sides, cuts the chain into eleven segments, and for every ordered pair of segments of a net forms the four
  orientation tests, their two smoothings, the side weight and the mask, all as rank-3 arrays over
  (net, segment i, segment j) obtained by repeating rank-2 segment arrays along the other segment's axis.  Each step
  is read here at explicit coordinates `(n, k)`, `(n, i)` and `(n, i, j)`; the total is the sum over all rank-3
  indices, re-indexed as the triple sum over nets and segment pairs.
-/
import proofs.«161960_j76699525972352_2_alg».proof.Proof.Spec
import proofs.«161960_j76699525972352_2_alg».proof.Proof.Gen.ReferenceIdeal.Read
import Idealize.ShloMosaic.Lib.ValueIdx
import Idealize.ShloMosaic.Lib.Pipeline.Value

noncomputable section

open Idealize.ShloMosaic Idealize.ShloMosaic.ValueIdx Cert.ReferenceIdeal Cert.ReferenceIdeal.Gen Cert.ReferenceIdeal.Read

namespace NetCross.Ref

/-! ## Indices and sums over coordinates -/

/-- Two rank-1 indices with the same coordinate are one index. -/
theorem idx1_ext {N : Nat} (a b : (⟨1, ![N]⟩ : Shape).Idx) (h : (a 0).val = (b 0).val) : a = b := by
  funext d; match d with | ⟨0, _⟩ => exact Fin.ext h

/-- Two rank-2 indices with the same coordinates are one index. -/
theorem idx2_ext {N M : Nat} (a b : (⟨2, ![N, M]⟩ : Shape).Idx) (h0 : (a 0).val = (b 0).val)
    (h1 : (a 1).val = (b 1).val) : a = b := by
  funext d; match d with | ⟨0, _⟩ => exact Fin.ext h0 | ⟨1, _⟩ => exact Fin.ext h1

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A flat array of 625000 entries taken at a 100000 × 12 array of start indices: entry `(n, k)` is the array at
    the start index read signed and clamped into the array. -/
theorem gather_at {α : Type} (x : (⟨1, ![625000]⟩ : Shape).Idx → α) (idx : IVec S100000x12x1 32)
    (n : Fin 100000) (k : Fin 12) :
    Host.gather gather_S625000_S100000x12x1_S100000x12_n_0_n_n_0_2_1 x idx (ix2 n k)
      = x (ix1 (NetCross.clamp (idx (takeIdx (ix2 n k))))) :=
  gather_take_apply (by norm_num) _ x idx (ix2 n k)

variable (x0 : (⟨S1250000, .f32⟩ : BufTy).Contents (Elt Ideal)) (x1 : (⟨S625000, .i32⟩ : BufTy).Contents (Elt Ideal))
  (x2 : (⟨S100001, .i32⟩ : BufTy).Contents (Elt Ideal)) (x3 : (⟨S100000, .i1⟩ : BufTy).Contents (Elt Ideal))
  (x4 : (⟨S625000, .i32⟩ : BufTy).Contents (Elt Ideal))

/-! ## The chain of a net, slot by slot -/

/-- The difference of consecutive offsets is the net's degree. -/
theorem deg_at (n : Fin 100000) : val_main_v4 (F := Ideal) x2 (ix1 n) = NetCross.deg x2 n := by
  rw [val_main_v4_apply, val_main_v2_apply, val_main_v3_apply]
  unfold NetCross.deg
  rw [show idx_main_v2 (ix1 n) = ix1 ⟨n.val + 1, by have := n.isLt; omega⟩ from idx1_ext _ _ (Nat.add_comm 1 n.val),
    show idx_main_v3 (ix1 n) = ix1 ⟨n.val, by have := n.isLt; omega⟩ from idx1_ext _ _ rfl]

/-- The slot mask: the column number against the degree. -/
theorem valid_at (n : Fin 100000) (k : Fin 12) :
    val_main_v16 (F := Ideal) x2 (ix2 n k) = NetCross.valid x2 n k := by
  rw [val_main_v16_apply, val_main_v14_apply, val_main_v12_apply, val_main_v5_apply, val_main_v15_apply,
    val_main_v13_apply, show idx_main_v13 (idx_main_v15 (ix2 n k)) = ix1 n from idx1_ext _ _ rfl, deg_at]
  rfl

/-- The position read by a slot: offset plus column where the slot is valid, else zero. -/
theorem pid_at (n : Fin 100000) (k : Fin 12) :
    val_main_v17 (F := Ideal) x2 (ix2 n k) = NetCross.pid x2 n k := by
  rw [val_main_v17_apply, valid_at, val_main_v11_apply, val_main_v9_apply, val_main_v7_apply, val_main_v6_apply,
    val_main_v10_apply, val_main_v8_apply, val_main_v5_apply, val_main_call0_v1_apply, val_main_call0_v0_apply,
    val_main_c_apply,
    show idx_main_v6 (idx_main_v7 (idx_main_v9 (ix2 n k))) = ix1 ⟨n.val, by have := n.isLt; omega⟩ from
      idx1_ext _ _ rfl]
  rfl

/-- A negative position wraps once by the length of the pin list. -/
theorem wpid_at (n : Fin 100000) (k : Fin 12) :
    val_main_v22 (F := Ideal) x2 (ix2 n k) = NetCross.wrap (NetCross.pid x2 n k) := by
  rw [val_main_v22_apply, val_main_v19_apply, val_main_v21_apply, pid_at, val_main_v18_apply, val_main_c_0_apply,
    val_main_v20_apply, val_main_c_1_apply]
  rfl

/-- The pin in a slot. -/
theorem pin_at (n : Fin 100000) (k : Fin 12) :
    val_main_v24 (F := Ideal) x1 x2 (ix2 n k) = NetCross.pin x1 x2 n k := by
  unfold val_main_v24 NetCross.pin
  rw [gather_at, val_main_v23_apply, show idx_main_v23 (takeIdx (ix2 n k)) = ix2 n k from idx2_ext _ _ rfl rfl,
    wpid_at]

/-- The pin number wrapped, as the three later gathers each recompute it. -/
theorem wpin29_at (n : Fin 100000) (k : Fin 12) :
    val_main_v29 (F := Ideal) x1 x2 (ix2 n k) = NetCross.wrap (NetCross.pin x1 x2 n k) := by
  rw [val_main_v29_apply, val_main_v26_apply, val_main_v28_apply, pin_at, val_main_v25_apply, val_main_c_2_apply,
    val_main_v27_apply, val_main_c_3_apply]
  rfl
theorem wpin36_at (n : Fin 100000) (k : Fin 12) :
    val_main_v36 (F := Ideal) x1 x2 (ix2 n k) = NetCross.wrap (NetCross.pin x1 x2 n k) := by
  rw [val_main_v36_apply, val_main_v33_apply, val_main_v35_apply, pin_at, val_main_v32_apply, val_main_c_4_apply,
    val_main_v34_apply, val_main_c_5_apply]
  rfl
theorem wpin43_at (n : Fin 100000) (k : Fin 12) :
    val_main_v43 (F := Ideal) x1 x2 (ix2 n k) = NetCross.wrap (NetCross.pin x1 x2 n k) := by
  rw [val_main_v43_apply, val_main_v40_apply, val_main_v42_apply, pin_at, val_main_v39_apply, val_main_c_6_apply,
    val_main_v41_apply, val_main_c_7_apply]
  rfl

/-- The pin's x coordinate: the first half of the coordinate array at the pin. -/
theorem px_at (n : Fin 100000) (k : Fin 12) :
    val_main_v31 (F := Ideal) x0 x1 x2 (ix2 n k) = NetCross.px x0 x1 x2 n k := by
  unfold val_main_v31 NetCross.px NetCross.pinIx
  rw [gather_at, val_main_v30_apply, show idx_main_v30 (takeIdx (ix2 n k)) = ix2 n k from idx2_ext _ _ rfl rfl,
    wpin29_at, val_main_v0_apply]
  exact congrArg x0 (idx1_ext _ _ rfl)

/-- The pin's y coordinate: the second half. -/
theorem py_at (n : Fin 100000) (k : Fin 12) :
    val_main_v38 (F := Ideal) x0 x1 x2 (ix2 n k) = NetCross.py x0 x1 x2 n k := by
  unfold val_main_v38 NetCross.py NetCross.pinIx
  rw [gather_at, val_main_v37_apply, show idx_main_v37 (takeIdx (ix2 n k)) = ix2 n k from idx2_ext _ _ rfl rfl,
    wpin36_at, val_main_v1_apply]
  exact congrArg x0 (idx1_ext _ _ rfl)

/-- The pin's side as ±1. -/
theorem side_at (n : Fin 100000) (k : Fin 12) :
    val_main_v50 (F := Ideal) x1 x2 x4 (ix2 n k) = NetCross.side x1 x2 x4 n k := by
  rw [val_main_v50_apply, val_main_v49_apply, val_main_v47_apply, val_main_v46_apply, val_main_c_8_apply,
    val_main_v48_apply, val_main_c_9_apply]
  unfold val_main_v45 NetCross.side NetCross.pinIx
  rw [gather_at, val_main_v44_apply, show idx_main_v44 (takeIdx (ix2 n k)) = ix2 n k from idx2_ext _ _ rfl rfl,
    wpin43_at]
  rfl

/-! ## The segments of a net -/

/-- Segment starts are slots 0…10, segment ends slots 1…11. -/
theorem v51_at (n : Fin 100000) (i : Fin 11) :
    val_main_v51 (F := Ideal) x0 x1 x2 (ix2 n i) = NetCross.px x0 x1 x2 n (NetCross.lo i) := by
  rw [val_main_v51_apply, show idx_main_v51 (ix2 n i) = ix2 n (NetCross.lo i) from idx2_ext _ _ rfl rfl, px_at]
theorem v52_at (n : Fin 100000) (i : Fin 11) :
    val_main_v52 (F := Ideal) x0 x1 x2 (ix2 n i) = NetCross.py x0 x1 x2 n (NetCross.lo i) := by
  rw [val_main_v52_apply, show idx_main_v52 (ix2 n i) = ix2 n (NetCross.lo i) from idx2_ext _ _ rfl rfl, py_at]
theorem v53_at (n : Fin 100000) (i : Fin 11) :
    val_main_v53 (F := Ideal) x0 x1 x2 (ix2 n i) = NetCross.px x0 x1 x2 n (NetCross.hi i) := by
  rw [val_main_v53_apply,
    show idx_main_v53 (ix2 n i) = ix2 n (NetCross.hi i) from idx2_ext _ _ rfl (Nat.add_comm 1 i.val), px_at]
theorem v54_at (n : Fin 100000) (i : Fin 11) :
    val_main_v54 (F := Ideal) x0 x1 x2 (ix2 n i) = NetCross.py x0 x1 x2 n (NetCross.hi i) := by
  rw [val_main_v54_apply,
    show idx_main_v54 (ix2 n i) = ix2 n (NetCross.hi i) from idx2_ext _ _ rfl (Nat.add_comm 1 i.val), py_at]
/-- A segment is valid when its end slot is. -/
theorem v55_at (n : Fin 100000) (i : Fin 11) :
    val_main_v55 (F := Ideal) x2 (ix2 n i) = NetCross.valid x2 n (NetCross.hi i) := by
  rw [val_main_v55_apply,
    show idx_main_v55 (ix2 n i) = ix2 n (NetCross.hi i) from idx2_ext _ _ rfl (Nat.add_comm 1 i.val), valid_at]
/-- A segment carries the side of its start slot. -/
theorem v56_at (n : Fin 100000) (i : Fin 11) :
    val_main_v56 (F := Ideal) x1 x2 x4 (ix2 n i) = NetCross.side x1 x2 x4 n (NetCross.lo i) := by
  rw [val_main_v56_apply, show idx_main_v56 (ix2 n i) = ix2 n (NetCross.lo i) from idx2_ext _ _ rfl rfl, side_at]
/-- The direction of a segment, computed twice for each coordinate. -/
theorem v57_at (n : Fin 100000) (i : Fin 11) :
    val_main_v57 (F := Ideal) x0 x1 x2 (ix2 n i)
      = NetCross.px x0 x1 x2 n (NetCross.hi i) - NetCross.px x0 x1 x2 n (NetCross.lo i) := by
  rw [val_main_v57_apply, v53_at, v51_at]; rfl
theorem v59_at (n : Fin 100000) (i : Fin 11) :
    val_main_v59 (F := Ideal) x0 x1 x2 (ix2 n i)
      = NetCross.py x0 x1 x2 n (NetCross.hi i) - NetCross.py x0 x1 x2 n (NetCross.lo i) := by
  rw [val_main_v59_apply, v54_at, v52_at]; rfl
theorem v61_at (n : Fin 100000) (i : Fin 11) :
    val_main_v61 (F := Ideal) x0 x1 x2 (ix2 n i)
      = NetCross.px x0 x1 x2 n (NetCross.hi i) - NetCross.px x0 x1 x2 n (NetCross.lo i) := by
  rw [val_main_v61_apply, v53_at, v51_at]; rfl
theorem v63_at (n : Fin 100000) (i : Fin 11) :
    val_main_v63 (F := Ideal) x0 x1 x2 (ix2 n i)
      = NetCross.py x0 x1 x2 n (NetCross.hi i) - NetCross.py x0 x1 x2 n (NetCross.lo i) := by
  rw [val_main_v63_apply, v54_at, v52_at]; rfl

/-! ## One ordered pair of segments

Every rank-3 operand of the pair arithmetic is a rank-2 segment array repeated along the axis of the other segment:
at `(n, i, j)` it is the segment array at `(n, i)` or at `(n, j)`. -/

theorem v67_at (n : Fin 100000) (i j : Fin 11) :
    val_main_v67 (F := Ideal) x0 x1 x2 (ix3 n i j) = NetCross.px x0 x1 x2 n (NetCross.lo j) := by
  rw [val_main_v67_apply, val_main_v65_apply,
    show idx_main_v65 (idx_main_v67 (ix3 n i j)) = ix2 n j from idx2_ext _ _ rfl rfl, v51_at]
theorem v68_at (n : Fin 100000) (i j : Fin 11) :
    val_main_v68 (F := Ideal) x0 x1 x2 (ix3 n i j) = NetCross.px x0 x1 x2 n (NetCross.lo i) := by
  rw [val_main_v68_apply, val_main_v66_apply,
    show idx_main_v66 (idx_main_v68 (ix3 n i j)) = ix2 n i from idx2_ext _ _ rfl rfl, v51_at]
theorem v72_at (n : Fin 100000) (i j : Fin 11) :
    val_main_v72 (F := Ideal) x0 x1 x2 (ix3 n i j) = NetCross.py x0 x1 x2 n (NetCross.lo j) := by
  rw [val_main_v72_apply, val_main_v70_apply,
    show idx_main_v70 (idx_main_v72 (ix3 n i j)) = ix2 n j from idx2_ext _ _ rfl rfl, v52_at]
theorem v73_at (n : Fin 100000) (i j : Fin 11) :
    val_main_v73 (F := Ideal) x0 x1 x2 (ix3 n i j) = NetCross.py x0 x1 x2 n (NetCross.lo i) := by
  rw [val_main_v73_apply, val_main_v71_apply,
    show idx_main_v71 (idx_main_v73 (ix3 n i j)) = ix2 n i from idx2_ext _ _ rfl rfl, v52_at]
theorem v75_at (n : Fin 100000) (i j : Fin 11) :
    val_main_v75 (F := Ideal) x0 x1 x2 (ix3 n i j) = NetCross.px x0 x1 x2 n (NetCross.hi i) - NetCross.px x0 x1 x2 n (NetCross.lo i) := by
  rw [val_main_v75_apply, val_main_v58_apply,
    show idx_main_v58 (idx_main_v75 (ix3 n i j)) = ix2 n i from idx2_ext _ _ rfl rfl, v57_at]
theorem v77_at (n : Fin 100000) (i j : Fin 11) :
    val_main_v77 (F := Ideal) x0 x1 x2 (ix3 n i j) = NetCross.py x0 x1 x2 n (NetCross.hi i) - NetCross.py x0 x1 x2 n (NetCross.lo i) := by
  rw [val_main_v77_apply, val_main_v60_apply,
    show idx_main_v60 (idx_main_v77 (ix3 n i j)) = ix2 n i from idx2_ext _ _ rfl rfl, v59_at]
theorem v82_at (n : Fin 100000) (i j : Fin 11) :
    val_main_v82 (F := Ideal) x0 x1 x2 (ix3 n i j) = NetCross.px x0 x1 x2 n (NetCross.hi j) := by
  rw [val_main_v82_apply, val_main_v80_apply,
    show idx_main_v80 (idx_main_v82 (ix3 n i j)) = ix2 n j from idx2_ext _ _ rfl rfl, v53_at]
theorem v83_at (n : Fin 100000) (i j : Fin 11) :
    val_main_v83 (F := Ideal) x0 x1 x2 (ix3 n i j) = NetCross.px x0 x1 x2 n (NetCross.lo i) := by
  rw [val_main_v83_apply, val_main_v81_apply,
    show idx_main_v81 (idx_main_v83 (ix3 n i j)) = ix2 n i from idx2_ext _ _ rfl rfl, v51_at]
theorem v87_at (n : Fin 100000) (i j : Fin 11) :
    val_main_v87 (F := Ideal) x0 x1 x2 (ix3 n i j) = NetCross.py x0 x1 x2 n (NetCross.hi j) := by
  rw [val_main_v87_apply, val_main_v85_apply,
    show idx_main_v85 (idx_main_v87 (ix3 n i j)) = ix2 n j from idx2_ext _ _ rfl rfl, v54_at]
theorem v88_at (n : Fin 100000) (i j : Fin 11) :
    val_main_v88 (F := Ideal) x0 x1 x2 (ix3 n i j) = NetCross.py x0 x1 x2 n (NetCross.lo i) := by
  rw [val_main_v88_apply, val_main_v86_apply,
    show idx_main_v86 (idx_main_v88 (ix3 n i j)) = ix2 n i from idx2_ext _ _ rfl rfl, v52_at]
theorem v90_at (n : Fin 100000) (i j : Fin 11) :
    val_main_v90 (F := Ideal) x0 x1 x2 (ix3 n i j) = NetCross.px x0 x1 x2 n (NetCross.hi i) - NetCross.px x0 x1 x2 n (NetCross.lo i) := by
  rw [val_main_v90_apply, val_main_v58_apply,
    show idx_main_v58 (idx_main_v90 (ix3 n i j)) = ix2 n i from idx2_ext _ _ rfl rfl, v57_at]
theorem v92_at (n : Fin 100000) (i j : Fin 11) :
    val_main_v92 (F := Ideal) x0 x1 x2 (ix3 n i j) = NetCross.py x0 x1 x2 n (NetCross.hi i) - NetCross.py x0 x1 x2 n (NetCross.lo i) := by
  rw [val_main_v92_apply, val_main_v60_apply,
    show idx_main_v60 (idx_main_v92 (ix3 n i j)) = ix2 n i from idx2_ext _ _ rfl rfl, v59_at]
theorem v97_at (n : Fin 100000) (i j : Fin 11) :
    val_main_v97 (F := Ideal) x0 x1 x2 (ix3 n i j) = NetCross.px x0 x1 x2 n (NetCross.lo i) := by
  rw [val_main_v97_apply, val_main_v95_apply,
    show idx_main_v95 (idx_main_v97 (ix3 n i j)) = ix2 n i from idx2_ext _ _ rfl rfl, v51_at]
theorem v98_at (n : Fin 100000) (i j : Fin 11) :
    val_main_v98 (F := Ideal) x0 x1 x2 (ix3 n i j) = NetCross.px x0 x1 x2 n (NetCross.lo j) := by
  rw [val_main_v98_apply, val_main_v96_apply,
    show idx_main_v96 (idx_main_v98 (ix3 n i j)) = ix2 n j from idx2_ext _ _ rfl rfl, v51_at]
theorem v102_at (n : Fin 100000) (i j : Fin 11) :
    val_main_v102 (F := Ideal) x0 x1 x2 (ix3 n i j) = NetCross.py x0 x1 x2 n (NetCross.lo i) := by
  rw [val_main_v102_apply, val_main_v100_apply,
    show idx_main_v100 (idx_main_v102 (ix3 n i j)) = ix2 n i from idx2_ext _ _ rfl rfl, v52_at]
theorem v103_at (n : Fin 100000) (i j : Fin 11) :
    val_main_v103 (F := Ideal) x0 x1 x2 (ix3 n i j) = NetCross.py x0 x1 x2 n (NetCross.lo j) := by
  rw [val_main_v103_apply, val_main_v101_apply,
    show idx_main_v101 (idx_main_v103 (ix3 n i j)) = ix2 n j from idx2_ext _ _ rfl rfl, v52_at]
theorem v105_at (n : Fin 100000) (i j : Fin 11) :
    val_main_v105 (F := Ideal) x0 x1 x2 (ix3 n i j) = NetCross.px x0 x1 x2 n (NetCross.hi j) - NetCross.px x0 x1 x2 n (NetCross.lo j) := by
  rw [val_main_v105_apply, val_main_v62_apply,
    show idx_main_v62 (idx_main_v105 (ix3 n i j)) = ix2 n j from idx2_ext _ _ rfl rfl, v61_at]
theorem v107_at (n : Fin 100000) (i j : Fin 11) :
    val_main_v107 (F := Ideal) x0 x1 x2 (ix3 n i j) = NetCross.py x0 x1 x2 n (NetCross.hi j) - NetCross.py x0 x1 x2 n (NetCross.lo j) := by
  rw [val_main_v107_apply, val_main_v64_apply,
    show idx_main_v64 (idx_main_v107 (ix3 n i j)) = ix2 n j from idx2_ext _ _ rfl rfl, v63_at]
theorem v112_at (n : Fin 100000) (i j : Fin 11) :
    val_main_v112 (F := Ideal) x0 x1 x2 (ix3 n i j) = NetCross.px x0 x1 x2 n (NetCross.hi i) := by
  rw [val_main_v112_apply, val_main_v110_apply,
    show idx_main_v110 (idx_main_v112 (ix3 n i j)) = ix2 n i from idx2_ext _ _ rfl rfl, v53_at]
theorem v113_at (n : Fin 100000) (i j : Fin 11) :
    val_main_v113 (F := Ideal) x0 x1 x2 (ix3 n i j) = NetCross.px x0 x1 x2 n (NetCross.lo j) := by
  rw [val_main_v113_apply, val_main_v111_apply,
    show idx_main_v111 (idx_main_v113 (ix3 n i j)) = ix2 n j from idx2_ext _ _ rfl rfl, v51_at]
theorem v117_at (n : Fin 100000) (i j : Fin 11) :
    val_main_v117 (F := Ideal) x0 x1 x2 (ix3 n i j) = NetCross.py x0 x1 x2 n (NetCross.hi i) := by
  rw [val_main_v117_apply, val_main_v115_apply,
    show idx_main_v115 (idx_main_v117 (ix3 n i j)) = ix2 n i from idx2_ext _ _ rfl rfl, v54_at]
theorem v118_at (n : Fin 100000) (i j : Fin 11) :
    val_main_v118 (F := Ideal) x0 x1 x2 (ix3 n i j) = NetCross.py x0 x1 x2 n (NetCross.lo j) := by
  rw [val_main_v118_apply, val_main_v116_apply,
    show idx_main_v116 (idx_main_v118 (ix3 n i j)) = ix2 n j from idx2_ext _ _ rfl rfl, v52_at]
theorem v120_at (n : Fin 100000) (i j : Fin 11) :
    val_main_v120 (F := Ideal) x0 x1 x2 (ix3 n i j) = NetCross.px x0 x1 x2 n (NetCross.hi j) - NetCross.px x0 x1 x2 n (NetCross.lo j) := by
  rw [val_main_v120_apply, val_main_v62_apply,
    show idx_main_v62 (idx_main_v120 (ix3 n i j)) = ix2 n j from idx2_ext _ _ rfl rfl, v61_at]
theorem v122_at (n : Fin 100000) (i j : Fin 11) :
    val_main_v122 (F := Ideal) x0 x1 x2 (ix3 n i j) = NetCross.py x0 x1 x2 n (NetCross.hi j) - NetCross.py x0 x1 x2 n (NetCross.lo j) := by
  rw [val_main_v122_apply, val_main_v64_apply,
    show idx_main_v64 (idx_main_v122 (ix3 n i j)) = ix2 n j from idx2_ext _ _ rfl rfl, v63_at]
theorem v152_at (n : Fin 100000) (i j : Fin 11) :
    val_main_v152 (F := Ideal) x1 x2 x4 (ix3 n i j) = NetCross.side x1 x2 x4 n (NetCross.lo i) := by
  rw [val_main_v152_apply, val_main_v150_apply,
    show idx_main_v150 (idx_main_v152 (ix3 n i j)) = ix2 n i from idx2_ext _ _ rfl rfl, v56_at]
theorem v153_at (n : Fin 100000) (i j : Fin 11) :
    val_main_v153 (F := Ideal) x1 x2 x4 (ix3 n i j) = NetCross.side x1 x2 x4 n (NetCross.lo j) := by
  rw [val_main_v153_apply, val_main_v151_apply,
    show idx_main_v151 (idx_main_v153 (ix3 n i j)) = ix2 n j from idx2_ext _ _ rfl rfl, v56_at]
theorem v169_at (n : Fin 100000) (i j : Fin 11) :
    val_main_v169 (F := Ideal) x2 (ix3 n i j) = NetCross.valid x2 n (NetCross.hi i) := by
  rw [val_main_v169_apply, val_main_v167_apply,
    show idx_main_v167 (idx_main_v169 (ix3 n i j)) = ix2 n i from idx2_ext _ _ rfl rfl, v55_at]
theorem v170_at (n : Fin 100000) (i j : Fin 11) :
    val_main_v170 (F := Ideal) x2 (ix3 n i j) = NetCross.valid x2 n (NetCross.hi j) := by
  rw [val_main_v170_apply, val_main_v168_apply,
    show idx_main_v168 (idx_main_v170 (ix3 n i j)) = ix2 n j from idx2_ext _ _ rfl rfl, v55_at]

/-- The four orientation tests: cross products of a segment's direction with differences of end points. -/
theorem s1_at (n : Fin 100000) (i j : Fin 11) :
    val_main_v79 (F := Ideal) x0 x1 x2 (ix3 n i j)
      = (NetCross.px x0 x1 x2 n (NetCross.hi i) - NetCross.px x0 x1 x2 n (NetCross.lo i)) * (NetCross.py x0 x1 x2 n (NetCross.lo j) - NetCross.py x0 x1 x2 n (NetCross.lo i)) - (NetCross.py x0 x1 x2 n (NetCross.hi i) - NetCross.py x0 x1 x2 n (NetCross.lo i)) * (NetCross.px x0 x1 x2 n (NetCross.lo j) - NetCross.px x0 x1 x2 n (NetCross.lo i)) := by
  rw [val_main_v79_apply, val_main_v76_apply, val_main_v78_apply, val_main_v74_apply, val_main_v69_apply, v75_at, v77_at, v72_at, v73_at, v67_at, v68_at]
  rfl
theorem s2_at (n : Fin 100000) (i j : Fin 11) :
    val_main_v94 (F := Ideal) x0 x1 x2 (ix3 n i j)
      = (NetCross.px x0 x1 x2 n (NetCross.hi i) - NetCross.px x0 x1 x2 n (NetCross.lo i)) * (NetCross.py x0 x1 x2 n (NetCross.hi j) - NetCross.py x0 x1 x2 n (NetCross.lo i)) - (NetCross.py x0 x1 x2 n (NetCross.hi i) - NetCross.py x0 x1 x2 n (NetCross.lo i)) * (NetCross.px x0 x1 x2 n (NetCross.hi j) - NetCross.px x0 x1 x2 n (NetCross.lo i)) := by
  rw [val_main_v94_apply, val_main_v91_apply, val_main_v93_apply, val_main_v89_apply, val_main_v84_apply, v90_at, v92_at, v87_at, v88_at, v82_at, v83_at]
  rfl
theorem s3_at (n : Fin 100000) (i j : Fin 11) :
    val_main_v109 (F := Ideal) x0 x1 x2 (ix3 n i j)
      = (NetCross.px x0 x1 x2 n (NetCross.hi j) - NetCross.px x0 x1 x2 n (NetCross.lo j)) * (NetCross.py x0 x1 x2 n (NetCross.lo i) - NetCross.py x0 x1 x2 n (NetCross.lo j)) - (NetCross.py x0 x1 x2 n (NetCross.hi j) - NetCross.py x0 x1 x2 n (NetCross.lo j)) * (NetCross.px x0 x1 x2 n (NetCross.lo i) - NetCross.px x0 x1 x2 n (NetCross.lo j)) := by
  rw [val_main_v109_apply, val_main_v106_apply, val_main_v108_apply, val_main_v104_apply, val_main_v99_apply, v105_at, v107_at, v102_at, v103_at, v97_at, v98_at]
  rfl
theorem s4_at (n : Fin 100000) (i j : Fin 11) :
    val_main_v124 (F := Ideal) x0 x1 x2 (ix3 n i j)
      = (NetCross.px x0 x1 x2 n (NetCross.hi j) - NetCross.px x0 x1 x2 n (NetCross.lo j)) * (NetCross.py x0 x1 x2 n (NetCross.hi i) - NetCross.py x0 x1 x2 n (NetCross.lo j)) - (NetCross.py x0 x1 x2 n (NetCross.hi j) - NetCross.py x0 x1 x2 n (NetCross.lo j)) * (NetCross.px x0 x1 x2 n (NetCross.hi i) - NetCross.px x0 x1 x2 n (NetCross.lo j)) := by
  rw [val_main_v124_apply, val_main_v121_apply, val_main_v123_apply, val_main_v119_apply, val_main_v114_apply, v120_at, v122_at, v117_at, v118_at, v112_at, v113_at]
  rfl

/-- The smoothing of the first pair of tests and of the second. -/
theorem sg12_at (n : Fin 100000) (i j : Fin 11) :
    val_main_v136 (F := Ideal) x0 x1 x2 (ix3 n i j)
      = NetCross.sgR (((NetCross.px x0 x1 x2 n (NetCross.hi i) - NetCross.px x0 x1 x2 n (NetCross.lo i)) * (NetCross.py x0 x1 x2 n (NetCross.lo j) - NetCross.py x0 x1 x2 n (NetCross.lo i)) - (NetCross.py x0 x1 x2 n (NetCross.hi i) - NetCross.py x0 x1 x2 n (NetCross.lo i)) * (NetCross.px x0 x1 x2 n (NetCross.lo j) - NetCross.px x0 x1 x2 n (NetCross.lo i)))
          * ((NetCross.px x0 x1 x2 n (NetCross.hi i) - NetCross.px x0 x1 x2 n (NetCross.lo i)) * (NetCross.py x0 x1 x2 n (NetCross.hi j) - NetCross.py x0 x1 x2 n (NetCross.lo i)) - (NetCross.py x0 x1 x2 n (NetCross.hi i) - NetCross.py x0 x1 x2 n (NetCross.lo i)) * (NetCross.px x0 x1 x2 n (NetCross.hi j) - NetCross.px x0 x1 x2 n (NetCross.lo i)))) := by
  rw [val_main_v136_apply, val_main_v135_apply, val_main_cst_12_apply, val_main_v134_apply, val_main_v133_apply, val_main_cst_11_apply, val_main_v132_apply, val_main_v131_apply, val_main_v130_apply, val_main_v129_apply, val_main_cst_10_apply, val_main_v128_apply, val_main_v127_apply, val_main_v126_apply, val_main_cst_apply, val_main_v125_apply,
    s1_at, s2_at]
  rfl
theorem sg34_at (n : Fin 100000) (i j : Fin 11) :
    val_main_v148 (F := Ideal) x0 x1 x2 (ix3 n i j)
      = NetCross.sgR (((NetCross.px x0 x1 x2 n (NetCross.hi j) - NetCross.px x0 x1 x2 n (NetCross.lo j)) * (NetCross.py x0 x1 x2 n (NetCross.lo i) - NetCross.py x0 x1 x2 n (NetCross.lo j)) - (NetCross.py x0 x1 x2 n (NetCross.hi j) - NetCross.py x0 x1 x2 n (NetCross.lo j)) * (NetCross.px x0 x1 x2 n (NetCross.lo i) - NetCross.px x0 x1 x2 n (NetCross.lo j)))
          * ((NetCross.px x0 x1 x2 n (NetCross.hi j) - NetCross.px x0 x1 x2 n (NetCross.lo j)) * (NetCross.py x0 x1 x2 n (NetCross.hi i) - NetCross.py x0 x1 x2 n (NetCross.lo j)) - (NetCross.py x0 x1 x2 n (NetCross.hi j) - NetCross.py x0 x1 x2 n (NetCross.lo j)) * (NetCross.px x0 x1 x2 n (NetCross.hi i) - NetCross.px x0 x1 x2 n (NetCross.lo j)))) := by
  rw [val_main_v148_apply, val_main_v147_apply, val_main_cst_16_apply, val_main_v146_apply, val_main_v145_apply, val_main_cst_15_apply, val_main_v144_apply, val_main_v143_apply, val_main_v142_apply, val_main_v141_apply, val_main_cst_14_apply, val_main_v140_apply, val_main_v139_apply, val_main_v138_apply, val_main_cst_13_apply, val_main_v137_apply,
    s3_at, s4_at]
  rfl

/-- The smoothed crossing indicator of the pair. -/
theorem cross_at (n : Fin 100000) (i j : Fin 11) :
    val_main_v149 (F := Ideal) x0 x1 x2 (ix3 n i j)
      = NetCross.crossR (NetCross.px x0 x1 x2 n (NetCross.lo i)) (NetCross.py x0 x1 x2 n (NetCross.lo i)) (NetCross.px x0 x1 x2 n (NetCross.hi i)) (NetCross.py x0 x1 x2 n (NetCross.hi i))
          (NetCross.px x0 x1 x2 n (NetCross.lo j)) (NetCross.py x0 x1 x2 n (NetCross.lo j)) (NetCross.px x0 x1 x2 n (NetCross.hi j)) (NetCross.py x0 x1 x2 n (NetCross.hi j)) := by
  rw [val_main_v149_apply, sg12_at, sg34_at]
  rfl

/-- The side weight of the pair. -/
theorem wgt_at (n : Fin 100000) (i j : Fin 11) :
    val_main_v158 (F := Ideal) x1 x2 x4 (ix3 n i j)
      = NetCross.wgt (NetCross.side x1 x2 x4 n (NetCross.lo i)) (NetCross.side x1 x2 x4 n (NetCross.lo j)) := by
  rw [val_main_v158_apply, val_main_v157_apply, val_main_cst_18_apply, val_main_v156_apply, val_main_v155_apply, val_main_cst_17_apply, val_main_v154_apply, v152_at, v153_at]
  rfl

/-- The order test on the two segment numbers. -/
theorem nonadj_at (n : Fin 100000) (i j : Fin 11) :
    val_main_v173 (F := Ideal) (ix3 n i j) = NetCross.nonadj i j := by
  rw [val_main_v173_apply, val_main_v172_apply, val_main_v166_apply, val_main_v164_apply, val_main_v160_apply, val_main_v159_apply, val_main_v165_apply, val_main_v163_apply, val_main_v161_apply, val_main_v159_apply, val_main_v162_apply, val_main_c_19_apply]
  rfl

/-- The pair counts: both segments valid, in order and non-adjacent, the net masked in. -/
theorem mask_at (n : Fin 100000) (i j : Fin 11) :
    val_main_v177 (F := Ideal) x2 x3 (ix3 n i j) = NetCross.maskR x2 x3 n i j := by
  rw [val_main_v177_apply, val_main_v174_apply, val_main_v171_apply, v169_at, v170_at, nonadj_at, val_main_v176_apply, val_main_v175_apply,
    show idx_main_v175 (idx_main_v176 (ix3 n i j)) = ix1 n from idx1_ext _ _ rfl]
  rfl

/-- The contribution of the pair. -/
theorem term_at (n : Fin 100000) (i j : Fin 11) :
    val_main_v179 (F := Ideal) x0 x1 x2 x3 x4 (ix3 n i j) = NetCross.termR x0 x1 x2 x3 x4 n i j := by
  rw [val_main_v179_apply, mask_at, val_main_v178_apply, cross_at, wgt_at, val_main_call1_v1_apply, val_main_call1_v0_apply, val_main_cst_20_apply]
  rfl

/-! ## The metric -/

/-- THE REFERENCE IS THE METRIC: one times (zero plus the sum of the pair terms over nets and ordered pairs). -/
theorem ref_eq :
    val_main_v181 (F := Ideal) x0 x1 x2 x3 x4 = fun _ => NetCross.G x0 x1 x2 x3 x4 := by
  funext q
  rw [val_main_v181_apply, val_main_cst_22_apply, val_main_v180_apply, val_main_cst_21_apply, sum_idx3]
  unfold NetCross.G
  simp only [term_at]
  rfl

end NetCross.Ref

end
-- ==== Proof.KernelHost.lean ====
/-
  The arrays the pairwise kernel is launched on, identified with the lane-major arrays of the specification.

  Before the launch the program turns the CSR netlist into seven dense arrays with the net index last: for each of
  the twelve slots of a net it forms the slot's validity (slot number below the degree), the flat pin position (the net's
  start plus the slot number, zero where invalid), the pin (the flat pin list read there, a negative index wrapped once and
  the read clamped into the list), the pin's two coordinates and its side as ±1; it then takes slots 0 … 10 as segment
  starts and slots 1 … 11 as segment ends, converts the validity of the end slot and the net mask to 0 / 1, and pads every
  array from 100000 to 102400 lanes with the integer zero converted to a float.

  Here each of those arrays is written once as a function of the five arguments, read at a slot and a net — where it is
  the chain function of the specification with its two arguments exchanged —, and the seven operands of the launch are
  shown to be `AX`, `AY`, `BX`, `BY`, `SV`, `SS` and `NM`.
-/
import proofs.«161960_j76699525972352_2_alg».proof.Proof.Spec
import proofs.«161960_j76699525972352_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost

noncomputable section

namespace NetCross.KHost

open Idealize.ShloMosaic Idealize.ShloMosaic.ValueIdx Idealize.ShloMosaic.TcCoe Idealize.SL.Sem
open Cert.KernelIdeal

/-! ## The arrays the host operations build, as functions of the five arguments

Every array below is the composition of layout and elementwise operations exactly as the program applies them; the
twelve slots of a net are the leading axis, the net the trailing one. -/

section Arrays

variable (pos : S1250000.Idx → EReal) (fnp : S625000.Idx → BitVec 32) (nps : S100001.Idx → BitVec 32)
  (nmk : S100000.Idx → BitVec 1) (psd : S625000.Idx → BitVec 32)

/-- The CSR offsets without the last one: net `n`'s first pin position. -/
def kStart : S100000.Idx → BitVec 32 := extractStridedSlice S100000 ![0] nps Gen.slices_S100001_S100000_0

/-- The degree of every net: the difference of consecutive CSR offsets. -/
def kDeg : S100000.Idx → BitVec 32 :=
  subi (extractStridedSlice S100000 ![1] nps Gen.slices_S100001_S100000_1) (kStart nps)

/-- The slot numbers 0 … 11 as a column. -/
def kCols : S12x1.Idx → BitVec 32 := broadcastInDim S12x1 ![0] Gen.bcast_S12_S12x1_0 (iotaInDim S12 32 0)

/-- A per-net row repeated over the twelve slots. -/
def kOverSlots (v : S100000.Idx → BitVec 32) : S12x100000.Idx → BitVec 32 :=
  broadcastInDim S12x100000 ![0, 1] Gen.bcast_S1x100000_S12x100000_0_1
    (broadcastInDim S1x100000 ![1] Gen.bcast_S100000_S1x100000_1 v)

/-- The slot numbers repeated over the nets. -/
def kSlot : S12x100000.Idx → BitVec 32 := broadcastInDim S12x100000 ![0, 1] Gen.bcast_S12x1_S12x100000_0_1 kCols

/-- A 32-bit constant at every slot of every net. -/
def kConst (v : BitVec 32) : S12x100000.Idx → BitVec 32 :=
  broadcastInDim S12x100000 ![] Gen.bcast_S_S12x100000 (constantI S_ 32 v)

/-- Slot validity: slot number below the degree, signed. -/
def kValid : S12x100000.Idx → BitVec 1 := cmpi .slt kSlot (kOverSlots (kDeg nps))

/-- The flat pin position of every slot: start plus slot number where valid, else zero. -/
def kPid : S12x100000.Idx → BitVec 32 :=
  select (kValid nps) (addi (kOverSlots (kStart nps)) kSlot)
    (broadcastInDim S12x100000 ![] Gen.bcast_S_S12x100000 (id (constantI S_ 32 0#32)))

/-- A negative index moved up by the length of the pin list. -/
def kWrap (v : S12x100000.Idx → BitVec 32) : S12x100000.Idx → BitVec 32 :=
  select (cmpi .slt v (kConst 0#32)) (addi v (kConst 625000#32)) v

/-- A flat array read at the wrapped, clamped indices. -/
def kTake {α : Type} (x : S625000.Idx → α) (v : S12x100000.Idx → BitVec 32) : S12x100000.Idx → α :=
  Host.gather gather_S625000_S12x100000x1_S12x100000_n_0_n_n_0_2_1 x
    (broadcastInDim S12x100000x1 ![0, 1] Gen.bcast_S12x100000_S12x100000x1_0_1 (kWrap v))

/-- The pin of every slot. -/
def kPin : S12x100000.Idx → BitVec 32 := kTake fnp (kPid nps)

/-- The x and y coordinates of every slot's pin: the two halves of the position array read at the pin. -/
def kPx : S12x100000.Idx → EReal :=
  kTake (extractStridedSlice S625000 ![0] pos Gen.slices_S1250000_S625000_0) (kPin fnp nps)
def kPy : S12x100000.Idx → EReal :=
  kTake (extractStridedSlice S625000 ![625000] pos Gen.slices_S1250000_S625000_625000) (kPin fnp nps)

/-- The side of every slot's pin as ±1. -/
def kSide : S12x100000.Idx → EReal :=
  sitofp (F := Ideal) .f32 (subi (muli (kConst 2#32) (kTake psd (kPin fnp nps))) (kConst 1#32))

/-- Slots 0 … 10 and slots 1 … 11 of a slot-major array: the starts and the ends of the eleven segments. -/
def kLo {α : Type} (x : S12x100000.Idx → α) : S11x100000.Idx → α :=
  extractStridedSlice S11x100000 ![0, 0] x Gen.slices_S12x100000_S11x100000_0_0
def kHi {α : Type} (x : S12x100000.Idx → α) : S11x100000.Idx → α :=
  extractStridedSlice S11x100000 ![1, 0] x Gen.slices_S12x100000_S11x100000_1_0

/-- The padding value: the integer zero converted. -/
def kZero : S_.Idx → EReal := sitofp (F := Ideal) .f32 (constantI S_ 32 0#32)

/-- An eleven-row array padded from 100000 to 102400 lanes. -/
def kPad11 (x : S11x100000.Idx → EReal) : S11x102400.Idx → EReal :=
  pad S11x102400 ![0, 0] ![0, 2400] ![0, 0] x kZero Gen.pads_S11x100000_S11x102400_000_024000 Gen.h_S_

/-- The one-row mask array padded likewise. -/
def kPad1 (x : S1x100000.Idx → EReal) : S1x102400.Idx → EReal :=
  pad S1x102400 ![0, 0] ![0, 2400] ![0, 0] x kZero Gen.pads_S1x100000_S1x102400_000_024000 Gen.h_S_

/-- The net mask as a float row. -/
def kMask : S1x100000.Idx → EReal :=
  broadcastInDim S1x100000 ![1] Gen.bcast_S100000_S1x100000_1 (uitofp (F := Ideal) .f32 nmk)

end Arrays

/-! ## Those arrays read at a slot and a net

The chain functions of a net take the net first and the slot second; the arrays are their transposes. -/

section Reads

variable (pos : S1250000.Idx → EReal) (fnp : S625000.Idx → BitVec 32) (nps : S100001.Idx → BitVec 32)
  (nmk : S100000.Idx → BitVec 1) (psd : S625000.Idx → BitVec 32)

theorem kStart_apply (n : Fin 100000) :
    kStart nps (ix1 n) = nps (ix1 ⟨n.val, by have := n.isLt; omega⟩) :=
  extractStridedSlice_apply _ nps _ _ _ (fun a => match a with
    | ⟨0, _⟩ => by show n.val = 0 + n.val; omega)

theorem kDeg_apply (n : Fin 100000) : kDeg nps (ix1 n) = NetCross.deg nps n := by
  show IntOp.subi (extractStridedSlice S100000 ![1] nps Gen.slices_S100001_S100000_1 (ix1 n)) (kStart nps (ix1 n)) = _
  rw [kStart_apply, extractStridedSlice_apply ![1] nps Gen.slices_S100001_S100000_1 (ix1 n)
    (ix1 ⟨n.val + 1, by have := n.isLt; omega⟩) (fun a => match a with
      | ⟨0, _⟩ => by show n.val + 1 = 1 + n.val; omega)]
  rfl

theorem kSlot_apply (k : Fin 12) (n : Fin 100000) : kSlot (ix2 k n) = BitVec.ofNat 32 k.val := by
  unfold kSlot kCols
  refine (broadcastInDim_apply _ _ _ (ix2 k n) (ix2 k (0 : Fin 1)) (fun a => match a with
    | ⟨0, _⟩ => rfl
    | ⟨1, _⟩ => rfl)).trans ?_
  refine (broadcastInDim_apply _ _ _ (ix2 k (0 : Fin 1)) (ix1 k) (fun a => match a with
    | ⟨0, _⟩ => rfl)).trans ?_
  rfl

theorem kOverSlots_apply (v : S100000.Idx → BitVec 32) (k : Fin 12) (n : Fin 100000) :
    kOverSlots v (ix2 k n) = v (ix1 n) := by
  unfold kOverSlots
  refine (broadcastInDim_apply _ _ _ (ix2 k n) (ix2 (0 : Fin 1) n) (fun a => match a with
    | ⟨0, _⟩ => rfl
    | ⟨1, _⟩ => rfl)).trans ?_
  exact broadcastInDim_apply _ _ _ (ix2 (0 : Fin 1) n) (ix1 n) (fun a => match a with
    | ⟨0, _⟩ => rfl)

theorem kValid_apply (k : Fin 12) (n : Fin 100000) : kValid nps (ix2 k n) = NetCross.valid nps n k := by
  show IntOp.cmpi .slt (kSlot (ix2 k n)) (kOverSlots (kDeg nps) (ix2 k n)) = _
  rw [kSlot_apply, kOverSlots_apply, kDeg_apply]
  rfl

theorem kPid_apply (k : Fin 12) (n : Fin 100000) : kPid nps (ix2 k n) = NetCross.pid nps n k := by
  show Scalar.select (kValid nps (ix2 k n)) (IntOp.addi (kOverSlots (kStart nps) (ix2 k n)) (kSlot (ix2 k n))) 0#32 = _
  rw [kValid_apply, kOverSlots_apply, kStart_apply, kSlot_apply]
  rfl

theorem kWrap_apply (v : S12x100000.Idx → BitVec 32) (i : S12x100000.Idx) : kWrap v i = NetCross.wrap (v i) := rfl

theorem kTake_apply {α : Type} (x : S625000.Idx → α) (v : S12x100000.Idx → BitVec 32) (k : Fin 12) (n : Fin 100000) :
    kTake x v (ix2 k n) = x (ix1 (NetCross.clamp (NetCross.wrap (v (ix2 k n))))) := by
  unfold kTake
  have e : gather_S625000_S12x100000x1_S12x100000_n_0_n_n_0_2_1
      = takeDims 625000 12 100000 Gen.gather_S625000_S12x100000x1_S12x100000_n_0_n_n_0_2_1_wf := rfl
  rw [e, gather_take_apply (by decide)]
  have hb : broadcastInDim S12x100000x1 ![0, 1] Gen.bcast_S12x100000_S12x100000x1_0_1 (kWrap v) (takeIdx (ix2 k n))
      = kWrap v (ix2 k n) :=
    broadcastInDim_apply _ _ _ _ _ (fun a => match a with
      | ⟨0, _⟩ => rfl
      | ⟨1, _⟩ => rfl)
  refine congrArg (fun a => x (ix1 a)) (Fin.ext ?_)
  show min (broadcastInDim S12x100000x1 ![0, 1] Gen.bcast_S12x100000_S12x100000x1_0_1 (kWrap v)
      (takeIdx (ix2 k n))).toInt.toNat (625000 - 1) = min (NetCross.wrap (v (ix2 k n))).toInt.toNat (625000 - 1)
  rw [hb, kWrap_apply]

theorem kPin_apply (k : Fin 12) (n : Fin 100000) : kPin fnp nps (ix2 k n) = NetCross.pin fnp nps n k := by
  unfold kPin NetCross.pin
  rw [kTake_apply, kPid_apply]

theorem kPx_apply (k : Fin 12) (n : Fin 100000) : kPx pos fnp nps (ix2 k n) = NetCross.px pos fnp nps n k := by
  unfold kPx NetCross.px NetCross.pinIx
  rw [kTake_apply, kPin_apply]
  exact extractStridedSlice_apply _ pos _ _ _ (fun a => match a with
    | ⟨0, _⟩ => by
      show (NetCross.clamp (NetCross.wrap (NetCross.pin fnp nps n k))).val
        = 0 + (NetCross.clamp (NetCross.wrap (NetCross.pin fnp nps n k))).val
      omega)

theorem kPy_apply (k : Fin 12) (n : Fin 100000) : kPy pos fnp nps (ix2 k n) = NetCross.py pos fnp nps n k := by
  unfold kPy NetCross.py NetCross.pinIx
  rw [kTake_apply, kPin_apply]
  exact extractStridedSlice_apply _ pos _ _ _ (fun a => match a with
    | ⟨0, _⟩ => rfl)

theorem kSide_apply (k : Fin 12) (n : Fin 100000) :
    kSide fnp nps psd (ix2 k n) = NetCross.side fnp nps psd n k := by
  show FloatOps.sitofp (F := Ideal) .f32 (IntOp.subi (IntOp.muli 2#32 (kTake psd (kPin fnp nps) (ix2 k n))) 1#32) = _
  rw [kTake_apply, kPin_apply]
  rfl

theorem kLo_apply {α : Type} (x : S12x100000.Idx → α) (k : Fin 11) (n : Fin 100000) :
    kLo x (ix2 k n) = x (ix2 (NetCross.lo k) n) :=
  extractStridedSlice_apply _ x _ _ _ (fun a => match a with
    | ⟨0, _⟩ => by show k.val = 0 + k.val; omega
    | ⟨1, _⟩ => by show n.val = 0 + n.val; omega)

theorem kHi_apply {α : Type} (x : S12x100000.Idx → α) (k : Fin 11) (n : Fin 100000) :
    kHi x (ix2 k n) = x (ix2 (NetCross.hi k) n) :=
  extractStridedSlice_apply _ x _ _ _ (fun a => match a with
    | ⟨0, _⟩ => by show k.val + 1 = 1 + k.val; omega
    | ⟨1, _⟩ => by show n.val = 0 + n.val; omega)

theorem kMask_apply (n : Fin 100000) :
    kMask nmk (ix2 (0 : Fin 1) n) = (((nmk (ix1 n)).toNat : ℝ) : EReal) := by
  unfold kMask
  refine (broadcastInDim_apply _ _ _ (ix2 (0 : Fin 1) n) (ix1 n) (fun a => match a with
    | ⟨0, _⟩ => rfl)).trans ?_
  rfl

/-- A lane below 100000 of a padded eleven-row array is the array's; a lane from 100000 on is the padding. -/
theorem kPad11_apply (x : S11x100000.Idx → EReal) (k : Fin 11) (n : Fin 102400) :
    kPad11 x (ix2 k n) = if h : n.val < 100000 then x (ix2 k ⟨n.val, h⟩) else NetCross.PAD := by
  unfold kPad11
  by_cases h : n.val < 100000
  · rw [dif_pos h]
    exact pad_apply_of_inside _ _ _ x kZero _ _ (ix2 k n) (ix2 k ⟨n.val, h⟩) (fun a => match a with
      | ⟨0, _⟩ => by show k.val = 0 + k.val * (0 + 1); omega
      | ⟨1, _⟩ => by show n.val = 0 + n.val * (0 + 1); omega)
  · rw [dif_neg h]
    refine (pad_apply_of_not_inside _ _ _ x kZero _ _ (ix2 k n) (1 : Fin 2) ?_).trans rfl
    show ¬(0 ≤ n.val ∧ (n.val - 0) % (0 + 1) = 0 ∧ (n.val - 0) / (0 + 1) < 100000)
    omega

theorem kPad1_apply (x : S1x100000.Idx → EReal) (n : Fin 102400) :
    kPad1 x (ix2 (0 : Fin 1) n) = if h : n.val < 100000 then x (ix2 (0 : Fin 1) ⟨n.val, h⟩) else NetCross.PAD := by
  unfold kPad1
  by_cases h : n.val < 100000
  · rw [dif_pos h]
    exact pad_apply_of_inside _ _ _ x kZero _ _ (ix2 (0 : Fin 1) n) (ix2 (0 : Fin 1) ⟨n.val, h⟩) (fun a => match a with
      | ⟨0, _⟩ => by show 0 = 0 + 0 * (0 + 1); omega
      | ⟨1, _⟩ => by show n.val = 0 + n.val * (0 + 1); omega)
  · rw [dif_neg h]
    refine (pad_apply_of_not_inside _ _ _ x kZero _ _ (ix2 (0 : Fin 1) n) (1 : Fin 2) ?_).trans rfl
    show ¬(0 ≤ n.val ∧ (n.val - 0) % (0 + 1) = 0 ∧ (n.val - 0) / (0 + 1) < 100000)
    omega

end Reads

/-! ## The seven operands of the launch as those arrays

Each operand's buffer, as the launch finds it, is the fold of the host operations before the launch over the
arguments; unfolding the fold at the operand's buffer leaves the operations that feed it, which are the arrays above. -/

section Terms

variable (m : (ℓ : Loc nD τ sig) → Buf (Elt Ideal) ℓ) (c : Dev nD)

theorem v59_term : (Gen.V m c main_v59 : S11x102400.Idx → EReal)
    = kPad11 (kLo (kPx (m (c.tc.loc main_arg0)) (m (c.tc.loc main_arg1)) (m (c.tc.loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v60_term : (Gen.V m c main_v60 : S11x102400.Idx → EReal)
    = kPad11 (kLo (kPy (m (c.tc.loc main_arg0)) (m (c.tc.loc main_arg1)) (m (c.tc.loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v61_term : (Gen.V m c main_v61 : S11x102400.Idx → EReal)
    = kPad11 (kHi (kPx (m (c.tc.loc main_arg0)) (m (c.tc.loc main_arg1)) (m (c.tc.loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v62_term : (Gen.V m c main_v62 : S11x102400.Idx → EReal)
    = kPad11 (kHi (kPy (m (c.tc.loc main_arg0)) (m (c.tc.loc main_arg1)) (m (c.tc.loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v63_term : (Gen.V m c main_v63 : S11x102400.Idx → EReal)
    = kPad11 (uitofp (F := Ideal) .f32 (kHi (kValid (m (c.tc.loc main_arg2))))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v64_term : (Gen.V m c main_v64 : S11x102400.Idx → EReal)
    = kPad11 (kLo (kSide (m (c.tc.loc main_arg1)) (m (c.tc.loc main_arg2)) (m (c.tc.loc main_arg4)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

theorem v65_term : (Gen.V m c main_v65 : S1x102400.Idx → EReal) = kPad1 (kMask (m (c.tc.loc main_arg3))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, List.flatten_cons, List.flatten_nil, List.append_nil, List.cons_append, List.nil_append]
  after_results_simp
  rfl

end Terms

/-! ## The operands are the lane-major arrays of the specification -/

section Padded

/-- An eleven-row array that is `f` slot by slot and net by net, padded: `f` on the first 100000 lanes, the padding after. -/
theorem kPad11_eq (x : S11x100000.Idx → EReal) (f : Fin 11 → Fin 100000 → EReal)
    (hx : ∀ k n, x (ix2 k n) = f k n) :
    kPad11 x = fun i => if h : (i 1).val < 100000 then f (i 0) ⟨(i 1).val, h⟩ else NetCross.PAD := by
  funext i
  obtain ⟨a, b, rfl⟩ : ∃ a b, i = ix2 a b := ⟨i 0, i 1, eq_ix2 i⟩
  rw [kPad11_apply]
  show (if h : b.val < 100000 then x (ix2 a ⟨b.val, h⟩) else NetCross.PAD)
    = if h : b.val < 100000 then f a ⟨b.val, h⟩ else NetCross.PAD
  by_cases h : b.val < 100000
  · rw [dif_pos h, dif_pos h, hx]
  · rw [dif_neg h, dif_neg h]

/-- The same for a one-row array. -/
theorem kPad1_eq (x : S1x100000.Idx → EReal) (f : Fin 100000 → EReal) (hx : ∀ n, x (ix2 (0 : Fin 1) n) = f n) :
    kPad1 x = fun i => if h : (i 1).val < 100000 then f ⟨(i 1).val, h⟩ else NetCross.PAD := by
  funext i
  obtain ⟨a, b, rfl⟩ : ∃ a b, i = ix2 a b := ⟨i 0, i 1, eq_ix2 i⟩
  obtain rfl : a = 0 := Subsingleton.elim _ _
  rw [kPad1_apply]
  show (if h : b.val < 100000 then x (ix2 (0 : Fin 1) ⟨b.val, h⟩) else NetCross.PAD)
    = if h : b.val < 100000 then f ⟨b.val, h⟩ else NetCross.PAD
  by_cases h : b.val < 100000
  · rw [dif_pos h, dif_pos h, hx]
  · rw [dif_neg h, dif_neg h]

end Padded

section Operands

variable (m : (ℓ : Loc nD τ sig) → Buf (Elt Ideal) ℓ) (c : Dev nD)

/-- Operand 0: the segment starts' x coordinates. -/
theorem V59_eq : (Gen.V m c main_v59 : S11x102400.Idx → EReal)
    = fun i => NetCross.AX (m (c.tc.loc main_arg0)) (m (c.tc.loc main_arg1)) (m (c.tc.loc main_arg2)) (i 0) (i 1) :=
  (v59_term m c).trans (kPad11_eq _ (fun k n => NetCross.px _ _ _ n (NetCross.lo k))
    (fun k n => by rw [kLo_apply, kPx_apply]))

/-- Operand 1: the segment starts' y coordinates. -/
theorem V60_eq : (Gen.V m c main_v60 : S11x102400.Idx → EReal)
    = fun i => NetCross.AY (m (c.tc.loc main_arg0)) (m (c.tc.loc main_arg1)) (m (c.tc.loc main_arg2)) (i 0) (i 1) :=
  (v60_term m c).trans (kPad11_eq _ (fun k n => NetCross.py _ _ _ n (NetCross.lo k))
    (fun k n => by rw [kLo_apply, kPy_apply]))

/-- Operand 2: the segment ends' x coordinates. -/
theorem V61_eq : (Gen.V m c main_v61 : S11x102400.Idx → EReal)
    = fun i => NetCross.BX (m (c.tc.loc main_arg0)) (m (c.tc.loc main_arg1)) (m (c.tc.loc main_arg2)) (i 0) (i 1) :=
  (v61_term m c).trans (kPad11_eq _ (fun k n => NetCross.px _ _ _ n (NetCross.hi k))
    (fun k n => by rw [kHi_apply, kPx_apply]))

/-- Operand 3: the segment ends' y coordinates. -/
theorem V62_eq : (Gen.V m c main_v62 : S11x102400.Idx → EReal)
    = fun i => NetCross.BY (m (c.tc.loc main_arg0)) (m (c.tc.loc main_arg1)) (m (c.tc.loc main_arg2)) (i 0) (i 1) :=
  (v62_term m c).trans (kPad11_eq _ (fun k n => NetCross.py _ _ _ n (NetCross.hi k))
    (fun k n => by rw [kHi_apply, kPy_apply]))

/-- Operand 4: the segment validities as 0 or 1. -/
theorem V63_eq : (Gen.V m c main_v63 : S11x102400.Idx → EReal)
    = fun i => NetCross.SV (m (c.tc.loc main_arg2)) (i 0) (i 1) :=
  (v63_term m c).trans (kPad11_eq _ (fun k n => (((NetCross.valid _ n (NetCross.hi k)).toNat : ℝ) : EReal))
    (fun k n => by
      show (((kHi (kValid (m (c.tc.loc main_arg2))) (ix2 k n)).toNat : ℝ) : EReal) = _
      rw [kHi_apply, kValid_apply]))

/-- Operand 5: the segment starts' sides as ±1. -/
theorem V64_eq : (Gen.V m c main_v64 : S11x102400.Idx → EReal)
    = fun i => NetCross.SS (m (c.tc.loc main_arg1)) (m (c.tc.loc main_arg2)) (m (c.tc.loc main_arg4)) (i 0) (i 1) :=
  (v64_term m c).trans (kPad11_eq _ (fun k n => NetCross.side _ _ _ n (NetCross.lo k))
    (fun k n => by rw [kLo_apply, kSide_apply]))

/-- Operand 6: the net mask as 0 or 1. -/
theorem V65_eq : (Gen.V m c main_v65 : S1x102400.Idx → EReal)
    = fun i => NetCross.NM (m (c.tc.loc main_arg3)) (i 1) :=
  (v65_term m c).trans (kPad1_eq _ (fun n => (((m (c.tc.loc main_arg3) (ix1 n)).toNat : ℝ) : EReal))
    (fun n => kMask_apply _ n))

end Operands

end NetCross.KHost

end
-- ==== Proof.Nest.lean ====
/-
  The values the kernel body passes from one stretch of its straight-line code to the next, each as a function of the
  seven blocks it loads (segment starts `x0`, `x1`, segment ends `x2`, `x3`, validities `x4`, sides `x5`, net mask `x6`).
  `Nv100`, `Nv181`, `Nv262`, `Nv343`, `Nv424`, `Nv505`, `Nv586`, `Nv667` are the running lane totals after the first
  one, two, …, eight rows of the pair triangle; `Nv748` is the tile the body adds to its output block.
-/
import proofs.«161960_j76699525972352_2_alg».proof.Proof.Gen.KernelIdeal.Skeleton

noncomputable section

open Idealize.ShloMosaic

namespace NetCross.KBody

open Cert.KernelIdeal Cert.KernelIdeal.Gen

variable {F : FTy → Type} [FloatOps F]

def Nv4 (x0 x1 x2 x3 x4 x5 : Vec F S11x5120 .f32) (x6 : Vec F S1x5120 .f32) : FVec F S11x5120 .f32 :=
  k0_pay3 x0
def Nv6 (x0 x1 x2 x3 x4 x5 : Vec F S11x5120 .f32) (x6 : Vec F S1x5120 .f32) : FVec F S11x5120 .f32 :=
  k0_pay4 x1
def Nv8 (x0 x1 x2 x3 x4 x5 : Vec F S11x5120 .f32) (x6 : Vec F S1x5120 .f32) : FVec F S11x5120 .f32 :=
  k0_pay5 x2
def Nv10 (x0 x1 x2 x3 x4 x5 : Vec F S11x5120 .f32) (x6 : Vec F S1x5120 .f32) : FVec F S11x5120 .f32 :=
  k0_pay6 x3
def Nv12 (x0 x1 x2 x3 x4 x5 : Vec F S11x5120 .f32) (x6 : Vec F S1x5120 .f32) : FVec F S11x5120 .f32 :=
  k0_pay7 x4
def Nv14 (x0 x1 x2 x3 x4 x5 : Vec F S11x5120 .f32) (x6 : Vec F S1x5120 .f32) : FVec F S11x5120 .f32 :=
  k0_pay8 x5
def Nv16 (x0 x1 x2 x3 x4 x5 : Vec F S11x5120 .f32) (x6 : Vec F S1x5120 .f32) : FVec F S1x5120 .f32 :=
  k0_pay9 x6
def Nv17 (x0 x1 x2 x3 x4 x5 : Vec F S11x5120 .f32) (x6 : Vec F S1x5120 .f32) : FVec F S11x5120 .f32 :=
  k0_pay10 x0 x2
def Nv18 (x0 x1 x2 x3 x4 x5 : Vec F S11x5120 .f32) (x6 : Vec F S1x5120 .f32) : FVec F S11x5120 .f32 :=
  k0_pay11 x1 x3
def Nv19 (x0 x1 x2 x3 x4 x5 : Vec F S11x5120 .f32) (x6 : Vec F S1x5120 .f32) : FVec F S1x5120 .f32 :=
  k0_pay12 (F := F)
def Nv20 (x0 x1 x2 x3 x4 x5 : Vec F S11x5120 .f32) (x6 : Vec F S1x5120 .f32) : FVec F S9x5120 .f32 :=
  k0_pay13 x0
def Nv21 (x0 x1 x2 x3 x4 x5 : Vec F S11x5120 .f32) (x6 : Vec F S1x5120 .f32) : FVec F S9x5120 .f32 :=
  k0_pay14 x1
def Nv22 (x0 x1 x2 x3 x4 x5 : Vec F S11x5120 .f32) (x6 : Vec F S1x5120 .f32) : FVec F S9x5120 .f32 :=
  k0_pay15 x2
def Nv23 (x0 x1 x2 x3 x4 x5 : Vec F S11x5120 .f32) (x6 : Vec F S1x5120 .f32) : FVec F S9x5120 .f32 :=
  k0_pay16 x3
def Nv24 (x0 x1 x2 x3 x4 x5 : Vec F S11x5120 .f32) (x6 : Vec F S1x5120 .f32) : FVec F S9x5120 .f32 :=
  k0_pay17 x0 x2
def Nv25 (x0 x1 x2 x3 x4 x5 : Vec F S11x5120 .f32) (x6 : Vec F S1x5120 .f32) : FVec F S9x5120 .f32 :=
  k0_pay18 x1 x3
def Nv26 (x0 x1 x2 x3 x4 x5 : Vec F S11x5120 .f32) (x6 : Vec F S1x5120 .f32) : FVec F S9x5120 .f32 :=
  k0_pay19 x4
def Nv27 (x0 x1 x2 x3 x4 x5 : Vec F S11x5120 .f32) (x6 : Vec F S1x5120 .f32) : FVec F S9x5120 .f32 :=
  k0_pay20 x5
def Nv28 (x0 x1 x2 x3 x4 x5 : Vec F S11x5120 .f32) (x6 : Vec F S1x5120 .f32) : FVec F S1x5120 .f32 :=
  k0_pay21 x0
def Nv29 (x0 x1 x2 x3 x4 x5 : Vec F S11x5120 .f32) (x6 : Vec F S1x5120 .f32) : FVec F S1x5120 .f32 :=
  k0_pay22 x1
def Nv30 (x0 x1 x2 x3 x4 x5 : Vec F S11x5120 .f32) (x6 : Vec F S1x5120 .f32) : FVec F S1x5120 .f32 :=
  k0_pay23 x2
def Nv31 (x0 x1 x2 x3 x4 x5 : Vec F S11x5120 .f32) (x6 : Vec F S1x5120 .f32) : FVec F S1x5120 .f32 :=
  k0_pay24 x3
def Nv32 (x0 x1 x2 x3 x4 x5 : Vec F S11x5120 .f32) (x6 : Vec F S1x5120 .f32) : FVec F S1x5120 .f32 :=
  k0_pay25 x0 x2
def Nv33 (x0 x1 x2 x3 x4 x5 : Vec F S11x5120 .f32) (x6 : Vec F S1x5120 .f32) : FVec F S1x5120 .f32 :=
  k0_pay26 x1 x3
def Nv34 (x0 x1 x2 x3 x4 x5 : Vec F S11x5120 .f32) (x6 : Vec F S1x5120 .f32) : FVec F S1x5120 .f32 :=
  k0_pay27 x4
def Nv35 (x0 x1 x2 x3 x4 x5 : Vec F S11x5120 .f32) (x6 : Vec F S1x5120 .f32) : FVec F S1x5120 .f32 :=
  k0_pay28 x5
def Nv37 (x0 x1 x2 x3 x4 x5 : Vec F S11x5120 .f32) (x6 : Vec F S1x5120 .f32) : FVec F S9x5120 .f32 :=
  k0_pay29 x0
def Nv39 (x0 x1 x2 x3 x4 x5 : Vec F S11x5120 .f32) (x6 : Vec F S1x5120 .f32) : FVec F S9x5120 .f32 :=
  k0_pay30 x1
def Nv82 (x0 x1 x2 x3 x4 x5 : Vec F S11x5120 .f32) (x6 : Vec F S1x5120 .f32) : FVec F S9x5120 .f32 :=
  k0_pay31 (Nv20 x0 x1 x2 x3 x4 x5 x6) (Nv21 x0 x1 x2 x3 x4 x5 x6) (Nv22 x0 x1 x2 x3 x4 x5 x6) (Nv23 x0 x1 x2 x3 x4 x5 x6) (Nv24 x0 x1 x2 x3 x4 x5 x6) (Nv25 x0 x1 x2 x3 x4 x5 x6) (Nv28 x0 x1 x2 x3 x4 x5 x6) (Nv29 x0 x1 x2 x3 x4 x5 x6) (Nv30 x0 x1 x2 x3 x4 x5 x6) (Nv31 x0 x1 x2 x3 x4 x5 x6) (Nv32 x0 x1 x2 x3 x4 x5 x6) (Nv33 x0 x1 x2 x3 x4 x5 x6) (Nv37 x0 x1 x2 x3 x4 x5 x6) (Nv39 x0 x1 x2 x3 x4 x5 x6)
def Nv88 (x0 x1 x2 x3 x4 x5 : Vec F S11x5120 .f32) (x6 : Vec F S1x5120 .f32) : FVec F S9x5120 .f32 :=
  k0_pay32 (Nv27 x0 x1 x2 x3 x4 x5 x6) (Nv35 x0 x1 x2 x3 x4 x5 x6)
def Nv90 (x0 x1 x2 x3 x4 x5 : Vec F S11x5120 .f32) (x6 : Vec F S1x5120 .f32) : FVec F S9x5120 .f32 :=
  k0_pay33 (Nv26 x0 x1 x2 x3 x4 x5 x6) (Nv34 x0 x1 x2 x3 x4 x5 x6)
def Nv100 (x0 x1 x2 x3 x4 x5 : Vec F S11x5120 .f32) (x6 : Vec F S1x5120 .f32) : FVec F S1x5120 .f32 :=
  k0_pay34 (Nv16 x0 x1 x2 x3 x4 x5 x6) (Nv19 x0 x1 x2 x3 x4 x5 x6) (Nv82 x0 x1 x2 x3 x4 x5 x6) (Nv88 x0 x1 x2 x3 x4 x5 x6) (Nv90 x0 x1 x2 x3 x4 x5 x6)
def Nv107 (x0 x1 x2 x3 x4 x5 : Vec F S11x5120 .f32) (x6 : Vec F S1x5120 .f32) : FVec F S8x5120 .f32 :=
  k0_pay39 (Nv12 x0 x1 x2 x3 x4 x5 x6)
def Nv108 (x0 x1 x2 x3 x4 x5 : Vec F S11x5120 .f32) (x6 : Vec F S1x5120 .f32) : FVec F S8x5120 .f32 :=
  k0_pay40 (Nv14 x0 x1 x2 x3 x4 x5 x6)
def Nv115 (x0 x1 x2 x3 x4 x5 : Vec F S11x5120 .f32) (x6 : Vec F S1x5120 .f32) : FVec F S1x5120 .f32 :=
  k0_pay45 (Nv12 x0 x1 x2 x3 x4 x5 x6)
def Nv116 (x0 x1 x2 x3 x4 x5 : Vec F S11x5120 .f32) (x6 : Vec F S1x5120 .f32) : FVec F S1x5120 .f32 :=
  k0_pay46 (Nv14 x0 x1 x2 x3 x4 x5 x6)
def Nv125 (x0 x1 x2 x3 x4 x5 : Vec F S11x5120 .f32) (x6 : Vec F S1x5120 .f32) : FVec F S8x5120 .f32 :=
  k0_pay49 (Nv4 x0 x1 x2 x3 x4 x5 x6) (Nv6 x0 x1 x2 x3 x4 x5 x6) (Nv17 x0 x1 x2 x3 x4 x5 x6) (Nv18 x0 x1 x2 x3 x4 x5 x6)
def Nv134 (x0 x1 x2 x3 x4 x5 : Vec F S11x5120 .f32) (x6 : Vec F S1x5120 .f32) : FVec F S8x5120 .f32 :=
  k0_pay50 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Nv139 (x0 x1 x2 x3 x4 x5 : Vec F S11x5120 .f32) (x6 : Vec F S1x5120 .f32) : FVec F S8x5120 .f32 :=
  k0_pay51 (Nv4 x0 x1 x2 x3 x4 x5 x6) (Nv6 x0 x1 x2 x3 x4 x5 x6) (Nv17 x0 x1 x2 x3 x4 x5 x6) (Nv18 x0 x1 x2 x3 x4 x5 x6)
def Nv146 (x0 x1 x2 x3 x4 x5 : Vec F S11x5120 .f32) (x6 : Vec F S1x5120 .f32) : FVec F S8x5120 .f32 :=
  k0_pay52 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Nv181 (x0 x1 x2 x3 x4 x5 : Vec F S11x5120 .f32) (x6 : Vec F S1x5120 .f32) : FVec F S1x5120 .f32 :=
  k0_pay53 (Nv16 x0 x1 x2 x3 x4 x5 x6) (Nv100 x0 x1 x2 x3 x4 x5 x6) (Nv107 x0 x1 x2 x3 x4 x5 x6) (Nv108 x0 x1 x2 x3 x4 x5 x6) (Nv115 x0 x1 x2 x3 x4 x5 x6) (Nv116 x0 x1 x2 x3 x4 x5 x6) (Nv125 x0 x1 x2 x3 x4 x5 x6) (Nv134 x0 x1 x2 x3 x4 x5 x6) (Nv139 x0 x1 x2 x3 x4 x5 x6) (Nv146 x0 x1 x2 x3 x4 x5 x6)
def Nv182 (x0 x1 x2 x3 x4 x5 : Vec F S11x5120 .f32) (x6 : Vec F S1x5120 .f32) : FVec F S7x5120 .f32 :=
  k0_pay54 (Nv4 x0 x1 x2 x3 x4 x5 x6)
def Nv183 (x0 x1 x2 x3 x4 x5 : Vec F S11x5120 .f32) (x6 : Vec F S1x5120 .f32) : FVec F S7x5120 .f32 :=
  k0_pay55 (Nv6 x0 x1 x2 x3 x4 x5 x6)
def Nv184 (x0 x1 x2 x3 x4 x5 : Vec F S11x5120 .f32) (x6 : Vec F S1x5120 .f32) : FVec F S7x5120 .f32 :=
  k0_pay56 (Nv8 x0 x1 x2 x3 x4 x5 x6)
def Nv185 (x0 x1 x2 x3 x4 x5 : Vec F S11x5120 .f32) (x6 : Vec F S1x5120 .f32) : FVec F S7x5120 .f32 :=
  k0_pay57 (Nv10 x0 x1 x2 x3 x4 x5 x6)
def Nv186 (x0 x1 x2 x3 x4 x5 : Vec F S11x5120 .f32) (x6 : Vec F S1x5120 .f32) : FVec F S7x5120 .f32 :=
  k0_pay58 (Nv17 x0 x1 x2 x3 x4 x5 x6)
def Nv187 (x0 x1 x2 x3 x4 x5 : Vec F S11x5120 .f32) (x6 : Vec F S1x5120 .f32) : FVec F S7x5120 .f32 :=
  k0_pay59 (Nv18 x0 x1 x2 x3 x4 x5 x6)
def Nv188 (x0 x1 x2 x3 x4 x5 : Vec F S11x5120 .f32) (x6 : Vec F S1x5120 .f32) : FVec F S7x5120 .f32 :=
  k0_pay60 (Nv12 x0 x1 x2 x3 x4 x5 x6)
def Nv189 (x0 x1 x2 x3 x4 x5 : Vec F S11x5120 .f32) (x6 : Vec F S1x5120 .f32) : FVec F S7x5120 .f32 :=
  k0_pay61 (Nv14 x0 x1 x2 x3 x4 x5 x6)
def Nv190 (x0 x1 x2 x3 x4 x5 : Vec F S11x5120 .f32) (x6 : Vec F S1x5120 .f32) : FVec F S1x5120 .f32 :=
  k0_pay62 (Nv4 x0 x1 x2 x3 x4 x5 x6)
def Nv191 (x0 x1 x2 x3 x4 x5 : Vec F S11x5120 .f32) (x6 : Vec F S1x5120 .f32) : FVec F S1x5120 .f32 :=
  k0_pay63 (Nv6 x0 x1 x2 x3 x4 x5 x6)
def Nv192 (x0 x1 x2 x3 x4 x5 : Vec F S11x5120 .f32) (x6 : Vec F S1x5120 .f32) : FVec F S1x5120 .f32 :=
  k0_pay64 (Nv8 x0 x1 x2 x3 x4 x5 x6)
def Nv193 (x0 x1 x2 x3 x4 x5 : Vec F S11x5120 .f32) (x6 : Vec F S1x5120 .f32) : FVec F S1x5120 .f32 :=
  k0_pay65 (Nv10 x0 x1 x2 x3 x4 x5 x6)
def Nv194 (x0 x1 x2 x3 x4 x5 : Vec F S11x5120 .f32) (x6 : Vec F S1x5120 .f32) : FVec F S1x5120 .f32 :=
  k0_pay66 (Nv17 x0 x1 x2 x3 x4 x5 x6)
def Nv195 (x0 x1 x2 x3 x4 x5 : Vec F S11x5120 .f32) (x6 : Vec F S1x5120 .f32) : FVec F S1x5120 .f32 :=
  k0_pay67 (Nv18 x0 x1 x2 x3 x4 x5 x6)
def Nv196 (x0 x1 x2 x3 x4 x5 : Vec F S11x5120 .f32) (x6 : Vec F S1x5120 .f32) : FVec F S1x5120 .f32 :=
  k0_pay68 (Nv12 x0 x1 x2 x3 x4 x5 x6)
def Nv244 (x0 x1 x2 x3 x4 x5 : Vec F S11x5120 .f32) (x6 : Vec F S1x5120 .f32) : FVec F S7x5120 .f32 :=
  k0_pay69 (Nv182 x0 x1 x2 x3 x4 x5 x6) (Nv183 x0 x1 x2 x3 x4 x5 x6) (Nv184 x0 x1 x2 x3 x4 x5 x6) (Nv185 x0 x1 x2 x3 x4 x5 x6) (Nv186 x0 x1 x2 x3 x4 x5 x6) (Nv187 x0 x1 x2 x3 x4 x5 x6) (Nv190 x0 x1 x2 x3 x4 x5 x6) (Nv191 x0 x1 x2 x3 x4 x5 x6) (Nv192 x0 x1 x2 x3 x4 x5 x6) (Nv193 x0 x1 x2 x3 x4 x5 x6) (Nv194 x0 x1 x2 x3 x4 x5 x6) (Nv195 x0 x1 x2 x3 x4 x5 x6)
def Nv246 (x0 x1 x2 x3 x4 x5 : Vec F S11x5120 .f32) (x6 : Vec F S1x5120 .f32) : FVec F S7x5120 .f32 :=
  k0_pay70 (Nv14 x0 x1 x2 x3 x4 x5 x6) (Nv189 x0 x1 x2 x3 x4 x5 x6)
def Nv247 (x0 x1 x2 x3 x4 x5 : Vec F S11x5120 .f32) (x6 : Vec F S1x5120 .f32) : FVec F S7x5120 .f32 :=
  k0_pay71 (F := F)
def Nv262 (x0 x1 x2 x3 x4 x5 : Vec F S11x5120 .f32) (x6 : Vec F S1x5120 .f32) : FVec F S1x5120 .f32 :=
  k0_pay72 (Nv16 x0 x1 x2 x3 x4 x5 x6) (Nv181 x0 x1 x2 x3 x4 x5 x6) (Nv188 x0 x1 x2 x3 x4 x5 x6) (Nv196 x0 x1 x2 x3 x4 x5 x6) (Nv244 x0 x1 x2 x3 x4 x5 x6) (Nv246 x0 x1 x2 x3 x4 x5 x6) (Nv247 x0 x1 x2 x3 x4 x5 x6)
def Nv263 (x0 x1 x2 x3 x4 x5 : Vec F S11x5120 .f32) (x6 : Vec F S1x5120 .f32) : FVec F S6x5120 .f32 :=
  k0_pay73 (Nv4 x0 x1 x2 x3 x4 x5 x6)
def Nv264 (x0 x1 x2 x3 x4 x5 : Vec F S11x5120 .f32) (x6 : Vec F S1x5120 .f32) : FVec F S6x5120 .f32 :=
  k0_pay74 (Nv6 x0 x1 x2 x3 x4 x5 x6)
def Nv267 (x0 x1 x2 x3 x4 x5 : Vec F S11x5120 .f32) (x6 : Vec F S1x5120 .f32) : FVec F S6x5120 .f32 :=
  k0_pay75 (Nv17 x0 x1 x2 x3 x4 x5 x6)
def Nv268 (x0 x1 x2 x3 x4 x5 : Vec F S11x5120 .f32) (x6 : Vec F S1x5120 .f32) : FVec F S6x5120 .f32 :=
  k0_pay76 (Nv18 x0 x1 x2 x3 x4 x5 x6)
def Nv269 (x0 x1 x2 x3 x4 x5 : Vec F S11x5120 .f32) (x6 : Vec F S1x5120 .f32) : FVec F S6x5120 .f32 :=
  k0_pay77 (Nv12 x0 x1 x2 x3 x4 x5 x6)
def Nv270 (x0 x1 x2 x3 x4 x5 : Vec F S11x5120 .f32) (x6 : Vec F S1x5120 .f32) : FVec F S6x5120 .f32 :=
  k0_pay78 (Nv14 x0 x1 x2 x3 x4 x5 x6)
def Nv274 (x0 x1 x2 x3 x4 x5 : Vec F S11x5120 .f32) (x6 : Vec F S1x5120 .f32) : FVec F S1x5120 .f32 :=
  k0_pay81 (Nv10 x0 x1 x2 x3 x4 x5 x6)
def Nv277 (x0 x1 x2 x3 x4 x5 : Vec F S11x5120 .f32) (x6 : Vec F S1x5120 .f32) : FVec F S1x5120 .f32 :=
  k0_pay84 (Nv12 x0 x1 x2 x3 x4 x5 x6)
def Nv278 (x0 x1 x2 x3 x4 x5 : Vec F S11x5120 .f32) (x6 : Vec F S1x5120 .f32) : FVec F S1x5120 .f32 :=
  k0_pay85 (Nv14 x0 x1 x2 x3 x4 x5 x6)
def Nv287 (x0 x1 x2 x3 x4 x5 : Vec F S11x5120 .f32) (x6 : Vec F S1x5120 .f32) : FVec F S6x5120 .f32 :=
  k0_pay88 (Nv4 x0 x1 x2 x3 x4 x5 x6) (Nv6 x0 x1 x2 x3 x4 x5 x6) (Nv17 x0 x1 x2 x3 x4 x5 x6) (Nv18 x0 x1 x2 x3 x4 x5 x6)
def Nv296 (x0 x1 x2 x3 x4 x5 : Vec F S11x5120 .f32) (x6 : Vec F S1x5120 .f32) : FVec F S6x5120 .f32 :=
  k0_pay89 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Nv301 (x0 x1 x2 x3 x4 x5 : Vec F S11x5120 .f32) (x6 : Vec F S1x5120 .f32) : FVec F S6x5120 .f32 :=
  k0_pay90 (Nv4 x0 x1 x2 x3 x4 x5 x6) (Nv6 x0 x1 x2 x3 x4 x5 x6) (Nv17 x0 x1 x2 x3 x4 x5 x6) (Nv18 x0 x1 x2 x3 x4 x5 x6)
def Nv302 (x0 x1 x2 x3 x4 x5 : Vec F S11x5120 .f32) (x6 : Vec F S1x5120 .f32) : FVec F S6x5120 .f32 :=
  k0_pay91 (Nv8 x0 x1 x2 x3 x4 x5 x6)
def Nv343 (x0 x1 x2 x3 x4 x5 : Vec F S11x5120 .f32) (x6 : Vec F S1x5120 .f32) : FVec F S1x5120 .f32 :=
  k0_pay92 (Nv16 x0 x1 x2 x3 x4 x5 x6) (Nv262 x0 x1 x2 x3 x4 x5 x6) (Nv263 x0 x1 x2 x3 x4 x5 x6) (Nv264 x0 x1 x2 x3 x4 x5 x6) (Nv267 x0 x1 x2 x3 x4 x5 x6) (Nv268 x0 x1 x2 x3 x4 x5 x6) (Nv269 x0 x1 x2 x3 x4 x5 x6) (Nv270 x0 x1 x2 x3 x4 x5 x6) (Nv274 x0 x1 x2 x3 x4 x5 x6) (Nv277 x0 x1 x2 x3 x4 x5 x6) (Nv278 x0 x1 x2 x3 x4 x5 x6) (Nv287 x0 x1 x2 x3 x4 x5 x6) (Nv296 x0 x1 x2 x3 x4 x5 x6) (Nv301 x0 x1 x2 x3 x4 x5 x6) (Nv302 x0 x1 x2 x3 x4 x5 x6)
def Nv344 (x0 x1 x2 x3 x4 x5 : Vec F S11x5120 .f32) (x6 : Vec F S1x5120 .f32) : FVec F S5x5120 .f32 :=
  k0_pay93 (Nv4 x0 x1 x2 x3 x4 x5 x6)
def Nv345 (x0 x1 x2 x3 x4 x5 : Vec F S11x5120 .f32) (x6 : Vec F S1x5120 .f32) : FVec F S5x5120 .f32 :=
  k0_pay94 (Nv6 x0 x1 x2 x3 x4 x5 x6)
def Nv346 (x0 x1 x2 x3 x4 x5 : Vec F S11x5120 .f32) (x6 : Vec F S1x5120 .f32) : FVec F S5x5120 .f32 :=
  k0_pay95 (Nv8 x0 x1 x2 x3 x4 x5 x6)
def Nv347 (x0 x1 x2 x3 x4 x5 : Vec F S11x5120 .f32) (x6 : Vec F S1x5120 .f32) : FVec F S5x5120 .f32 :=
  k0_pay96 (Nv10 x0 x1 x2 x3 x4 x5 x6)
def Nv348 (x0 x1 x2 x3 x4 x5 : Vec F S11x5120 .f32) (x6 : Vec F S1x5120 .f32) : FVec F S5x5120 .f32 :=
  k0_pay97 (Nv17 x0 x1 x2 x3 x4 x5 x6)
def Nv349 (x0 x1 x2 x3 x4 x5 : Vec F S11x5120 .f32) (x6 : Vec F S1x5120 .f32) : FVec F S5x5120 .f32 :=
  k0_pay98 (Nv18 x0 x1 x2 x3 x4 x5 x6)
def Nv350 (x0 x1 x2 x3 x4 x5 : Vec F S11x5120 .f32) (x6 : Vec F S1x5120 .f32) : FVec F S5x5120 .f32 :=
  k0_pay99 (Nv12 x0 x1 x2 x3 x4 x5 x6)
def Nv351 (x0 x1 x2 x3 x4 x5 : Vec F S11x5120 .f32) (x6 : Vec F S1x5120 .f32) : FVec F S5x5120 .f32 :=
  k0_pay100 (Nv14 x0 x1 x2 x3 x4 x5 x6)
def Nv358 (x0 x1 x2 x3 x4 x5 : Vec F S11x5120 .f32) (x6 : Vec F S1x5120 .f32) : FVec F S1x5120 .f32 :=
  k0_pay103 (Nv12 x0 x1 x2 x3 x4 x5 x6)
def Nv359 (x0 x1 x2 x3 x4 x5 : Vec F S11x5120 .f32) (x6 : Vec F S1x5120 .f32) : FVec F S1x5120 .f32 :=
  k0_pay104 (Nv14 x0 x1 x2 x3 x4 x5 x6)
def Nv397 (x0 x1 x2 x3 x4 x5 : Vec F S11x5120 .f32) (x6 : Vec F S1x5120 .f32) : FVec F S5x5120 .f32 :=
  k0_pay107 (Nv4 x0 x1 x2 x3 x4 x5 x6) (Nv6 x0 x1 x2 x3 x4 x5 x6) (Nv17 x0 x1 x2 x3 x4 x5 x6) (Nv18 x0 x1 x2 x3 x4 x5 x6) (Nv344 x0 x1 x2 x3 x4 x5 x6) (Nv345 x0 x1 x2 x3 x4 x5 x6) (Nv346 x0 x1 x2 x3 x4 x5 x6) (Nv347 x0 x1 x2 x3 x4 x5 x6)
def Nv404 (x0 x1 x2 x3 x4 x5 : Vec F S11x5120 .f32) (x6 : Vec F S1x5120 .f32) : FVec F S5x5120 .f32 :=
  k0_pay108 (Nv4 x0 x1 x2 x3 x4 x5 x6) (Nv6 x0 x1 x2 x3 x4 x5 x6) (Nv8 x0 x1 x2 x3 x4 x5 x6) (Nv10 x0 x1 x2 x3 x4 x5 x6) (Nv344 x0 x1 x2 x3 x4 x5 x6) (Nv345 x0 x1 x2 x3 x4 x5 x6) (Nv348 x0 x1 x2 x3 x4 x5 x6) (Nv349 x0 x1 x2 x3 x4 x5 x6)
def Nv424 (x0 x1 x2 x3 x4 x5 : Vec F S11x5120 .f32) (x6 : Vec F S1x5120 .f32) : FVec F S1x5120 .f32 :=
  k0_pay109 (Nv16 x0 x1 x2 x3 x4 x5 x6) (Nv343 x0 x1 x2 x3 x4 x5 x6) (Nv350 x0 x1 x2 x3 x4 x5 x6) (Nv351 x0 x1 x2 x3 x4 x5 x6) (Nv358 x0 x1 x2 x3 x4 x5 x6) (Nv359 x0 x1 x2 x3 x4 x5 x6) (Nv397 x0 x1 x2 x3 x4 x5 x6) (Nv404 x0 x1 x2 x3 x4 x5 x6)
def Nv425 (x0 x1 x2 x3 x4 x5 : Vec F S11x5120 .f32) (x6 : Vec F S1x5120 .f32) : FVec F S4x5120 .f32 :=
  k0_pay110 (Nv4 x0 x1 x2 x3 x4 x5 x6)
def Nv426 (x0 x1 x2 x3 x4 x5 : Vec F S11x5120 .f32) (x6 : Vec F S1x5120 .f32) : FVec F S4x5120 .f32 :=
  k0_pay111 (Nv6 x0 x1 x2 x3 x4 x5 x6)
def Nv429 (x0 x1 x2 x3 x4 x5 : Vec F S11x5120 .f32) (x6 : Vec F S1x5120 .f32) : FVec F S4x5120 .f32 :=
  k0_pay112 (Nv17 x0 x1 x2 x3 x4 x5 x6)
def Nv430 (x0 x1 x2 x3 x4 x5 : Vec F S11x5120 .f32) (x6 : Vec F S1x5120 .f32) : FVec F S4x5120 .f32 :=
  k0_pay113 (Nv18 x0 x1 x2 x3 x4 x5 x6)
def Nv431 (x0 x1 x2 x3 x4 x5 : Vec F S11x5120 .f32) (x6 : Vec F S1x5120 .f32) : FVec F S4x5120 .f32 :=
  k0_pay114 (Nv12 x0 x1 x2 x3 x4 x5 x6)
def Nv432 (x0 x1 x2 x3 x4 x5 : Vec F S11x5120 .f32) (x6 : Vec F S1x5120 .f32) : FVec F S4x5120 .f32 :=
  k0_pay115 (Nv14 x0 x1 x2 x3 x4 x5 x6)
def Nv435 (x0 x1 x2 x3 x4 x5 : Vec F S11x5120 .f32) (x6 : Vec F S1x5120 .f32) : FVec F S1x5120 .f32 :=
  k0_pay118 (Nv8 x0 x1 x2 x3 x4 x5 x6)
def Nv436 (x0 x1 x2 x3 x4 x5 : Vec F S11x5120 .f32) (x6 : Vec F S1x5120 .f32) : FVec F S1x5120 .f32 :=
  k0_pay119 (Nv10 x0 x1 x2 x3 x4 x5 x6)
def Nv439 (x0 x1 x2 x3 x4 x5 : Vec F S11x5120 .f32) (x6 : Vec F S1x5120 .f32) : FVec F S1x5120 .f32 :=
  k0_pay122 (Nv12 x0 x1 x2 x3 x4 x5 x6)
def Nv440 (x0 x1 x2 x3 x4 x5 : Vec F S11x5120 .f32) (x6 : Vec F S1x5120 .f32) : FVec F S1x5120 .f32 :=
  k0_pay123 (Nv14 x0 x1 x2 x3 x4 x5 x6)
def Nv442 (x0 x1 x2 x3 x4 x5 : Vec F S11x5120 .f32) (x6 : Vec F S1x5120 .f32) : FVec F S4x5120 .f32 :=
  k0_pay124 (Nv4 x0 x1 x2 x3 x4 x5 x6)
def Nv449 (x0 x1 x2 x3 x4 x5 : Vec F S11x5120 .f32) (x6 : Vec F S1x5120 .f32) : FVec F S4x5120 .f32 :=
  k0_pay126 (Nv4 x0 x1 x2 x3 x4 x5 x6) (Nv6 x0 x1 x2 x3 x4 x5 x6) (Nv17 x0 x1 x2 x3 x4 x5 x6) (Nv18 x0 x1 x2 x3 x4 x5 x6)
def Nv458 (x0 x1 x2 x3 x4 x5 : Vec F S11x5120 .f32) (x6 : Vec F S1x5120 .f32) : FVec F S4x5120 .f32 :=
  k0_pay127 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Nv459 (x0 x1 x2 x3 x4 x5 : Vec F S11x5120 .f32) (x6 : Vec F S1x5120 .f32) : FVec F S4x5120 .f32 :=
  k0_pay128 (Nv6 x0 x1 x2 x3 x4 x5 x6) (Nv17 x0 x1 x2 x3 x4 x5 x6)
def Nv505 (x0 x1 x2 x3 x4 x5 : Vec F S11x5120 .f32) (x6 : Vec F S1x5120 .f32) : FVec F S1x5120 .f32 :=
  k0_pay129 (Nv16 x0 x1 x2 x3 x4 x5 x6) (Nv424 x0 x1 x2 x3 x4 x5 x6) (Nv425 x0 x1 x2 x3 x4 x5 x6) (Nv426 x0 x1 x2 x3 x4 x5 x6) (Nv429 x0 x1 x2 x3 x4 x5 x6) (Nv430 x0 x1 x2 x3 x4 x5 x6) (Nv431 x0 x1 x2 x3 x4 x5 x6) (Nv432 x0 x1 x2 x3 x4 x5 x6) (Nv435 x0 x1 x2 x3 x4 x5 x6) (Nv436 x0 x1 x2 x3 x4 x5 x6) (Nv439 x0 x1 x2 x3 x4 x5 x6) (Nv440 x0 x1 x2 x3 x4 x5 x6) (Nv442 x0 x1 x2 x3 x4 x5 x6) (Nv449 x0 x1 x2 x3 x4 x5 x6) (Nv458 x0 x1 x2 x3 x4 x5 x6) (Nv459 x0 x1 x2 x3 x4 x5 x6)
def Nv506 (x0 x1 x2 x3 x4 x5 : Vec F S11x5120 .f32) (x6 : Vec F S1x5120 .f32) : FVec F S3x5120 .f32 :=
  k0_pay130 (Nv4 x0 x1 x2 x3 x4 x5 x6)
def Nv507 (x0 x1 x2 x3 x4 x5 : Vec F S11x5120 .f32) (x6 : Vec F S1x5120 .f32) : FVec F S3x5120 .f32 :=
  k0_pay131 (Nv6 x0 x1 x2 x3 x4 x5 x6)
def Nv512 (x0 x1 x2 x3 x4 x5 : Vec F S11x5120 .f32) (x6 : Vec F S1x5120 .f32) : FVec F S3x5120 .f32 :=
  k0_pay132 (Nv12 x0 x1 x2 x3 x4 x5 x6)
def Nv513 (x0 x1 x2 x3 x4 x5 : Vec F S11x5120 .f32) (x6 : Vec F S1x5120 .f32) : FVec F S3x5120 .f32 :=
  k0_pay133 (Nv14 x0 x1 x2 x3 x4 x5 x6)
def Nv520 (x0 x1 x2 x3 x4 x5 : Vec F S11x5120 .f32) (x6 : Vec F S1x5120 .f32) : FVec F S1x5120 .f32 :=
  k0_pay136 (Nv12 x0 x1 x2 x3 x4 x5 x6)
def Nv521 (x0 x1 x2 x3 x4 x5 : Vec F S11x5120 .f32) (x6 : Vec F S1x5120 .f32) : FVec F S1x5120 .f32 :=
  k0_pay137 (Nv14 x0 x1 x2 x3 x4 x5 x6)
def Nv559 (x0 x1 x2 x3 x4 x5 : Vec F S11x5120 .f32) (x6 : Vec F S1x5120 .f32) : FVec F S3x5120 .f32 :=
  k0_pay140 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6) (Nv506 x0 x1 x2 x3 x4 x5 x6) (Nv507 x0 x1 x2 x3 x4 x5 x6)
def Nv562 (x0 x1 x2 x3 x4 x5 : Vec F S11x5120 .f32) (x6 : Vec F S1x5120 .f32) : FVec F S3x5120 .f32 :=
  k0_pay141 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6) (Nv506 x0 x1 x2 x3 x4 x5 x6) (Nv507 x0 x1 x2 x3 x4 x5 x6)
def Nv586 (x0 x1 x2 x3 x4 x5 : Vec F S11x5120 .f32) (x6 : Vec F S1x5120 .f32) : FVec F S1x5120 .f32 :=
  k0_pay142 (Nv16 x0 x1 x2 x3 x4 x5 x6) (Nv505 x0 x1 x2 x3 x4 x5 x6) (Nv512 x0 x1 x2 x3 x4 x5 x6) (Nv513 x0 x1 x2 x3 x4 x5 x6) (Nv520 x0 x1 x2 x3 x4 x5 x6) (Nv521 x0 x1 x2 x3 x4 x5 x6) (Nv559 x0 x1 x2 x3 x4 x5 x6) (Nv562 x0 x1 x2 x3 x4 x5 x6)
def Nv587 (x0 x1 x2 x3 x4 x5 : Vec F S11x5120 .f32) (x6 : Vec F S1x5120 .f32) : FVec F S2x5120 .f32 :=
  k0_pay143 (Nv4 x0 x1 x2 x3 x4 x5 x6)
def Nv588 (x0 x1 x2 x3 x4 x5 : Vec F S11x5120 .f32) (x6 : Vec F S1x5120 .f32) : FVec F S2x5120 .f32 :=
  k0_pay144 (Nv6 x0 x1 x2 x3 x4 x5 x6)
def Nv591 (x0 x1 x2 x3 x4 x5 : Vec F S11x5120 .f32) (x6 : Vec F S1x5120 .f32) : FVec F S2x5120 .f32 :=
  k0_pay145 (Nv17 x0 x1 x2 x3 x4 x5 x6)
def Nv592 (x0 x1 x2 x3 x4 x5 : Vec F S11x5120 .f32) (x6 : Vec F S1x5120 .f32) : FVec F S2x5120 .f32 :=
  k0_pay146 (Nv18 x0 x1 x2 x3 x4 x5 x6)
def Nv593 (x0 x1 x2 x3 x4 x5 : Vec F S11x5120 .f32) (x6 : Vec F S1x5120 .f32) : FVec F S2x5120 .f32 :=
  k0_pay147 (Nv12 x0 x1 x2 x3 x4 x5 x6)
def Nv594 (x0 x1 x2 x3 x4 x5 : Vec F S11x5120 .f32) (x6 : Vec F S1x5120 .f32) : FVec F S2x5120 .f32 :=
  k0_pay148 (Nv14 x0 x1 x2 x3 x4 x5 x6)
def Nv597 (x0 x1 x2 x3 x4 x5 : Vec F S11x5120 .f32) (x6 : Vec F S1x5120 .f32) : FVec F S1x5120 .f32 :=
  k0_pay151 (Nv8 x0 x1 x2 x3 x4 x5 x6)
def Nv598 (x0 x1 x2 x3 x4 x5 : Vec F S11x5120 .f32) (x6 : Vec F S1x5120 .f32) : FVec F S1x5120 .f32 :=
  k0_pay152 (Nv10 x0 x1 x2 x3 x4 x5 x6)
def Nv599 (x0 x1 x2 x3 x4 x5 : Vec F S11x5120 .f32) (x6 : Vec F S1x5120 .f32) : FVec F S1x5120 .f32 :=
  k0_pay153 (Nv17 x0 x1 x2 x3 x4 x5 x6)
def Nv600 (x0 x1 x2 x3 x4 x5 : Vec F S11x5120 .f32) (x6 : Vec F S1x5120 .f32) : FVec F S1x5120 .f32 :=
  k0_pay154 (Nv18 x0 x1 x2 x3 x4 x5 x6)
def Nv601 (x0 x1 x2 x3 x4 x5 : Vec F S11x5120 .f32) (x6 : Vec F S1x5120 .f32) : FVec F S1x5120 .f32 :=
  k0_pay155 (Nv12 x0 x1 x2 x3 x4 x5 x6)
def Nv602 (x0 x1 x2 x3 x4 x5 : Vec F S11x5120 .f32) (x6 : Vec F S1x5120 .f32) : FVec F S1x5120 .f32 :=
  k0_pay156 (Nv14 x0 x1 x2 x3 x4 x5 x6)
def Nv604 (x0 x1 x2 x3 x4 x5 : Vec F S11x5120 .f32) (x6 : Vec F S1x5120 .f32) : FVec F S2x5120 .f32 :=
  k0_pay157 (Nv4 x0 x1 x2 x3 x4 x5 x6)
def Nv606 (x0 x1 x2 x3 x4 x5 : Vec F S11x5120 .f32) (x6 : Vec F S1x5120 .f32) : FVec F S2x5120 .f32 :=
  k0_pay158 (Nv6 x0 x1 x2 x3 x4 x5 x6)
def Nv611 (x0 x1 x2 x3 x4 x5 : Vec F S11x5120 .f32) (x6 : Vec F S1x5120 .f32) : FVec F S2x5120 .f32 :=
  k0_pay159 (Nv4 x0 x1 x2 x3 x4 x5 x6) (Nv6 x0 x1 x2 x3 x4 x5 x6) (Nv17 x0 x1 x2 x3 x4 x5 x6) (Nv18 x0 x1 x2 x3 x4 x5 x6)
def Nv613 (x0 x1 x2 x3 x4 x5 : Vec F S11x5120 .f32) (x6 : Vec F S1x5120 .f32) : FVec F S2x5120 .f32 :=
  k0_pay160 (Nv4 x0 x1 x2 x3 x4 x5 x6) (Nv8 x0 x1 x2 x3 x4 x5 x6)
def Nv615 (x0 x1 x2 x3 x4 x5 : Vec F S11x5120 .f32) (x6 : Vec F S1x5120 .f32) : FVec F S2x5120 .f32 :=
  k0_pay161 (Nv6 x0 x1 x2 x3 x4 x5 x6) (Nv10 x0 x1 x2 x3 x4 x5 x6)
def Nv664 (x0 x1 x2 x3 x4 x5 : Vec F S11x5120 .f32) (x6 : Vec F S1x5120 .f32) : FVec F S2x5120 .f32 :=
  k0_pay162 (Nv16 x0 x1 x2 x3 x4 x5 x6) (Nv587 x0 x1 x2 x3 x4 x5 x6) (Nv588 x0 x1 x2 x3 x4 x5 x6) (Nv591 x0 x1 x2 x3 x4 x5 x6) (Nv592 x0 x1 x2 x3 x4 x5 x6) (Nv593 x0 x1 x2 x3 x4 x5 x6) (Nv594 x0 x1 x2 x3 x4 x5 x6) (Nv597 x0 x1 x2 x3 x4 x5 x6) (Nv598 x0 x1 x2 x3 x4 x5 x6) (Nv599 x0 x1 x2 x3 x4 x5 x6) (Nv600 x0 x1 x2 x3 x4 x5 x6) (Nv601 x0 x1 x2 x3 x4 x5 x6) (Nv602 x0 x1 x2 x3 x4 x5 x6) (Nv604 x0 x1 x2 x3 x4 x5 x6) (Nv606 x0 x1 x2 x3 x4 x5 x6) (Nv611 x0 x1 x2 x3 x4 x5 x6) (Nv613 x0 x1 x2 x3 x4 x5 x6) (Nv615 x0 x1 x2 x3 x4 x5 x6)
def Nv667 (x0 x1 x2 x3 x4 x5 : Vec F S11x5120 .f32) (x6 : Vec F S1x5120 .f32) : FVec F S1x5120 .f32 :=
  k0_pay163 (Nv586 x0 x1 x2 x3 x4 x5 x6) (Nv664 x0 x1 x2 x3 x4 x5 x6)
def Nv674 (x0 x1 x2 x3 x4 x5 : Vec F S11x5120 .f32) (x6 : Vec F S1x5120 .f32) : FVec F S1x5120 .f32 :=
  k0_pay166 (Nv12 x0 x1 x2 x3 x4 x5 x6)
def Nv675 (x0 x1 x2 x3 x4 x5 : Vec F S11x5120 .f32) (x6 : Vec F S1x5120 .f32) : FVec F S1x5120 .f32 :=
  k0_pay167 (Nv14 x0 x1 x2 x3 x4 x5 x6)
def Nv682 (x0 x1 x2 x3 x4 x5 : Vec F S11x5120 .f32) (x6 : Vec F S1x5120 .f32) : FVec F S1x5120 .f32 :=
  k0_pay170 (Nv12 x0 x1 x2 x3 x4 x5 x6)
def Nv683 (x0 x1 x2 x3 x4 x5 : Vec F S11x5120 .f32) (x6 : Vec F S1x5120 .f32) : FVec F S1x5120 .f32 :=
  k0_pay171 (Nv14 x0 x1 x2 x3 x4 x5 x6)
def Nv711 (x0 x1 x2 x3 x4 x5 : Vec F S11x5120 .f32) (x6 : Vec F S1x5120 .f32) : FVec F S1x5120 .f32 :=
  k0_pay174 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Nv716 (x0 x1 x2 x3 x4 x5 : Vec F S11x5120 .f32) (x6 : Vec F S1x5120 .f32) : FVec F S1x5120 .f32 :=
  k0_pay175 (Nv4 x0 x1 x2 x3 x4 x5 x6) (Nv6 x0 x1 x2 x3 x4 x5 x6) (Nv8 x0 x1 x2 x3 x4 x5 x6) (Nv10 x0 x1 x2 x3 x4 x5 x6) (Nv17 x0 x1 x2 x3 x4 x5 x6) (Nv18 x0 x1 x2 x3 x4 x5 x6)
def Ncst_116 (x0 x1 x2 x3 x4 x5 : Vec F S11x5120 .f32) (x6 : Vec F S1x5120 .f32) : F .f32 :=
  Scalar.ofBits .f32 0x3F800000#32

/-- The tile the body adds to its output block. -/
def Nv748 (x0 x1 x2 x3 x4 x5 : Vec F S11x5120 .f32) (x6 : Vec F S1x5120 .f32) : FVec F S8x128 .f32 :=
  k0_pay176 (Nv16 x0 x1 x2 x3 x4 x5 x6) (Nv667 x0 x1 x2 x3 x4 x5 x6) (Nv674 x0 x1 x2 x3 x4 x5 x6) (Nv675 x0 x1 x2 x3 x4 x5 x6) (Nv682 x0 x1 x2 x3 x4 x5 x6) (Nv683 x0 x1 x2 x3 x4 x5 x6) (Nv711 x0 x1 x2 x3 x4 x5 x6) (Nv716 x0 x1 x2 x3 x4 x5 x6) (Ncst_116 x0 x1 x2 x3 x4 x5 x6)

end NetCross.KBody

end
-- ==== Proof.Pieces.lean ====
/-
  What the kernel body leaves in its output block, in each of its two control cases.

  At the first point of a core's run the body stores the zero tile, reads it back, and stores the zero tile plus the tile
  it computed; at every later point it stores what the block held plus the tile it computed.
-/
import proofs.«161960_j76699525972352_2_alg».proof.Proof.Gen.KernelIdeal.Frame
import proofs.«161960_j76699525972352_2_alg».proof.Proof.Nest
import Idealize.ShloMosaic.Lib.Pipeline.Value
import Idealize.ShloMosaic.Lib.Tactic

set_option maxRecDepth 16384

noncomputable section

open Idealize.ShloMosaic Idealize.ShloMosaic.TcCoe Idealize.SL.Sem

namespace NetCross.KBody

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point of a core's run: the block's old contents plus the computed tile. -/
theorem out_B (c : Dev nD) (i : grid0.Coords) (arg2 : Memref sig .tc .vmem S11x5120 .f32) (harg2 : arg2.IsWhole) (arg3 : Memref sig .tc .vmem S11x5120 .f32) (harg3 : arg3.IsWhole) (arg4 : Memref sig .tc .vmem S11x5120 .f32) (harg4 : arg4.IsWhole) (arg5 : Memref sig .tc .vmem S11x5120 .f32) (harg5 : arg5.IsWhole) (arg6 : Memref sig .tc .vmem S11x5120 .f32) (harg6 : arg6.IsWhole) (arg7 : Memref sig .tc .vmem S11x5120 .f32) (harg7 : arg7.IsWhole) (arg8 : Memref sig .tc .vmem S1x5120 .f32) (harg8 : arg8.IsWhole) (arg9 : Memref sig .tc .vmem S1x8x128 .f32) (harg9 : arg9.IsWhole) (hc0 : ¬cond0_0 i) (x0 : Vec F S11x5120 .f32) (x1 : Vec F S11x5120 .f32) (x2 : Vec F S11x5120 .f32) (x3 : Vec F S11x5120 .f32) (x4 : Vec F S11x5120 .f32) (x5 : Vec F S11x5120 .f32) (x6 : Vec F S1x5120 .f32) (xo7 : Vec F S1x8x128 .f32) :
    out0_B_7 c i arg2 harg2 arg3 harg3 arg4 harg4 arg5 harg5 arg6 harg6 arg7 harg7 arg8 harg8 arg9 harg9 hc0 x0 x1 x2 x3 x4 x5 x6 xo7 = k0_pay1 (Nv748 x0 x1 x2 x3 x4 x5 x6) (k0_pay177 xo7) := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S11x5120) hz2, View.ld_unit_zero (S := S1x5120) hz2, View.ld_unit_zero (S := S1x8x128) hz3]
  rfl

/-- The first point of a core's run: the zero tile plus the computed tile. -/
theorem out_A (c : Dev nD) (i : grid0.Coords) (arg2 : Memref sig .tc .vmem S11x5120 .f32) (harg2 : arg2.IsWhole) (arg3 : Memref sig .tc .vmem S11x5120 .f32) (harg3 : arg3.IsWhole) (arg4 : Memref sig .tc .vmem S11x5120 .f32) (harg4 : arg4.IsWhole) (arg5 : Memref sig .tc .vmem S11x5120 .f32) (harg5 : arg5.IsWhole) (arg6 : Memref sig .tc .vmem S11x5120 .f32) (harg6 : arg6.IsWhole) (arg7 : Memref sig .tc .vmem S11x5120 .f32) (harg7 : arg7.IsWhole) (arg8 : Memref sig .tc .vmem S1x5120 .f32) (harg8 : arg8.IsWhole) (arg9 : Memref sig .tc .vmem S1x8x128 .f32) (harg9 : arg9.IsWhole) (hc0 : cond0_0 i) (x0 : Vec F S11x5120 .f32) (x1 : Vec F S11x5120 .f32) (x2 : Vec F S11x5120 .f32) (x3 : Vec F S11x5120 .f32) (x4 : Vec F S11x5120 .f32) (x5 : Vec F S11x5120 .f32) (x6 : Vec F S1x5120 .f32) :
    out0_A_7 c i arg2 harg2 arg3 harg3 arg4 harg4 arg5 harg5 arg6 harg6 arg7 harg7 arg8 harg8 arg9 harg9 hc0 x0 x1 x2 x3 x4 x5 x6 = k0_pay1 (Nv748 x0 x1 x2 x3 x4 x5 x6) (k0_pay177 (k0_pay2 (F := F))) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, harg8.read_unread,
    View.ld_unit_zero (S := S11x5120) hz2, View.ld_unit_zero (S := S1x5120) hz2, View.ld_unit_zero (S := S1x8x128) hz3]
  rfl

end NetCross.KBody

end
-- ==== Proof.Tile.lean ====
/-
  The tile one grid point adds to its core's output block, and the array the grid leaves.

  Grid point `t` (cores' runs of ten consecutive points) computes from its seven input blocks an 8 × 128 tile whose only
  non-zero element is the corner, the block's total.  The output array has one 8 × 128 block per core: core `p`'s block
  ends as zero plus the tiles of the points `10 p … 10 p + 9`, added in that order.
-/
import proofs.«161960_j76699525972352_2_alg».proof.Proof.Pieces
import proofs.«161960_j76699525972352_2_alg».proof.Proof.Spec
import Idealize.ShloMosaic.Lib.ValueIdx

noncomputable section

open Idealize.ShloMosaic Idealize.ShloMosaic.TcCoe Idealize.SL.Sem Idealize.ShloMosaic.ValueIdx

namespace NetCross.KBody

open Cert.KernelIdeal Cert.KernelIdeal.Gen

variable (m : (ℓ : Loc nD τ sig) → Buf (Elt Ideal) ℓ)

/-- The tile grid point `t` computes from its input blocks. -/
def tileAt (c : Dev nD) (t : Fin cfg0.N) : FVec Ideal S8x128 .f32 :=
  Nv748 (F := Ideal) (iblk m c 0 t) (iblk m c 1 t) (iblk m c 2 t) (iblk m c 3 t) (iblk m c 4 t) (iblk m c 5 t) (iblk m c 6 t)

/-- The same at a natural number, zero past the grid's last point, read at row `r` and column `q`. -/
def tileN (c : Dev nD) (n : ℕ) (r : Fin 8) (q : Fin 128) : EReal :=
  if h : n < cfg0.N then tileAt m c ⟨n, h⟩ (ix2 r q) else 0

/-- What the output array holds after the grid: block `p` is zero plus the ten tiles of core `p`'s points, in order. -/
def OUTarr (c : Dev nD) : S2x8x128.Idx → EReal :=
  fun i => NetCross.ZERO + ∑ s ∈ Finset.range 10, tileN m c (10 * (i 0).val + s) ⟨(i 1).val, (i 1).isLt⟩ ⟨(i 2).val, (i 2).isLt⟩

end NetCross.KBody

end
-- ==== Proof.Kit.lean ====
/-
  Layout operations of the blocks this computation meets, read at explicit coordinates.

  A block of eleven segment rows by 5120 lanes is cut into row ranges and single rows, a single row is repeated down a
  row range, a row sum collapses a row range to one row, a lane sum collapses one row to one number, and a number is
  planted at the corner of an 8 × 128 tile.  Each lemma says which element of the operand one element of the result is.
-/
import Idealize.ShloMosaic.Lib.Pipeline.Value
import Idealize.ShloMosaic.Lib.ValueIdx
import Idealize.ShloMosaic.PureOps.Ideal.Laws

noncomputable section

open Idealize.ShloMosaic Idealize.ShloMosaic.ValueIdx

namespace NetCross.Kit

variable {α : Type}

/-- Rows `o … o + r - 1` of an eleven-row block: row `k` of the range is row `o + k` of the block. -/
theorem rows_apply {r o : ℕ} (v : (⟨2, ![11, 5120]⟩ : Shape).Idx → α)
    (h : (⟨2, ![11, 5120]⟩ : Shape).Slices ![o, 0] ⟨2, ![r, 5120]⟩) (k : Fin r) (l : Fin 5120) :
    extractStridedSlice ⟨2, ![r, 5120]⟩ ![o, 0] v h (ix2 k l)
      = v (ix2 (⟨o + k.val, by have h0 : o + r ≤ 11 := h.2 0; have := k.isLt; omega⟩ : Fin 11) l) :=
  extractStridedSlice_apply _ v h _ _ (fun a => match a with
    | ⟨0, _⟩ => rfl
    | ⟨1, _⟩ => by show l.val = 0 + l.val; omega)

/-- The single row `o` of an eleven-row block. -/
theorem row_apply {o : ℕ} (v : (⟨2, ![11, 5120]⟩ : Shape).Idx → α)
    (h : (⟨2, ![11, 5120]⟩ : Shape).Slices ![o, 0] ⟨2, ![1, 5120]⟩) (l : Fin 5120) :
    extractStridedSlice ⟨2, ![1, 5120]⟩ ![o, 0] v h (ix2 (0 : Fin 1) l)
      = v (ix2 (⟨o, by have h0 : o + 1 ≤ 11 := h.2 0; omega⟩ : Fin 11) l) :=
  extractStridedSlice_apply _ v h _ _ (fun a => match a with
    | ⟨0, _⟩ => by show o = o + 0; omega
    | ⟨1, _⟩ => by show l.val = 0 + l.val; omega)

/-- One row repeated down `r` rows. -/
theorem bcast_apply {r : ℕ} (v : (⟨2, ![1, 5120]⟩ : Shape).Idx → α)
    (h : (⟨2, ![1, 5120]⟩ : Shape).Broadcasts ⟨2, ![r, 5120]⟩) (k : Fin r) (l : Fin 5120) :
    broadcastTo ⟨2, ![r, 5120]⟩ v h (ix2 k l) = v (ix2 (0 : Fin 1) l) :=
  broadcastTo_apply v h _ _ (fun a => match a with
    | ⟨0, _⟩ => by simp
    | ⟨1, _⟩ => by simp)

/-- A row of 5120 numbers viewed as a one-row block. -/
theorem cast_row_apply (v : (⟨1, ![5120]⟩ : Shape).Idx → α)
    (h : (⟨1, ![5120]⟩ : Shape).ShapeCasts ⟨2, ![1, 5120]⟩) (l : Fin 5120) :
    shapeCast ⟨2, ![1, 5120]⟩ v h (ix2 (0 : Fin 1) l) = v (ix1 l) :=
  shapeCast_apply v h _ _ (by
    rw [Shape.rowMajor_val_one, Shape.rowMajor_val_two]
    show l.val = 0 * 5120 + l.val
    omega)

/-- One number viewed as a 1 × 1 block. -/
theorem cast_one_apply (v : (⟨1, ![1]⟩ : Shape).Idx → α)
    (h : (⟨1, ![1]⟩ : Shape).ShapeCasts ⟨2, ![1, 1]⟩) :
    shapeCast ⟨2, ![1, 1]⟩ v h (ix2 (0 : Fin 1) (0 : Fin 1)) = v (ix1 (0 : Fin 1)) :=
  shapeCast_apply v h _ _ (by
    rw [Shape.rowMajor_val_one, Shape.rowMajor_val_two]
    rfl)

/-- A [1, 8, 128] tile viewed as [8, 128]. -/
theorem cast_tile_drop_apply (v : (⟨3, ![1, 8, 128]⟩ : Shape).Idx → α)
    (h : (⟨3, ![1, 8, 128]⟩ : Shape).ShapeCasts ⟨2, ![8, 128]⟩) (r : Fin 8) (q : Fin 128) :
    shapeCast ⟨2, ![8, 128]⟩ v h (ix2 r q) = v (ix3 (0 : Fin 1) r q) :=
  shapeCast_apply v h _ _ (by
    rw [Shape.rowMajor_val_three, Shape.rowMajor_val_two]
    show (0 * 8 + r.val) * 128 + q.val = r.val * 128 + q.val
    omega)

/-- An [8, 128] tile viewed as [1, 8, 128]. -/
theorem cast_tile_add_apply (v : (⟨2, ![8, 128]⟩ : Shape).Idx → α)
    (h : (⟨2, ![8, 128]⟩ : Shape).ShapeCasts ⟨3, ![1, 8, 128]⟩) (r : Fin 8) (q : Fin 128) :
    shapeCast ⟨3, ![1, 8, 128]⟩ v h (ix3 (0 : Fin 1) r q) = v (ix2 r q) :=
  shapeCast_apply v h _ _ (by
    rw [Shape.rowMajor_val_three, Shape.rowMajor_val_two]
    show r.val * 128 + q.val = (0 * 8 + r.val) * 128 + q.val
    omega)

/-- The sum down the rows of an `r`-row block, lane by lane. -/
theorem sum_rows_apply {r : ℕ} (src : FVec Ideal ⟨2, ![r, 5120]⟩ .f32)
    (h : (⟨2, ![r, 5120]⟩ : Shape).Reduces [0] ⟨1, ![5120]⟩) (hφ : FKind.Formats .f32)
    (hacc : (0x00000000#32 : BitVec 32) = 0x00000000#32) (l : Fin 5120) :
    multiReduction .add [0] ⟨1, ![5120]⟩ src 0x00000000#32 h hφ hacc (ix1 l) = ∑ k : Fin r, src (ix2 k l) := by
  refine (Ideal.multiReduction_add_single src 0x00000000#32 h hφ hacc (ix1 l)).trans ?_
  refine Finset.sum_congr rfl fun k _ => congrArg src ?_
  funext c
  match c with
  | ⟨0, _⟩ => rfl
  | ⟨1, _⟩ => rfl

/-- The sum along the lanes of a one-row block. -/
theorem sum_lanes_apply (src : FVec Ideal ⟨2, ![1, 5120]⟩ .f32)
    (h : (⟨2, ![1, 5120]⟩ : Shape).Reduces [1] ⟨1, ![1]⟩) (hφ : FKind.Formats .f32)
    (hacc : (0x00000000#32 : BitVec 32) = 0x00000000#32) :
    multiReduction .add [1] ⟨1, ![1]⟩ src 0x00000000#32 h hφ hacc (ix1 (0 : Fin 1)) = ∑ l : Fin 5120, src (ix2 (0 : Fin 1) l) := by
  refine (Ideal.multiReduction_add_single src 0x00000000#32 h hφ hacc (ix1 (0 : Fin 1))).trans ?_
  refine Finset.sum_congr rfl fun k _ => congrArg src ?_
  funext c
  match c with
  | ⟨0, _⟩ => rfl
  | ⟨1, _⟩ => rfl

/-- The one element of a 1 × 1 block. -/
theorem extract_one_apply (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v ?_
  funext c
  match c with
  | ⟨0, _⟩ => rfl
  | ⟨1, _⟩ => rfl

/-- The row number and the column number of an 8 × 128 tile, as 32-bit words. -/
theorem iota_row_apply (h : (⟨2, ![8, 128]⟩ : Shape).Iotas .tc 32 [0]) (r : Fin 8) (q : Fin 128) :
    iota .tc ⟨2, ![8, 128]⟩ 32 [0] h (ix2 r q) = BitVec.ofNat 32 r.val :=
  iota_single_apply _ _ _ _ h _
theorem iota_col_apply (h : (⟨2, ![8, 128]⟩ : Shape).Iotas .tc 32 [1]) (r : Fin 8) (q : Fin 128) :
    iota .tc ⟨2, ![8, 128]⟩ 32 [1] h (ix2 r q) = BitVec.ofNat 32 q.val :=
  iota_single_apply _ _ _ _ h _

end NetCross.Kit

end
-- ==== Proof.Body.lean ====
/-
  The kernel body's arithmetic read at one lane.

  The body holds seven blocks: segment starts (x0, x1), segment ends (x2, x3), validities x4, sides x5 — eleven segment
  rows by 5120 lanes each — and the net mask x6, one row.  For the segment row `i` it takes the rows `i + 2 … 10` as the
  partners `j`, forms the weighted smoothed crossing indicator of every pair lane by lane, keeps it where the product of the
  two validities and the mask is positive, and adds the column sums to a running one-row total.
-/
import proofs.«161960_j76699525972352_2_alg».proof.Proof.Nest
import proofs.«161960_j76699525972352_2_alg».proof.Proof.Kit
import proofs.«161960_j76699525972352_2_alg».proof.Proof.Spec

noncomputable section

open Idealize.ShloMosaic Idealize.ShloMosaic.ValueIdx

namespace NetCross.KBody

open Cert.KernelIdeal Cert.KernelIdeal.Gen NetCross.Kit

/-- The elementwise operations the body uses, read at an index (each is the scalar operation on the elements). -/
theorem logistic_apply {s : Shape} (a : FVec Ideal s .f32) (i : s.Idx) : logistic a i = Ideal.logistic (a i) := rfl
theorem cmpf_ogt_apply {s : Shape} (a b : FVec Ideal s .f32) (i : s.Idx) : cmpf .ogt a b i = Ideal.cmp .ogt (a i) (b i) := rfl
theorem ofBits_apply (b : BitVec 32) : (Scalar.ofBits (F := Ideal) .f32 b : EReal) = Ideal.ofBits .f32 b := rfl

/-- The contribution of the segment pair `(i, j)` at lane `l` of the blocks: the weighted indicator where the product of
    the two validities and the mask is positive, else zero. -/
def tB (x0 x1 x2 x3 x4 x5 : Vec Ideal S11x5120 .f32) (x6 : Vec Ideal S1x5120 .f32) (l : Fin 5120) (i j : Fin 11) : EReal :=
  Scalar.select (Ideal.cmp .ogt (x4 (ix2 i l) * x4 (ix2 j l) * x6 (ix2 (0 : Fin 1) l)) ZERO)
    (crossK (x0 (ix2 i l)) (x1 (ix2 i l)) (x2 (ix2 i l)) (x3 (ix2 i l)) (x0 (ix2 j l)) (x1 (ix2 j l)) (x2 (ix2 j l)) (x3 (ix2 j l))
      * wgt (x5 (ix2 i l)) (x5 (ix2 j l)))
    ZERO

/-- Every definition that only passes a value along, and the elementwise and layout readings: the rewriting set that
    brings one element of a stretch of the body down to the elements of the seven blocks. -/
macro "body_at_index" : tactic => `(tactic| simp only [Nv4, Nv6, Nv8, Nv10, Nv12, Nv14, Nv16, Nv17, Nv18, Nv19, Nv20, Nv21, Nv22, Nv23, Nv24, Nv25, Nv26, Nv27, Nv28, Nv29, Nv30, Nv31, Nv32, Nv33, Nv34, Nv35, Nv37, Nv39, Nv82, Nv88, Nv90, Nv107, Nv108, Nv115, Nv116, Nv125, Nv134, Nv139, Nv146, Nv182, Nv183, Nv184, Nv185, Nv186, Nv187, Nv188, Nv189, Nv190, Nv191, Nv192, Nv193, Nv194, Nv195, Nv196, Nv244, Nv246, Nv247, Nv263, Nv264, Nv267, Nv268, Nv269, Nv270, Nv274, Nv277, Nv278, Nv287, Nv296, Nv301, Nv302, Nv344, Nv345, Nv346, Nv347, Nv348, Nv349, Nv350, Nv351, Nv358, Nv359, Nv397, Nv404, Nv425, Nv426, Nv429, Nv430, Nv431, Nv432, Nv435, Nv436, Nv439, Nv440, Nv442, Nv449, Nv458, Nv459, Nv506, Nv507, Nv512, Nv513, Nv520, Nv521, Nv559, Nv562, Nv587, Nv588, Nv591, Nv592, Nv593, Nv594, Nv597, Nv598, Nv599, Nv600, Nv601, Nv602, Nv604, Nv606, Nv611, Nv613, Nv615, Nv664, Nv674, Nv675, Nv682, Nv683, Nv711, Nv716, Ncst_116, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, select_apply, cmpf_ogt_apply, mulf_apply, subf_apply, addf_apply, divf_apply, logistic_apply, broadcast_apply, bcast_apply, rows_apply, shapeCast_self, ofBits_apply])

/-- The running total after the first row of the triangle: segment 0 against segments 2 … 10. -/
theorem iter0 (x0 x1 x2 x3 x4 x5 : Vec Ideal S11x5120 .f32) (x6 : Vec Ideal S1x5120 .f32) (l : Fin 5120) :
    Nv100 (F := Ideal) x0 x1 x2 x3 x4 x5 x6 (ix2 (0 : Fin 1) l)
      = ZERO + ∑ k : Fin 9, tB x0 x1 x2 x3 x4 x5 x6 l ⟨0, by omega⟩ ⟨2 + k.val, by have := k.isLt; omega⟩ := by
  unfold Nv100 k0_pay34
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the second row of the triangle: segment 1 against segments 3 … 10. -/
theorem iter1 (x0 x1 x2 x3 x4 x5 : Vec Ideal S11x5120 .f32) (x6 : Vec Ideal S1x5120 .f32) (l : Fin 5120) :
    Nv181 (F := Ideal) x0 x1 x2 x3 x4 x5 x6 (ix2 (0 : Fin 1) l)
      = Nv100 (F := Ideal) x0 x1 x2 x3 x4 x5 x6 (ix2 (0 : Fin 1) l) + ∑ k : Fin 8, tB x0 x1 x2 x3 x4 x5 x6 l ⟨1, by omega⟩ ⟨3 + k.val, by have := k.isLt; omega⟩ := by
  unfold Nv181 k0_pay53
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the third row of the triangle: segment 2 against segments 4 … 10. -/
theorem iter2 (x0 x1 x2 x3 x4 x5 : Vec Ideal S11x5120 .f32) (x6 : Vec Ideal S1x5120 .f32) (l : Fin 5120) :
    Nv262 (F := Ideal) x0 x1 x2 x3 x4 x5 x6 (ix2 (0 : Fin 1) l)
      = Nv181 (F := Ideal) x0 x1 x2 x3 x4 x5 x6 (ix2 (0 : Fin 1) l) + ∑ k : Fin 7, tB x0 x1 x2 x3 x4 x5 x6 l ⟨2, by omega⟩ ⟨4 + k.val, by have := k.isLt; omega⟩ := by
  unfold Nv262 k0_pay72
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the fourth row of the triangle: segment 3 against segments 5 … 10. -/
theorem iter3 (x0 x1 x2 x3 x4 x5 : Vec Ideal S11x5120 .f32) (x6 : Vec Ideal S1x5120 .f32) (l : Fin 5120) :
    Nv343 (F := Ideal) x0 x1 x2 x3 x4 x5 x6 (ix2 (0 : Fin 1) l)
      = Nv262 (F := Ideal) x0 x1 x2 x3 x4 x5 x6 (ix2 (0 : Fin 1) l) + ∑ k : Fin 6, tB x0 x1 x2 x3 x4 x5 x6 l ⟨3, by omega⟩ ⟨5 + k.val, by have := k.isLt; omega⟩ := by
  unfold Nv343 k0_pay92
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the fifth row of the triangle: segment 4 against segments 6 … 10. -/
theorem iter4 (x0 x1 x2 x3 x4 x5 : Vec Ideal S11x5120 .f32) (x6 : Vec Ideal S1x5120 .f32) (l : Fin 5120) :
    Nv424 (F := Ideal) x0 x1 x2 x3 x4 x5 x6 (ix2 (0 : Fin 1) l)
      = Nv343 (F := Ideal) x0 x1 x2 x3 x4 x5 x6 (ix2 (0 : Fin 1) l) + ∑ k : Fin 5, tB x0 x1 x2 x3 x4 x5 x6 l ⟨4, by omega⟩ ⟨6 + k.val, by have := k.isLt; omega⟩ := by
  unfold Nv424 k0_pay109
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the sixth row of the triangle: segment 5 against segments 7 … 10. -/
theorem iter5 (x0 x1 x2 x3 x4 x5 : Vec Ideal S11x5120 .f32) (x6 : Vec Ideal S1x5120 .f32) (l : Fin 5120) :
    Nv505 (F := Ideal) x0 x1 x2 x3 x4 x5 x6 (ix2 (0 : Fin 1) l)
      = Nv424 (F := Ideal) x0 x1 x2 x3 x4 x5 x6 (ix2 (0 : Fin 1) l) + ∑ k : Fin 4, tB x0 x1 x2 x3 x4 x5 x6 l ⟨5, by omega⟩ ⟨7 + k.val, by have := k.isLt; omega⟩ := by
  unfold Nv505 k0_pay129
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the seventh row of the triangle: segment 6 against segments 8 … 10. -/
theorem iter6 (x0 x1 x2 x3 x4 x5 : Vec Ideal S11x5120 .f32) (x6 : Vec Ideal S1x5120 .f32) (l : Fin 5120) :
    Nv586 (F := Ideal) x0 x1 x2 x3 x4 x5 x6 (ix2 (0 : Fin 1) l)
      = Nv505 (F := Ideal) x0 x1 x2 x3 x4 x5 x6 (ix2 (0 : Fin 1) l) + ∑ k : Fin 3, tB x0 x1 x2 x3 x4 x5 x6 l ⟨6, by omega⟩ ⟨8 + k.val, by have := k.isLt; omega⟩ := by
  unfold Nv586 k0_pay142
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

/-- The running total after the eighth row of the triangle: segment 7 against segments 9 … 10. -/
theorem iter7 (x0 x1 x2 x3 x4 x5 : Vec Ideal S11x5120 .f32) (x6 : Vec Ideal S1x5120 .f32) (l : Fin 5120) :
    Nv667 (F := Ideal) x0 x1 x2 x3 x4 x5 x6 (ix2 (0 : Fin 1) l)
      = Nv586 (F := Ideal) x0 x1 x2 x3 x4 x5 x6 (ix2 (0 : Fin 1) l) + ∑ k : Fin 2, tB x0 x1 x2 x3 x4 x5 x6 l ⟨7, by omega⟩ ⟨9 + k.val, by have := k.isLt; omega⟩ := by
  unfold Nv667 k0_pay163
  refine (addf_apply _ _ _).trans ?_
  refine congrArg₂ (· + ·) rfl ?_
  refine (cast_row_apply _ _ l).trans ?_
  refine (sum_rows_apply _ _ _ _ l).trans ?_
  refine Finset.sum_congr rfl fun k _ => ?_
  body_at_index
  rfl

theorem andi_apply {s : Shape} (a b : IVec s 1) (i : s.Idx) : andi a b i = IntOp.andi (a i) (b i) := rfl
theorem cmpi_eq_apply {s : Shape} (a b : IVec s 32) (i : s.Idx) : cmpi .eq a b i = IntOp.cmpi .eq (a i) (b i) := rfl

/-- The number the body plants at the corner of its tile: the lane sum of the last running total plus the last row of the
    triangle (segment 8 against segment 10). -/
def blockSum (x0 x1 x2 x3 x4 x5 : Vec Ideal S11x5120 .f32) (x6 : Vec Ideal S1x5120 .f32) : EReal :=
  ∑ l : Fin 5120, (Nv667 (F := Ideal) x0 x1 x2 x3 x4 x5 x6 (ix2 (0 : Fin 1) l)
    + ∑ k : Fin 1, tB x0 x1 x2 x3 x4 x5 x6 l ⟨8, by omega⟩ ⟨10 + k.val, by have := k.isLt; omega⟩)

/-- The tile the body adds: the block sum where the row and the column number are both zero, else zero. -/
theorem tile_apply (x0 x1 x2 x3 x4 x5 : Vec Ideal S11x5120 .f32) (x6 : Vec Ideal S1x5120 .f32) (r : Fin 8) (q : Fin 128) :
    Nv748 (F := Ideal) x0 x1 x2 x3 x4 x5 x6 (ix2 r q)
      = Scalar.select (IntOp.andi (IntOp.cmpi .eq (BitVec.ofNat 32 r.val) 0#32) (IntOp.cmpi .eq (BitVec.ofNat 32 q.val) 0#32))
          (blockSum x0 x1 x2 x3 x4 x5 x6) ZERO := by
  unfold Nv748 k0_pay176
  simp only [select_apply, andi_apply, cmpi_eq_apply, broadcast_apply, extract_one_apply, cast_one_apply, ofBits_apply]
  refine congrArg₂ (fun (c : BitVec 1) (z : EReal) => Scalar.select c z ZERO) ?_ ?_
  · rw [iota_single_apply, iota_single_apply]
  refine (sum_lanes_apply _ _ _ _).trans ?_
  unfold blockSum
  refine Finset.sum_congr rfl fun l _ => ?_
  refine (addf_apply _ _ _).trans ?_
  refine congrArg₂ (· + ·) rfl ?_
  refine (cast_row_apply _ _ l).trans ?_
  refine (sum_rows_apply _ _ _ _ l).trans ?_
  refine Finset.sum_congr rfl fun k _ => ?_
  obtain rfl : k = 0 := Subsingleton.elim _ _
  body_at_index
  rfl

end NetCross.KBody

end
-- ==== Proof.Unroll.lean ====
/-
  Two rearrangements of the lane totals.

  (1) One lane's total, written row by row.  Row i of the strictly non-adjacent ordered pairs pairs segment i with the
      segments i + 2, …, 10, so rows 0 … 8 have 9, 8, …, 1 terms and rows 9 and 10 have none.  Adding the rows one after
      another to a running total that starts at zero gives the lane's total.
  (2) The block totals laid out in a 2 × 8 × 128 array that is zero except at position (p, 0, 0), where it holds zero
      plus the sum of the ten block totals of p: the sum of the array is the sum over all blocks and lanes.
-/
import proofs.«161960_j76699525972352_2_alg».proof.Proof.Spec

noncomputable section

open Idealize.ShloMosaic Idealize.ShloMosaic.ValueIdx

namespace NetCross

/-! ## One lane, row by row -/

/-- The lane's total as a running total over the rows 0 … 8: after row i it is the total after row i − 1 plus the
    sum of row i, whose partners are the segments i + 2 … 10. -/
def laneU (T : Fin 102400 → Fin 11 → Fin 11 → EReal) (n : Fin 102400) : EReal :=
  ((((((((ZERO + ∑ k : Fin 9, T n ⟨0, by omega⟩ ⟨2 + k.val, by have := k.isLt; omega⟩)
    + ∑ k : Fin 8, T n ⟨1, by omega⟩ ⟨3 + k.val, by have := k.isLt; omega⟩)
    + ∑ k : Fin 7, T n ⟨2, by omega⟩ ⟨4 + k.val, by have := k.isLt; omega⟩)
    + ∑ k : Fin 6, T n ⟨3, by omega⟩ ⟨5 + k.val, by have := k.isLt; omega⟩)
    + ∑ k : Fin 5, T n ⟨4, by omega⟩ ⟨6 + k.val, by have := k.isLt; omega⟩)
    + ∑ k : Fin 4, T n ⟨5, by omega⟩ ⟨7 + k.val, by have := k.isLt; omega⟩)
    + ∑ k : Fin 3, T n ⟨6, by omega⟩ ⟨8 + k.val, by have := k.isLt; omega⟩)
    + ∑ k : Fin 2, T n ⟨7, by omega⟩ ⟨9 + k.val, by have := k.isLt; omega⟩)
    + ∑ k : Fin 1, T n ⟨8, by omega⟩ ⟨10 + k.val, by have := k.isLt; omega⟩

/-- A sum over the eleven segments, written out from a zero on the left. -/
theorem sum_fin11 (R : Fin 11 → EReal) :
    ∑ i, R i = 0 + R ⟨0, by omega⟩ + R ⟨1, by omega⟩ + R ⟨2, by omega⟩ + R ⟨3, by omega⟩ + R ⟨4, by omega⟩
      + R ⟨5, by omega⟩ + R ⟨6, by omega⟩ + R ⟨7, by omega⟩ + R ⟨8, by omega⟩ + R ⟨9, by omega⟩ + R ⟨10, by omega⟩ := by
  simp only [Fin.sum_univ_castSucc, Fin.sum_univ_zero]
  rfl

/-- The partners of segment c: the sum over the segments j with c + 1 < j is the sum over the m = 9 − c segments
    a + k, a = c + 2, k < m. -/
theorem row_sum (f : Fin 11 → EReal) (c a m : ℕ) (ha : a = c + 2) (h : a + m = 11) :
    (∑ j : Fin 11, if c + 1 < j.val then f j else 0) = ∑ k : Fin m, f ⟨a + k.val, by have := k.isLt; omega⟩ := by
  symm
  refine Fintype.sum_of_injective (fun k : Fin m => (⟨a + k.val, by have := k.isLt; omega⟩ : Fin 11)) ?_ _ _ ?_ ?_
  · intro k k' hk
    have := congrArg Fin.val hk
    simp only at this
    exact Fin.ext (by omega)
  · intro j hj
    refine if_neg fun hlt => hj ⟨⟨j.val - a, by have := j.isLt; omega⟩, Fin.ext ?_⟩
    simp only
    omega
  · intro k
    rw [if_pos]
    simp only
    omega

/-- A segment c ≥ 9 has no partner. -/
theorem row_empty (f : Fin 11 → EReal) (c : ℕ) (hc : 9 ≤ c) :
    (∑ j : Fin 11, if c + 1 < j.val then f j else 0) = 0 :=
  Finset.sum_eq_zero fun j _ => if_neg (by have := j.isLt; omega)

/-- The row-by-row total is the lane's total. -/
theorem laneU_eq (T : Fin 102400 → Fin 11 → Fin 11 → EReal) (n : Fin 102400) : laneU T n = laneK T n := by
  unfold laneU laneK
  rw [sum_fin11 (fun i => ∑ j : Fin 11, if i.val + 1 < j.val then T n i j else 0)]
  rw [row_sum (T n ⟨0, by omega⟩) 0 2 9 rfl rfl, row_sum (T n ⟨1, by omega⟩) 1 3 8 rfl rfl,
    row_sum (T n ⟨2, by omega⟩) 2 4 7 rfl rfl, row_sum (T n ⟨3, by omega⟩) 3 5 6 rfl rfl,
    row_sum (T n ⟨4, by omega⟩) 4 6 5 rfl rfl, row_sum (T n ⟨5, by omega⟩) 5 7 4 rfl rfl,
    row_sum (T n ⟨6, by omega⟩) 6 8 3 rfl rfl, row_sum (T n ⟨7, by omega⟩) 7 9 2 rfl rfl,
    row_sum (T n ⟨8, by omega⟩) 8 10 1 rfl rfl,
    row_empty (T n ⟨9, by omega⟩) 9 (by omega), row_empty (T n ⟨10, by omega⟩) 10 (by omega),
    add_zero, add_zero, ZERO_eq]

/-! ## The block totals in a 2 × 8 × 128 array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A plane that holds one value at its corner (0, 0) and zero elsewhere sums to that value. -/
theorem sum_corner (A : EReal) :
    (∑ r : Fin 8, ∑ q : Fin 128, if r.val = 0 ∧ q.val = 0 then A else ZERO) = A := by
  rw [Fintype.sum_eq_single (⟨0, by omega⟩ : Fin 8), Fintype.sum_eq_single (⟨0, by omega⟩ : Fin 128)]
  · rw [if_pos ⟨rfl, rfl⟩]
  · intro q hq
    rw [if_neg, ZERO_eq]
    rintro ⟨-, h0⟩
    exact hq (Fin.ext h0)
  · intro r hr
    refine Finset.sum_eq_zero fun q _ => ?_
    rw [if_neg, ZERO_eq]
    rintro ⟨h0, -⟩
    exact hr (Fin.ext h0)

/-- The array of block totals sums, after the leading zero and the factor one, to the block-by-block form. -/
theorem Kform_of_out (T : Fin 102400 → Fin 11 → Fin 11 → EReal) (M : ℕ → EReal)
    (hM : ∀ (p : Fin 2) (t : Fin 10), M (10 * p.val + t.val) = ∑ l : Fin 5120, laneU T (lane p t l))
    (OUT : (⟨3, ![2, 8, 128]⟩ : Shape).Idx → EReal)
    (h : ∀ (p : Fin 2) (r : Fin 8) (q : Fin 128), OUT (ValueIdx.ix3 p r q)
      = if r.val = 0 ∧ q.val = 0 then ZERO + ∑ s ∈ Finset.range 10, M (10 * p.val + s) else ZERO) :
    ONE * (ZERO + ∑ i, OUT i) = Kform T := by
  unfold Kform
  rw [sum_idx3]
  refine congrArg (fun s => ONE * (ZERO + s)) (Finset.sum_congr rfl fun p _ => ?_)
  simp only [h]
  rw [sum_corner, ZERO_eq, zero_add, ← Fin.sum_univ_eq_sum_range (fun s => M (10 * p.val + s)) 10]
  refine Finset.sum_congr rfl fun t _ => ?_
  rw [hM]
  exact Finset.sum_congr rfl fun l _ => laneU_eq T _

end NetCross

end
-- ==== Proof.Bridge.lean ====
/-
  The lane-major, padded, block-by-block form of the net-crossing metric equals the metric itself.

  Three facts carry the proof.
  (1) In a lane that holds a net, a strictly non-adjacent pair contributes the same term in both forms: the coordinates
      are real numbers, so the two spellings of the crossing indicator agree, and a product of three 0/1 values is
      positive exactly when all three bits are set.  A pair that is not strictly non-adjacent contributes zero to the
      metric, because its mask has a cleared bit.
  (2) A padding lane contributes nothing: its net mask is zero, a product with zero is zero, and zero is not positive.
  (3) The 2 × 10 blocks of 5120 lanes enumerate the 102400 lanes exactly once (mixed-radix digits), and a sum over
      102400 lanes whose last 2400 summands vanish is the sum over the first 100000.
-/
import proofs.«161960_j76699525972352_2_alg».proof.Proof.Spec

noncomputable section

open Idealize.ShloMosaic Idealize.ShloMosaic.ValueIdx

namespace NetCross

/-! ## One-bit words -/

/-- A one-bit word is zero or one. -/
theorem bit_cases (b : BitVec 1) : b = 0#1 ∨ b = 1#1 := by
  have hlt := b.isLt
  rcases (by omega : b.toNat = 0 ∨ b.toNat = 1) with h | h
  · left; exact BitVec.eq_of_toNat_eq h
  · right; exact BitVec.eq_of_toNat_eq h

/-- The product of three 0/1 values is positive exactly when all three bits are set. -/
theorem cmp_three_bits (a b c : BitVec 1) :
    Ideal.cmp .ogt ((((a.toNat : ℝ) : EReal)) * ((b.toNat : ℝ) : EReal) * ((c.toNat : ℝ) : EReal)) ZERO
      = IntOp.andi (IntOp.andi a b) c := by
  rw [ZERO_eq]
  rcases bit_cases a with rfl | rfl <;> rcases bit_cases b with rfl | rfl <;> rcases bit_cases c with rfl | rfl <;>
    simp [Ideal.cmp, IntOp.andi]

/-- Conjunction with a set bit changes nothing. -/
theorem andi_one (a : BitVec 1) : IntOp.andi a 1#1 = a := by
  rcases bit_cases a with rfl | rfl <;> decide

/-- A conjunction one of whose inner bits is cleared is cleared, whatever is conjoined after. -/
theorem andi_zero_andi (a c : BitVec 1) : IntOp.andi (IntOp.andi a 0#1) c = 0#1 := by
  rcases bit_cases a with rfl | rfl <;> rcases bit_cases c with rfl | rfl <;> decide

/-! ## Non-adjacency of two segment numbers below eleven -/

/-- The 32-bit signed comparison of `j` with `i + 1` says what the natural numbers say (121 cases, each computed). -/
theorem nonadj_eq (i j : Fin 11) : nonadj i j = if i.val + 1 < j.val then 1#1 else 0#1 := by
  revert i j; decide

/-! ## One pair in one lane -/

section Terms

variable (pos : (⟨1, ![1250000]⟩ : Shape).Idx → EReal) (fnp : (⟨1, ![625000]⟩ : Shape).Idx → BitVec 32)
  (nps : (⟨1, ![100001]⟩ : Shape).Idx → BitVec 32) (nmk : (⟨1, ![100000]⟩ : Shape).Idx → BitVec 1)
  (psd : (⟨1, ![625000]⟩ : Shape).Idx → BitVec 32)

/-- Every x coordinate of a chain is an entry of `pos`, hence real. -/
theorem px_real (hpos : ∀ i, ∃ r : ℝ, pos i = (r : EReal)) (n : Fin 100000) (k : Fin 12) :
    ∃ r : ℝ, px pos fnp nps n k = (r : EReal) := hpos _

/-- Every y coordinate of a chain is an entry of `pos`, hence real. -/
theorem py_real (hpos : ∀ i, ∃ r : ℝ, pos i = (r : EReal)) (n : Fin 100000) (k : Fin 12) :
    ∃ r : ℝ, py pos fnp nps n k = (r : EReal) := hpos _

/-- On a chain with real coordinates the two spellings of the crossing indicator agree. -/
theorem cross_eq (hpos : ∀ i, ∃ r : ℝ, pos i = (r : EReal)) (n : Fin 100000) (i j : Fin 11) :
    crossK (px pos fnp nps n (lo i)) (py pos fnp nps n (lo i)) (px pos fnp nps n (hi i)) (py pos fnp nps n (hi i))
           (px pos fnp nps n (lo j)) (py pos fnp nps n (lo j)) (px pos fnp nps n (hi j)) (py pos fnp nps n (hi j))
      = crossR (px pos fnp nps n (lo i)) (py pos fnp nps n (lo i)) (px pos fnp nps n (hi i)) (py pos fnp nps n (hi i))
           (px pos fnp nps n (lo j)) (py pos fnp nps n (lo j)) (px pos fnp nps n (hi j)) (py pos fnp nps n (hi j)) := by
  obtain ⟨a1, h1⟩ := px_real pos fnp nps hpos n (lo i)
  obtain ⟨a2, h2⟩ := py_real pos fnp nps hpos n (lo i)
  obtain ⟨a3, h3⟩ := px_real pos fnp nps hpos n (lo j)
  obtain ⟨a4, h4⟩ := py_real pos fnp nps hpos n (lo j)
  obtain ⟨a5, h5⟩ := px_real pos fnp nps hpos n (hi j)
  obtain ⟨a6, h6⟩ := py_real pos fnp nps hpos n (hi j)
  rw [h1, h2, h3, h4, h5, h6]
  exact crossK_eq_crossR a1 a2 a3 a4 a5 a6 _ _

/-- In a lane that holds a net, a strictly non-adjacent pair contributes the net's own term. -/
theorem termK_eq_termR (hpos : ∀ i, ∃ r : ℝ, pos i = (r : EReal)) (n : Fin 102400) (h : n.val < 100000)
    (i j : Fin 11) (hij : i.val + 1 < j.val) :
    termK (AX pos fnp nps) (AY pos fnp nps) (BX pos fnp nps) (BY pos fnp nps) (SV nps) (SS fnp nps psd) (NM nmk) n i j
      = termR pos fnp nps nmk psd ⟨n.val, h⟩ i j := by
  unfold termK termR maskR
  simp only [AX, AY, BX, BY, SV, SS, NM, dif_pos h]
  rw [cmp_three_bits, nonadj_eq, if_pos hij, andi_one, cross_eq pos fnp nps hpos]

/-- A pair that is not strictly non-adjacent contributes zero to the metric. -/
theorem termR_adj (n : Fin 100000) (i j : Fin 11) (hij : ¬ i.val + 1 < j.val) :
    termR pos fnp nps nmk psd n i j = 0 := by
  unfold termR maskR
  rw [nonadj_eq, if_neg hij, andi_zero_andi, select_zero, ZERO_eq]

/-- A padding lane contributes nothing. -/
theorem termK_pad (n : Fin 102400) (h : ¬ n.val < 100000) (i j : Fin 11) :
    termK (AX pos fnp nps) (AY pos fnp nps) (BX pos fnp nps) (BY pos fnp nps) (SV nps) (SS fnp nps psd) (NM nmk) n i j
      = 0 := by
  unfold termK
  have hnm : NM nmk n = 0 := by
    simp only [NM, dif_neg h]
    simp
  rw [hnm, mul_zero, ZERO_eq]
  have : Ideal.cmp .ogt (0 : EReal) 0 = 0#1 := by simp [Ideal.cmp]
  rw [this, select_zero]

end Terms

/-! ## The blocks enumerate the lanes -/

/-- A lane number and its three mixed-radix digits. -/
def laneEquiv : Fin 2 × Fin 10 × Fin 5120 ≃ Fin 102400 where
  toFun x := lane x.1 x.2.1 x.2.2
  invFun n := (⟨n.val / 51200, by have := n.isLt; omega⟩, ⟨(n.val / 5120) % 10, by omega⟩, ⟨n.val % 5120, by omega⟩)
  left_inv := by
    rintro ⟨p, t, l⟩
    have hp := p.isLt; have ht := t.isLt; have hl := l.isLt
    simp only [lane, Prod.mk.injEq]
    refine ⟨Fin.ext ?_, Fin.ext ?_, Fin.ext ?_⟩ <;> simp only <;> omega
  right_inv := by
    intro n
    have hn := n.isLt
    apply Fin.ext
    simp only [lane]
    omega

/-- Summing block by block is summing over all lanes. -/
theorem sum_blocks (f : Fin 102400 → EReal) :
    ∑ p : Fin 2, ∑ t : Fin 10, ∑ l : Fin 5120, f (lane p t l) = ∑ n : Fin 102400, f n := by
  rw [← Equiv.sum_comp laneEquiv f, Fintype.sum_prod_type]
  refine Finset.sum_congr rfl fun p _ => ?_
  rw [Fintype.sum_prod_type]
  rfl

/-- A sum over the padded lanes whose padding summands vanish is the sum over the nets. -/
theorem sum_lanes (g : Fin 102400 → EReal) (hg : ∀ n : Fin 102400, ¬ n.val < 100000 → g n = 0) :
    ∑ n : Fin 102400, g n = ∑ m : Fin 100000, g (Fin.castLE (by omega) m) := by
  symm
  refine Fintype.sum_of_injective (Fin.castLE (by omega)) (Fin.castLE_injective _) _ g ?_ (fun _ => rfl)
  intro n hn
  apply hg
  intro hlt
  exact hn ⟨⟨n.val, hlt⟩, Fin.ext rfl⟩

/-! ## The two forms agree -/

/-- The padded, block-by-block form is the metric. -/
theorem bridge (pos : (⟨1, ![1250000]⟩ : Shape).Idx → EReal) (fnp : (⟨1, ![625000]⟩ : Shape).Idx → BitVec 32)
    (nps : (⟨1, ![100001]⟩ : Shape).Idx → BitVec 32) (nmk : (⟨1, ![100000]⟩ : Shape).Idx → BitVec 1)
    (psd : (⟨1, ![625000]⟩ : Shape).Idx → BitVec 32) (hpos : ∀ i, ∃ r : ℝ, pos i = (r : EReal)) :
    Kform (termK (AX pos fnp nps) (AY pos fnp nps) (BX pos fnp nps) (BY pos fnp nps) (SV nps) (SS fnp nps psd) (NM nmk))
      = G pos fnp nps nmk psd := by
  unfold Kform G
  rw [sum_blocks, sum_lanes]
  · refine congrArg (fun s => ONE * (ZERO + s)) (Finset.sum_congr rfl fun m _ => ?_)
    unfold laneK
    refine Finset.sum_congr rfl fun i _ => Finset.sum_congr rfl fun j _ => ?_
    by_cases hij : i.val + 1 < j.val
    · rw [if_pos hij]
      exact termK_eq_termR pos fnp nps nmk psd hpos (Fin.castLE (by omega) m) m.isLt i j hij
    · rw [if_neg hij, termR_adj pos fnp nps nmk psd m i j hij]
  · intro n hn
    unfold laneK
    refine Finset.sum_eq_zero fun i _ => Finset.sum_eq_zero fun j _ => ?_
    rw [termK_pad pos fnp nps nmk psd n hn i j, ite_self]

end NetCross

end
-- ==== Proof.KernelValue.lean ====
/-
  From the blocks a grid point reads to the lanes of the padded arrays, and the kernel's result as the metric.
-/
import proofs.«161960_j76699525972352_2_alg».proof.Proof.Tile
import proofs.«161960_j76699525972352_2_alg».proof.Proof.Body
import proofs.«161960_j76699525972352_2_alg».proof.Proof.Unroll
import proofs.«161960_j76699525972352_2_alg».proof.Proof.Bridge
import Idealize.ShloMosaic.Lib.Pipeline.Value

set_option maxRecDepth 16384

noncomputable section

open Idealize.ShloMosaic Idealize.ShloMosaic.TcCoe Idealize.SL.Sem Idealize.ShloMosaic.ValueIdx

namespace NetCross.KBody

open Cert.KernelIdeal Cert.KernelIdeal.Gen

variable (m : (ℓ : Loc nD τ sig) → Buf (Elt Ideal) ℓ)

/-- The lane of the arrays that lane `l` of point `t`'s blocks is: blocks are 5120 lanes wide and point `t` reads block `t`. -/
def laneOf (t : Fin cfg0.N) (l : Fin 5120) : Fin 102400 :=
  ⟨t.val * 5120 + l.val, by have hN : cfg0.N = 20 := N_0; have := t.isLt; have := l.isLt; omega⟩

/-- Row `k`, lane `l` of window 0's block at point `t` is row `k`, lane `laneOf t l` of its array. -/
theorem iblk0_apply (c : Dev nD) (t : Fin cfg0.N) (k : Fin 11) (l : Fin 5120) :
    (iblk m c 0 t : Vec Ideal S11x5120 .f32) (ix2 k l) = V m c main_v59 (ix2 k (laneOf t l)) := by
  have hi : win0_0.index t 0 = 0 ∧ win0_0.index t 1 = t.val :=
    (by decide +kernel : ∀ t : Fin grid0.N, win0_0.index t 0 = 0 ∧ win0_0.index t 1 = t.val) t
  unfold iblk
  rw [View.read_apply]
  show V m c main_v59 _ = _
  congr 1
  funext a
  apply Fin.ext
  match a with
  | ⟨0, _⟩ => show win0_0.index t 0 * 11 + 1 * k.val = k.val; rw [hi.1]; omega
  | ⟨1, _⟩ => show win0_0.index t 1 * 5120 + 1 * l.val = t.val * 5120 + l.val; rw [hi.2]; omega

/-- Row `k`, lane `l` of window 1's block at point `t` is row `k`, lane `laneOf t l` of its array. -/
theorem iblk1_apply (c : Dev nD) (t : Fin cfg0.N) (k : Fin 11) (l : Fin 5120) :
    (iblk m c 1 t : Vec Ideal S11x5120 .f32) (ix2 k l) = V m c main_v60 (ix2 k (laneOf t l)) := by
  have hi : win0_1.index t 0 = 0 ∧ win0_1.index t 1 = t.val :=
    (by decide +kernel : ∀ t : Fin grid0.N, win0_1.index t 0 = 0 ∧ win0_1.index t 1 = t.val) t
  unfold iblk
  rw [View.read_apply]
  show V m c main_v60 _ = _
  congr 1
  funext a
  apply Fin.ext
  match a with
  | ⟨0, _⟩ => show win0_1.index t 0 * 11 + 1 * k.val = k.val; rw [hi.1]; omega
  | ⟨1, _⟩ => show win0_1.index t 1 * 5120 + 1 * l.val = t.val * 5120 + l.val; rw [hi.2]; omega

/-- Row `k`, lane `l` of window 2's block at point `t` is row `k`, lane `laneOf t l` of its array. -/
theorem iblk2_apply (c : Dev nD) (t : Fin cfg0.N) (k : Fin 11) (l : Fin 5120) :
    (iblk m c 2 t : Vec Ideal S11x5120 .f32) (ix2 k l) = V m c main_v61 (ix2 k (laneOf t l)) := by
  have hi : win0_2.index t 0 = 0 ∧ win0_2.index t 1 = t.val :=
    (by decide +kernel : ∀ t : Fin grid0.N, win0_2.index t 0 = 0 ∧ win0_2.index t 1 = t.val) t
  unfold iblk
  rw [View.read_apply]
  show V m c main_v61 _ = _
  congr 1
  funext a
  apply Fin.ext
  match a with
  | ⟨0, _⟩ => show win0_2.index t 0 * 11 + 1 * k.val = k.val; rw [hi.1]; omega
  | ⟨1, _⟩ => show win0_2.index t 1 * 5120 + 1 * l.val = t.val * 5120 + l.val; rw [hi.2]; omega

/-- Row `k`, lane `l` of window 3's block at point `t` is row `k`, lane `laneOf t l` of its array. -/
theorem iblk3_apply (c : Dev nD) (t : Fin cfg0.N) (k : Fin 11) (l : Fin 5120) :
    (iblk m c 3 t : Vec Ideal S11x5120 .f32) (ix2 k l) = V m c main_v62 (ix2 k (laneOf t l)) := by
  have hi : win0_3.index t 0 = 0 ∧ win0_3.index t 1 = t.val :=
    (by decide +kernel : ∀ t : Fin grid0.N, win0_3.index t 0 = 0 ∧ win0_3.index t 1 = t.val) t
  unfold iblk
  rw [View.read_apply]
  show V m c main_v62 _ = _
  congr 1
  funext a
  apply Fin.ext
  match a with
  | ⟨0, _⟩ => show win0_3.index t 0 * 11 + 1 * k.val = k.val; rw [hi.1]; omega
  | ⟨1, _⟩ => show win0_3.index t 1 * 5120 + 1 * l.val = t.val * 5120 + l.val; rw [hi.2]; omega

/-- Row `k`, lane `l` of window 4's block at point `t` is row `k`, lane `laneOf t l` of its array. -/
theorem iblk4_apply (c : Dev nD) (t : Fin cfg0.N) (k : Fin 11) (l : Fin 5120) :
    (iblk m c 4 t : Vec Ideal S11x5120 .f32) (ix2 k l) = V m c main_v63 (ix2 k (laneOf t l)) := by
  have hi : win0_4.index t 0 = 0 ∧ win0_4.index t 1 = t.val :=
    (by decide +kernel : ∀ t : Fin grid0.N, win0_4.index t 0 = 0 ∧ win0_4.index t 1 = t.val) t
  unfold iblk
  rw [View.read_apply]
  show V m c main_v63 _ = _
  congr 1
  funext a
  apply Fin.ext
  match a with
  | ⟨0, _⟩ => show win0_4.index t 0 * 11 + 1 * k.val = k.val; rw [hi.1]; omega
  | ⟨1, _⟩ => show win0_4.index t 1 * 5120 + 1 * l.val = t.val * 5120 + l.val; rw [hi.2]; omega

/-- Row `k`, lane `l` of window 5's block at point `t` is row `k`, lane `laneOf t l` of its array. -/
theorem iblk5_apply (c : Dev nD) (t : Fin cfg0.N) (k : Fin 11) (l : Fin 5120) :
    (iblk m c 5 t : Vec Ideal S11x5120 .f32) (ix2 k l) = V m c main_v64 (ix2 k (laneOf t l)) := by
  have hi : win0_5.index t 0 = 0 ∧ win0_5.index t 1 = t.val :=
    (by decide +kernel : ∀ t : Fin grid0.N, win0_5.index t 0 = 0 ∧ win0_5.index t 1 = t.val) t
  unfold iblk
  rw [View.read_apply]
  show V m c main_v64 _ = _
  congr 1
  funext a
  apply Fin.ext
  match a with
  | ⟨0, _⟩ => show win0_5.index t 0 * 11 + 1 * k.val = k.val; rw [hi.1]; omega
  | ⟨1, _⟩ => show win0_5.index t 1 * 5120 + 1 * l.val = t.val * 5120 + l.val; rw [hi.2]; omega

/-- Lane `l` of the mask block at point `t` is lane `laneOf t l` of the mask row. -/
theorem iblk6_apply (c : Dev nD) (t : Fin cfg0.N) (l : Fin 5120) :
    (iblk m c 6 t : Vec Ideal S1x5120 .f32) (ix2 (0 : Fin 1) l) = V m c main_v65 (ix2 (0 : Fin 1) (laneOf t l)) := by
  have hi : win0_6.index t 0 = 0 ∧ win0_6.index t 1 = t.val :=
    (by decide +kernel : ∀ t : Fin grid0.N, win0_6.index t 0 = 0 ∧ win0_6.index t 1 = t.val) t
  unfold iblk
  rw [View.read_apply]
  show V m c main_v65 _ = _
  congr 1
  funext a
  apply Fin.ext
  match a with
  | ⟨0, _⟩ => show win0_6.index t 0 * 1 + 1 * 0 = 0; rw [hi.1]
  | ⟨1, _⟩ => show win0_6.index t 1 * 5120 + 1 * l.val = t.val * 5120 + l.val; rw [hi.2]; omega

/-! ## With the arrays known -/

section Value

variable (c : Dev nD)
  (pos : (⟨1, ![1250000]⟩ : Shape).Idx → EReal) (fnp : (⟨1, ![625000]⟩ : Shape).Idx → BitVec 32)
  (nps : (⟨1, ![100001]⟩ : Shape).Idx → BitVec 32) (nmk : (⟨1, ![100000]⟩ : Shape).Idx → BitVec 1)
  (psd : (⟨1, ![625000]⟩ : Shape).Idx → BitVec 32)
  (h59 : ∀ (k : Fin 11) (n : Fin 102400), V m c main_v59 (ix2 k n) = AX pos fnp nps k n)
  (h60 : ∀ (k : Fin 11) (n : Fin 102400), V m c main_v60 (ix2 k n) = AY pos fnp nps k n)
  (h61 : ∀ (k : Fin 11) (n : Fin 102400), V m c main_v61 (ix2 k n) = BX pos fnp nps k n)
  (h62 : ∀ (k : Fin 11) (n : Fin 102400), V m c main_v62 (ix2 k n) = BY pos fnp nps k n)
  (h63 : ∀ (k : Fin 11) (n : Fin 102400), V m c main_v63 (ix2 k n) = SV nps k n)
  (h64 : ∀ (k : Fin 11) (n : Fin 102400), V m c main_v64 (ix2 k n) = SS fnp nps psd k n)
  (h65 : ∀ (n : Fin 102400), V m c main_v65 (ix2 (0 : Fin 1) n) = NM nmk n)

/-- The pair terms of the padded arrays, lane by lane. -/
abbrev TK : Fin 102400 → Fin 11 → Fin 11 → EReal :=
  termK (AX pos fnp nps) (AY pos fnp nps) (BX pos fnp nps) (BY pos fnp nps) (SV nps) (SS fnp nps psd) (NM nmk)

include h59 h60 h61 h62 h63 h64 h65 in
/-- A pair term of point `t`'s blocks is the pair term of the arrays at the block's lane. -/
theorem tB_eq (t : Fin cfg0.N) (l : Fin 5120) (i j : Fin 11) :
    tB (iblk m c 0 t) (iblk m c 1 t) (iblk m c 2 t) (iblk m c 3 t) (iblk m c 4 t) (iblk m c 5 t) (iblk m c 6 t) l i j = TK pos fnp nps nmk psd (laneOf t l) i j := by
  unfold tB TK termK
  simp only [iblk0_apply m c t, iblk1_apply m c t, iblk2_apply m c t, iblk3_apply m c t, iblk4_apply m c t, iblk5_apply m c t, iblk6_apply m c t,
    h59, h60, h61, h62, h63, h64, h65]

include h59 h60 h61 h62 h63 h64 h65 in
/-- One lane's running total after all nine rows of the triangle is the lane's total of non-adjacent pairs, row by row. -/
theorem lane_total (t : Fin cfg0.N) (l : Fin 5120) :
    Nv667 (F := Ideal) (iblk m c 0 t) (iblk m c 1 t) (iblk m c 2 t) (iblk m c 3 t) (iblk m c 4 t) (iblk m c 5 t) (iblk m c 6 t) (ix2 (0 : Fin 1) l)
        + ∑ k : Fin 1, tB (iblk m c 0 t) (iblk m c 1 t) (iblk m c 2 t) (iblk m c 3 t) (iblk m c 4 t) (iblk m c 5 t) (iblk m c 6 t) l ⟨8, by omega⟩ ⟨10 + k.val, by have := k.isLt; omega⟩
      = laneU (TK pos fnp nps nmk psd) (laneOf t l) := by
  rw [iter7, iter6, iter5, iter4, iter3, iter2, iter1, iter0]
  unfold laneU
  simp only [tB_eq m c pos fnp nps nmk psd h59 h60 h61 h62 h63 h64 h65 t l]

/-- Which elements of a tile are its corner. -/
theorem corner_one : IntOp.andi (IntOp.cmpi .eq (BitVec.ofNat 32 (0 : Fin 8).val) 0#32) (IntOp.cmpi .eq (BitVec.ofNat 32 (0 : Fin 128).val) 0#32) = 1#1 := by
  decide
theorem corner_zero : ∀ (r : Fin 8) (q : Fin 128), ¬(r.val = 0 ∧ q.val = 0) →
    IntOp.andi (IntOp.cmpi .eq (BitVec.ofNat 32 r.val) 0#32) (IntOp.cmpi .eq (BitVec.ofNat 32 q.val) 0#32) = 0#1 := by
  decide +kernel

include h59 h60 h61 h62 h63 h64 h65 in
/-- The corner of point `t`'s tile is the sum of its block's lane totals. -/
theorem tile_corner (t : Fin cfg0.N) :
    tileAt m c t (ix2 (0 : Fin 8) (0 : Fin 128)) = ∑ l : Fin 5120, laneU (TK pos fnp nps nmk psd) (laneOf t l) := by
  unfold tileAt
  rw [tile_apply, corner_one, select_one]
  unfold blockSum
  exact Finset.sum_congr rfl fun l _ => lane_total m c pos fnp nps nmk psd h59 h60 h61 h62 h63 h64 h65 t l

/-- Every other element of a tile is zero. -/
theorem tile_off (t : Fin cfg0.N) (r : Fin 8) (q : Fin 128) (h : ¬(r.val = 0 ∧ q.val = 0)) :
    tileAt m c t (ix2 r q) = 0 := by
  unfold tileAt
  rw [tile_apply, corner_zero r q h, select_zero]
  exact ZERO_eq

include h59 h60 h61 h62 h63 h64 h65 in
/-- The corner of the tile of point `10 p + t`, as a function of the natural number. -/
theorem tileN_corner (p : Fin 2) (t : Fin 10) :
    tileN m c (10 * p.val + t.val) 0 0 = ∑ l : Fin 5120, laneU (TK pos fnp nps nmk psd) (lane p t l) := by
  have hN : cfg0.N = 20 := N_0
  have hlt : 10 * p.val + t.val < cfg0.N := by have := p.isLt; have := t.isLt; omega
  unfold tileN
  rw [dif_pos hlt, tile_corner m c pos fnp nps nmk psd h59 h60 h61 h62 h63 h64 h65]
  refine Finset.sum_congr rfl fun l _ => congrArg _ (Fin.ext ?_)
  show (10 * p.val + t.val) * 5120 + l.val = (p.val * 10 + t.val) * 5120 + l.val
  omega

/-- The array the grid leaves, element by element: the corner of block `p` holds zero plus the ten corners of the core's
    tiles, every other element zero. -/
theorem OUTarr_apply (p : Fin 2) (r : Fin 8) (q : Fin 128) :
    OUTarr m c (ix3 p r q) = if r.val = 0 ∧ q.val = 0 then ZERO + ∑ s ∈ Finset.range 10, tileN m c (10 * p.val + s) 0 0 else ZERO := by
  by_cases h : r.val = 0 ∧ q.val = 0
  · obtain rfl : r = 0 := Fin.ext h.1
    obtain rfl : q = 0 := Fin.ext h.2
    rw [if_pos h]
    rfl
  · rw [if_neg h]
    unfold OUTarr
    have e : ∀ s ∈ Finset.range 10, tileN m c (10 * ((ix3 p r q : S2x8x128.Idx) 0).val + s) ⟨((ix3 p r q : S2x8x128.Idx) 1).val, ((ix3 p r q : S2x8x128.Idx) 1).isLt⟩
        ⟨((ix3 p r q : S2x8x128.Idx) 2).val, ((ix3 p r q : S2x8x128.Idx) 2).isLt⟩ = 0 := by
      intro s _
      unfold tileN
      split
      · exact tile_off m c _ r q h
      · rfl
    rw [Finset.sum_eq_zero e, add_zero]

include h59 h60 h61 h62 h63 h64 h65 in
/-- THE KERNEL'S NUMBER: one times (zero plus the sum of the array the grid leaves) is the metric, when the coordinates
    are real numbers. -/
theorem kernel_value (hpos : ∀ i, ∃ r : ℝ, pos i = (r : EReal)) :
    ONE * (ZERO + ∑ i : S2x8x128.Idx, OUTarr m c i) = G pos fnp nps nmk psd :=
  (Kform_of_out (TK pos fnp nps nmk psd) (fun n => tileN m c n 0 0)
      (tileN_corner m c pos fnp nps nmk psd h59 h60 h61 h62 h63 h64 h65) (OUTarr m c) (OUTarr_apply m c)).trans
    (bridge pos fnp nps nmk psd hpos)

end Value

end NetCross.KBody

end
-- ==== Proof.KernelAcc.lean ====
/-
  The output array after the grid: each core's block is zero plus the tiles of its ten points, in order.

  The body keeps one 8 × 128 output block per core.  At the first point of a core's run it stores the zero tile, reads
  it back and adds the tile it computed; at each later point it adds its tile to what the block holds.  So after point
  `n` the block holds zero plus the tiles of the points `10 (n / 10) … n` — a fold over the run, unrolled at an
  element into a sum over a range.  The block is written back at the last point of each run, to the block of the array
  numbered by the core, and the two blocks tile the array.
-/
import proofs.«161960_j76699525972352_2_alg».proof.Proof.Tile
import proofs.«161960_j76699525972352_2_alg».proof.Proof.Kit
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace NetCross.KBody

open Cert.KernelIdeal Cert.KernelIdeal.Gen

variable (m : (ℓ : Loc nD τ sig) → Buf (Elt Ideal) ℓ)

/-! ## The body's two stores, read at an element -/

/-- First point of a run: the zero tile, read back, plus the computed tile. -/
theorem payA (T : FVec Ideal S8x128 .f32) (r : Fin 8) (q : Fin 128) :
    k0_pay1 T (k0_pay177 (k0_pay2 (F := Ideal))) (ix3 (0 : Fin 1) r q) = NetCross.ZERO + T (ix2 r q) := by
  dsimp only [k0_pay1, k0_pay177, k0_pay2]
  rw [Kit.cast_tile_add_apply, addf_apply, Kit.cast_tile_drop_apply, Kit.cast_tile_add_apply, broadcast_apply]
  rfl

/-- A later point: what the block held plus the computed tile. -/
theorem payB (T : FVec Ideal S8x128 .f32) (xo : Vec Ideal S1x8x128 .f32) (r : Fin 8) (q : Fin 128) :
    k0_pay1 T (k0_pay177 xo) (ix3 (0 : Fin 1) r q) = xo (ix3 (0 : Fin 1) r q) + T (ix2 r q) := by
  dsimp only [k0_pay1, k0_pay177]
  rw [Kit.cast_tile_add_apply, addf_apply, Kit.cast_tile_drop_apply]

/-! ## The block after each point of a run -/

/-- What the first point of a run leaves, and what a later point makes of what it finds. -/
def resetAt (c : Dev nD) (n : ℕ) (h : n < cfg0.N) : Vec Ideal S1x8x128 .f32 :=
  k0_pay1 (tileAt m c ⟨n, h⟩) (k0_pay177 (k0_pay2 (F := Ideal)))
def stepAt (c : Dev nD) (n : ℕ) (h : n < cfg0.N) (acc : Vec Ideal S1x8x128 .f32) : Vec Ideal S1x8x128 .f32 :=
  k0_pay1 (tileAt m c ⟨n, h⟩) (k0_pay177 acc)

theorem outs_reset (c : Dev nD) (n : ℕ) (h : n < cfg0.N) (h0 : n % 10 = 0) :
    outsAt0 m c n h = resetAt m c n h :=
  (outsAt0_A m c ⟨n, h⟩ h0).trans (out_A ..)

theorem outs_step (c : Dev nD) (n : ℕ) (h : n + 1 < cfg0.N) (h0 : ¬(n + 1) % 10 = 0) :
    outsAt0 m c (n + 1) h = stepAt m c (n + 1) h (outsAt0 m c n (Nat.lt_of_succ_lt h)) :=
  (outsAt0_B m c ⟨n + 1, h⟩ h0).trans (out_B ..)

/-- The tile of point `n` at the row and column of a block index. -/
def addend (c : Dev nD) (n : ℕ) (k : S1x8x128.Idx) : EReal :=
  tileN m c n ⟨(k 1).val, (k 1).isLt⟩ ⟨(k 2).val, (k 2).isLt⟩

theorem reset_apply (c : Dev nD) (n : ℕ) (h : n < cfg0.N) (k : S1x8x128.Idx) :
    resetAt m c n h k = NetCross.ZERO + addend m c n k := by
  obtain ⟨z, r, q, rfl⟩ : ∃ (z : Fin 1) (r : Fin 8) (q : Fin 128), k = ix3 z r q := ⟨k 0, k 1, k 2, eq_ix3 k⟩
  obtain rfl : z = 0 := Subsingleton.elim _ _
  unfold resetAt addend tileN
  rw [dif_pos h, payA]

theorem step_apply (c : Dev nD) (n : ℕ) (h : n < cfg0.N) (acc : Vec Ideal S1x8x128 .f32) (k : S1x8x128.Idx) :
    stepAt m c n h acc k = acc k + addend m c n k := by
  obtain ⟨z, r, q, rfl⟩ : ∃ (z : Fin 1) (r : Fin 8) (q : Fin 128), k = ix3 z r q := ⟨k 0, k 1, k 2, eq_ix3 k⟩
  obtain rfl : z = 0 := Subsingleton.elim _ _
  unfold stepAt addend tileN
  rw [dif_pos h, payB]

/-- After point `n` the block holds zero plus the tiles of its run's points up to `n`, in order. -/
theorem outsAt_eq (c : Dev nD) (n : ℕ) (h : n < cfg0.N) (k : S1x8x128.Idx) :
    outsAt0 m c n h k
      = NetCross.ZERO + ∑ s ∈ Finset.range (n % 10 + 1), addend m c (10 * (n / 10) + s) k := by
  have h' : 10 * (n / 10) + n % 10 < cfg0.N := by rw [Nat.div_add_mod]; exact h
  have e := Pipeline.eq_accAt_of_mod (fun n h => outsAt0 m c n h) 10 (resetAt m c) (stepAt m c)
    (fun n h h0 => outs_reset m c n h h0) (fun n h h0 => outs_step m c n h h0) (by norm_num) n h h'
  refine (congrFun e k).trans ?_
  exact Pipeline.accAt_add_apply (resetAt m c) (stepAt m c) (fun _ => NetCross.ZERO) (addend m c)
    (10 * (n / 10)) (n % 10) (fun h k => reset_apply m c _ h k) (fun n h acc k _ _ => step_apply m c n h acc k)
    (n % 10) le_rfl h' k

/-! ## The write-backs and the array -/

/-- The output window's block index at a point: its core on the first axis, zero on the others. -/
theorem idx_facts7 : ∀ t : Fin cfg0.N, win0_7.index t (0 : Fin 3) = t.val / 10
    ∧ win0_7.index t (1 : Fin 3) = 0 ∧ win0_7.index t (2 : Fin 3) = 0 :=
  (by decide +kernel : ∀ t : Fin grid0.N, win0_7.index t (0 : Fin 3) = t.val / 10
    ∧ win0_7.index t (1 : Fin 3) = 0 ∧ win0_7.index t (2 : Fin 3) = 0)

/-- The array's value at an index, by the index's coordinates. -/
theorem OUTarr_eq (c : Dev nD) (i : S2x8x128.Idx) (p : ℕ) (r : Fin 8) (q : Fin 128)
    (h0 : (i 0).val = p) (h1 : (i 1).val = r.val) (h2 : (i 2).val = q.val) :
    OUTarr m c i = NetCross.ZERO + ∑ s ∈ Finset.range 10, tileN m c (10 * p + s) r q := by
  subst h0
  obtain rfl : r = ⟨(i 1).val, (i 1).isLt⟩ := Fin.ext h1.symm
  obtain rfl : q = ⟨(i 2).val, (i 2).isLt⟩ := Fin.ext h2.symm
  rfl

/-- The last point of a core's run writes back block `p` of the array. -/
theorem flushed_eq (c : Dev nD) (t : Fin cfg0.N) (hf : (cfg0.win 7).flush t = true) :
    (dats m 0 c).flushed 7 t = ((cfg0.win 7).blk t).view.read (Elt Ideal) (OUTarr m c) := by
  have h9 : t.val % 10 = 9 := (flush0_7 t).mp hf
  obtain ⟨e0, e1, e2⟩ := idx_facts7 t
  show (cfg0.win 7).cut (grid0.coords t) ((dats m 0 c).after 7 t) = _
  rw [after0_7]
  funext j
  have hj0 : (j 0).val < 1 := (j 0).isLt
  have hj1 : (j 1).val < 8 := (j 1).isLt
  have hj2 : (j 2).val < 128 := (j 2).isLt
  show outsAt0 m c t.val t.isLt ((cfg0.win 7).xinj (grid0.coords t) j) = OUTarr m c (((cfg0.win 7).blk t).view.emb j)
  rw [outsAt_eq, h9,
    OUTarr_eq m c (((cfg0.win 7).blk t).view.emb j) (t.val / 10) ⟨(j 1).val, hj1⟩ ⟨(j 2).val, hj2⟩
      (by show win0_7.index t (0 : Fin 3) * 1 + 1 * (j 0).val = t.val / 10; omega)
      (by show win0_7.index t (1 : Fin 3) * 8 + 1 * (j 1).val = (j 1).val; omega)
      (by show win0_7.index t (2 : Fin 3) * 128 + 1 * (j 2).val = (j 2).val; omega)]
  rfl

/-- AFTER THE GRID the output array holds, in core `p`'s block, zero plus the ten tiles of its run. -/
theorem final_out (c : Dev nD) : (dats m 0 c).arrAt 7 cfg0.N = OUTarr m c :=
  (dats m 0 c).arrAt_eq_of_cover 7 (OUTarr m c) (flushed_eq m c) fun i => by
    have hN : cfg0.N = 20 := N_0
    have hi0 : (i 0).val < 2 := (i 0).isLt
    have hi1 : (i 1).val < 8 := (i 1).isLt
    have hi2 : (i 2).val < 128 := (i 2).isLt
    have ht : 10 * (i 0).val + 9 < cfg0.N := by omega
    obtain ⟨e0, e1, e2⟩ := idx_facts7 ⟨10 * (i 0).val + 9, ht⟩
    have e0' : win0_7.index ⟨10 * (i 0).val + 9, ht⟩ (0 : Fin 3) = (i 0).val := by rw [e0]; show (10 * (i 0).val + 9) / 10 = _; omega
    refine ⟨⟨10 * (i 0).val + 9, ht⟩, (flush0_7 _).mpr (by show (10 * (i 0).val + 9) % 10 = 9; omega), ?_⟩
    show i ∈ ((View.whole main_v66).slice (win0_7.rect ⟨10 * (i 0).val + 9, ht⟩)).set
    rw [View.set_slice_whole, Rect.mem_set_unit]
    intro a
    match a with
    | ⟨0, _⟩ =>
      show win0_7.index ⟨10 * (i 0).val + 9, ht⟩ (0 : Fin 3) * 1 ≤ (i 0).val
        ∧ (i 0).val < win0_7.index ⟨10 * (i 0).val + 9, ht⟩ (0 : Fin 3) * 1 + 1
      omega
    | ⟨1, _⟩ =>
      show win0_7.index ⟨10 * (i 0).val + 9, ht⟩ (1 : Fin 3) * 8 ≤ (i 1).val
        ∧ (i 1).val < win0_7.index ⟨10 * (i 0).val + 9, ht⟩ (1 : Fin 3) * 8 + 8
      omega
    | ⟨2, _⟩ =>
      show win0_7.index ⟨10 * (i 0).val + 9, ht⟩ (2 : Fin 3) * 128 ≤ (i 2).val
        ∧ (i 2).val < win0_7.index ⟨10 * (i 0).val + 9, ht⟩ (2 : Fin 3) * 128 + 128
      omega

end NetCross.KBody

end
-- ==== Proof.KernelRun.lean ====
/-
  The kernel's run, read to its result.

  After the grid the program sums the 2 × 8 × 128 output array over all three axes, starting from the constant zero, and
  multiplies the total by the constant one.  On the extended reals the sum over all axes is the initial value plus the
  sum of all entries, so the result is one times (zero plus the sum of the array), the array being what the grid left.
  The five argument arrays are written by nothing and end as they began.
-/
import proofs.«161960_j76699525972352_2_alg».proof.Proof.Tile
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace NetCross.KBody

open Cert.KernelIdeal Cert.KernelIdeal.Gen

/-- The program's result after the grid: one times (zero plus the sum of the output array), the array taken from the
    hypothesis on what the grid leaves. -/
theorem tail_eq (m : (ℓ : Loc nD τ sig) → Buf (Elt Ideal) ℓ)
    (hfin : ∀ c : Dev nD, (dats m 0 c).arrAt 7 cfg0.N = OUTarr m c) (c : Dev nD) :
    Pipeline.afterTail₀ cfgs (dats m) 0 (V0 m) [hostOps1] c main_v68
      = fun _ => NetCross.ONE * (NetCross.ZERO + ∑ i : S2x8x128.Idx, OUTarr m c i) := by
  unfold Pipeline.afterTail₀
  show StableHlo.after hostOps1 _ (Proc.devRef .tc main_v68) = _
  after_results
  have e : Pipeline.withArrays (cfgs 0).spec c (V0 m c) (fun w => (dats m 0 c).arrAt w (cfgs 0).N)
      (Proc.devRef .tc main_v66) = OUTarr m c :=
    (Pipeline.withArrays_arr spec0 launch0.win.arr_inj c _ _ 7).trans (hfin c)
  rw [e]
  funext i
  show Ideal.ofBits .f32 0x3F800000#32 * Host.reduceAdd (F := Ideal) (OUTarr m c) (constant S_ .f32 0#32) _ _ i = _
  simp only [Host.reduceAdd, Ideal.hostReduceAdd_def]
  rw [Ideal.hostReduceAdd_total _ (fun b => b.elim0)]
  rfl

/-- The run: every fair execution ends with the result at one times (zero plus the sum of what the grid left) and the
    five arguments unchanged. -/
theorem run_of
    (hfin : ∀ (m : (ℓ : Loc nD τ sig) → Buf (Elt Ideal) ℓ) (c : Dev nD), (dats m 0 c).arrAt 7 cfg0.N = OUTarr m c)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68)
        = (fun _ => NetCross.ONE * (NetCross.ZERO + ∑ i : S2x8x128.Idx, OUTarr m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v68 (Pipeline.mem_restRefs_of main_v68 (by decide) (by decide))).trans (tail_eq m (hfin m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end NetCross.KBody

end
-- ==== Proof.Finite.lean ====
/-
  From the stated precondition, "every entry of the coordinate array is smaller than +∞ in absolute value", to the
  fact the algebra needs: every entry is a real number.

  The precondition is a conjunction over all entries, folded from the constant 1; a fold by "and" that ends at 1 met
  only 1s, so each entry x satisfies max x (−x) < +∞ on the extended reals.  That excludes x = +∞ and x = −∞ (for the
  latter −x = +∞), and every other extended real is the image of a real.
-/
import proofs.«161960_j76699525972352_2_alg».proof.Proof.Spec
import proofs.«161960_j76699525972352_2_alg».proof.Pre_finite_inputs
import proofs.«161960_j76699525972352_2_alg».proof.Proof.Gen.Pre_finite_inputs
import Idealize.ShloMosaic.Lib.ReduceAll

noncomputable section

open Idealize.ShloMosaic Idealize.ShloMosaic.ValueIdx

namespace NetCross

/-- The scalar shape has one index. -/
instance : Subsingleton Cert.Pre_finite_inputs.S_.Idx := ⟨fun a b => funext fun d => d.elim0⟩

/-- The bit pattern 0x7F800000 is +∞. -/
theorem inf_eq : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the stated precondition every coordinate is a real number. -/
theorem finite_of_pre [Cert.Pre_finite_inputs.Facts] (a0 : FVec Ideal Cert.Pre_finite_inputs.S1250000 .f32)
    (a1 : IVec Cert.Pre_finite_inputs.S625000 32) (a2 : IVec Cert.Pre_finite_inputs.S100001 32)
    (a3 : IVec Cert.Pre_finite_inputs.S100000 1) (a4 : IVec Cert.Pre_finite_inputs.S625000 32)
    (h : Cert.Pre_finite_inputs.fn (F := Ideal) a0 a1 a2 a3 a4 = fun _ => 1#1) :
    ∀ i, ∃ r : ℝ, a0 i = (r : EReal) := by
  intro i
  have h0 := congrFun h ValueIdx.ix0
  dsimp only [Cert.Pre_finite_inputs.fn] at h0
  have hi := Host.reduce_andi_all _ _ _ _ _ h0 i
  change Ideal.cmp .olt (max (a0 i) (-(a0 i))) (Ideal.ofBits .f32 0x7F800000#32) = 1#1 at hi
  rw [inf_eq] at hi
  apply real_of_abs_lt_top
  by_contra hc
  simp [Ideal.cmp, hc] at hi

end NetCross

end
-- ==== Proof.lean ====
/-
  The net-crossing metric: a kernel that sums smoothed segment-crossing indicators over the strictly non-adjacent ordered
  segment pairs of every masked net, against the same sum written over all ordered pairs with a mask.

  Both programs lay each net out as a chain of twelve pin slots read through two gathers (Proof/Spec.lean). The reference
  forms, for every net and every ordered pair of its eleven segments, the weighted indicator, keeps it where both segments
  are valid, the second comes strictly after the first's neighbour, and the net is masked in, and sums everything
  (Proof/RefValue.lean: its result is `G`). The kernel transposes the chain so that the net index runs along 102400 padded
  lanes (Proof/KernelHost.lean), cuts the lanes into 2 × 10 blocks of 5120, and per block walks the upper triangle row by
  row — segment `i` against segments `i + 2 … 10` — keeping a pair where the product of the two validities and the mask is
  positive (Proof/Body.lean); a block's total lands in the corner of an 8 × 128 tile which a core's ten blocks accumulate
  (Proof/KernelAcc.lean), and the host adds the two tiles up (Proof/KernelRun.lean). Lane by lane and pair by pair the two
  agree (Proof/Bridge.lean, Proof/Unroll.lean): padded lanes carry a zero mask; a product of three 0/1 values is positive
  exactly when all three are one; and the kernel's third orientation test, the negative of a cross product with the
  differences reversed, is the reference's whenever the pin coordinates are real numbers — which is what the precondition
  says of them (Proof/Finite.lean). On the extended reals the rest is reordering a finite sum.
-/
import proofs.«161960_j76699525972352_2_alg».proof.Defs
import proofs.«161960_j76699525972352_2_alg».proof.Proof.Gen.Kernel
import proofs.«161960_j76699525972352_2_alg».proof.Proof.Gen.Kernel.Skeleton
import proofs.«161960_j76699525972352_2_alg».proof.Proof.Gen.Kernel.Launch
import proofs.«161960_j76699525972352_2_alg».proof.Proof.Gen.Kernel.Points
import proofs.«161960_j76699525972352_2_alg».proof.Proof.Gen.Kernel.Frame
import proofs.«161960_j76699525972352_2_alg».proof.Proof.Gen.KernelIdeal
import proofs.«161960_j76699525972352_2_alg».proof.Proof.Gen.KernelIdeal.Skeleton
import proofs.«161960_j76699525972352_2_alg».proof.Proof.Gen.KernelIdeal.Launch
import proofs.«161960_j76699525972352_2_alg».proof.Proof.Gen.KernelIdeal.Points
import proofs.«161960_j76699525972352_2_alg».proof.Proof.Gen.KernelIdeal.Frame
import proofs.«161960_j76699525972352_2_alg».proof.Proof.Gen.ReferenceIdeal
import proofs.«161960_j76699525972352_2_alg».proof.Proof.Gen.ReferenceIdeal.Read
import proofs.«161960_j76699525972352_2_alg».proof.Proof.Gen.Pre_finite_inputs
import proofs.«161960_j76699525972352_2_alg».proof.Proof.Spec
import proofs.«161960_j76699525972352_2_alg».proof.Proof.RefValue
import proofs.«161960_j76699525972352_2_alg».proof.Proof.KernelHost
import proofs.«161960_j76699525972352_2_alg».proof.Proof.KernelValue
import proofs.«161960_j76699525972352_2_alg».proof.Proof.KernelAcc
import proofs.«161960_j76699525972352_2_alg».proof.Proof.KernelRun
import proofs.«161960_j76699525972352_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The three programs run, fault nowhere, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the metric `G` of the argument arrays: the kernel by its run over the grid and the
    lane-by-lane agreement, the reference by reading its operations; the pin coordinates are real by the precondition. -/
theorem algebraic : Cert.algebraic_KernelIdeal_ReferenceIdeal := by
  intro m ρ m' ρ' hpre hagree
  refine ⟨fun c => fun _ => NetCross.G (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4)), ?_, ?_⟩
  · refine (θ_run Cert.KernelIdeal.defs _ _).mono (fun r h c => ⟨(h c).1.trans ?_, (h c).2⟩)
      (NetCross.KBody.run_of NetCross.KBody.final_out m ρ)
    funext _
    exact NetCross.KBody.kernel_value m c _ _ _ _ _
      (fun k n => congrFun (NetCross.KHost.V59_eq m c) (ix2 k n)) (fun k n => congrFun (NetCross.KHost.V60_eq m c) (ix2 k n))
      (fun k n => congrFun (NetCross.KHost.V61_eq m c) (ix2 k n)) (fun k n => congrFun (NetCross.KHost.V62_eq m c) (ix2 k n))
      (fun k n => congrFun (NetCross.KHost.V63_eq m c) (ix2 k n)) (fun k n => congrFun (NetCross.KHost.V64_eq m c) (ix2 k n))
      (fun n => congrFun (NetCross.KHost.V65_eq m c) (ix2 (0 : Fin 1) n))
      (NetCross.finite_of_pre _ _ _ _ _ (hpre c))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v181_eq, NetCross.Ref.ref_eq, (hagree c).1, (hagree c).2.1, (hagree c).2.2.1,
      (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
